-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "c_4_25" .f32 0x3E23D70A#32 ((4 / 25 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16384x128 : Shape := ⟨3, ![4, 16384, 128]⟩
abbrev S4x2048x128 : Shape := ⟨3, ![4, 2048, 128]⟩
abbrev S4x16384x3 : Shape := ⟨3, ![4, 16384, 3]⟩
abbrev S4x2048x3 : Shape := ⟨3, ![4, 2048, 3]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S4x16384x128 : S_.BroadcastsInDim S4x16384x128 (![] : Fin 0 → Fin S4x16384x128.rank)
  reducesTo_S4x16384x128_S_d0_1_2 : S4x16384x128.ReducesTo [0, 1, 2] S_
  h_S_ : 0 < S_.numel
  bcast_S_S4x2048x128 : S_.BroadcastsInDim S4x2048x128 (![] : Fin 0 → Fin S4x2048x128.rank)
  reducesTo_S4x2048x128_S_d0_1_2 : S4x2048x128.ReducesTo [0, 1, 2] S_
  bcast_S_S4x16384x3 : S_.BroadcastsInDim S4x16384x3 (![] : Fin 0 → Fin S4x16384x3.rank)
  reducesTo_S4x16384x3_S_d0_1_2 : S4x16384x3.ReducesTo [0, 1, 2] S_
  bcast_S_S4x2048x3 : S_.BroadcastsInDim S4x2048x3 (![] : Fin 0 → Fin S4x2048x3.rank)
  reducesTo_S4x2048x3_S_d0_1_2 : S4x2048x3.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_arg11 : FVec F S128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg7 : FVec F S128 .f32) (main_arg8 : FVec F S256x128 .f32) (main_arg9 : FVec F S128 .f32) (main_arg10 : FVec F S256x128 .f32) (main_arg11 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg8
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg10
  let main_cst_18 : FVec F S_ .f32 := constant S_ .f32 0x7F800000#32
  let main_v50 : FVec F S256x128 .f32 := broadcastInDim S256x128 ![] bcast_S_S256x128 main_cst_18
  fn_part3 (F := F) main_arg11 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S256x128 .f32) (main_arg9 : FVec F S128 .f32) (main_arg10 : FVec F S256x128 .f32) (main_arg11 : FVec F S128 .f32) (main_v13 : IVec S_ 1) (main_v16 : IVec S4x2048x3 1) : IVec S_ 1 :=
  let main_c_5 : IVec S_ 1 := constantI S_ 1 1#1
  let main_v17 : IVec S_ 1 := (fun x v => Host.reduce IntOp.andi x v reducesTo_S4x2048x3_S_d0_1_2 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4x16384x128 .f32) (main_arg1 : FVec F S4x2048x128 .f32) (main_arg2 : FVec F S4x16384x3 .f32) (main_arg3 : FVec F S4x2048x3 .f32) (main_arg4 : FVec F S128x128 .f32) (main_arg5 : FVec F S128 .f32) (main_arg6 : FVec F S128x128 .f32) (main_arg7 : FVec F S128 .f32) (main_arg8 : FVec F S256x128 .f32) (main_arg9 : FVec F S128 .f32) (main_arg10 : FVec F S256x128 .f32) (main_arg11 : FVec F S128 .f32) : IVec S_ 1 :=
  let main_v0 : FVec F S4x16384x128 .f32 := Host.absf main_arg0
  let main_cst : FVec F S_ .f32 := constant S_ .f32 0x7F800000#32
  let main_v1 : FVec F S4x16384x128 .f32 := broadcastInDim S4x16384x128 ![] bcast_S_S4x16384x128 main_cst
  let main_v2 : IVec S4x16384x128 1 := cmpf .olt main_v0 main_v1
  let main_c : IVec S_ 1 := constantI S_ 1 1#1
  let main_v3 : IVec S_ 1 := (fun x v => Host.reduce IntOp.andi x v reducesTo_S4x16384x128_S_d0_1_2 h_S_) main_v2 main_c
  let main_v4 : FVec F S4x2048x128 .f32 := Host.absf main_arg1
  let main_cst_0 : FVec F S_ .f32 := constant S_ .f32 0x7F800000#32
  let main_v5 : FVec F S4x2048x128 .f32 := broadcastInDim S4x2048x128 ![] bcast_S_S4x2048x128 main_cst_0
  let main_v6 : IVec S4x2048x128 1 := cmpf .olt main_v4 main_v5
  let main_c_1 : IVec S_ 1 := constantI S_ 1 1#1
  let main_v7 : IVec S_ 1 := (fun x v => Host.reduce IntOp.andi x v reducesTo_S4x2048x128_S_d0_1_2 h_S_) main_v6 main_c_1
  let main_v8 : IVec S_ 1 := andi main_v3 main_v7
  let main_v9 : FVec F S4x16384x3 .f32 := Host.absf main_arg2
  let main_cst_2 : FVec F S_ .f32 := constant S_ .f32 0x7F800000#32
  let main_v10 : FVec F S4x16384x3 .f32 := broadcastInDim S4x16384x3 ![] bcast_S_S4x16384x3 main_cst_2
  let main_v11 : IVec S4x16384x3 1 := cmpf .olt main_v9 main_v10
  let main_c_3 : IVec S_ 1 := constantI S_ 1 1#1
  let main_v12 : IVec S_ 1 := (fun x v => Host.reduce IntOp.andi x v reducesTo_S4x16384x3_S_d0_1_2 h_S_) main_v11 main_c_3
  let main_v13 : IVec S_ 1 := andi main_v8 main_v12
  let main_v14 : FVec F S4x2048x3 .f32 := Host.absf main_arg3
  let main_cst_4 : FVec F S_ .f32 := constant S_ .f32 0x7F800000#32
  let main_v15 : FVec F S4x2048x3 .f32 := broadcastInDim S4x2048x3 ![] bcast_S_S4x2048x3 main_cst_4
  let main_v16 : IVec S4x2048x3 1 := cmpf .olt main_v14 main_v15
  fn_part1 (F := F) main_arg4 main_arg5 main_arg6 main_arg7 main_arg8 main_arg9 main_arg10 main_arg11 main_v13 main_v16
-- ==== Kernel.lean ====
abbrev S4x16384x128 : Shape := ⟨3, ![4, 16384, 128]⟩
abbrev S4x2048x128 : Shape := ⟨3, ![4, 2048, 128]⟩
abbrev S4x16384x3 : Shape := ⟨3, ![4, 16384, 3]⟩
abbrev S4x2048x3 : Shape := ⟨3, ![4, 2048, 3]⟩
abbrev S128x128 : Shape := ⟨2, ![128, 128]⟩
abbrev S128 : Shape := ⟨1, ![128]⟩
abbrev S256x128 : Shape := ⟨2, ![256, 128]⟩
abbrev S4x3x16384 : Shape := ⟨3, ![4, 3, 16384]⟩
abbrev S_ : Shape := ⟨0, ![]⟩
abbrev S4x16384 : Shape := ⟨2, ![4, 16384]⟩
abbrev S4x16384x1 : Shape := ⟨3, ![4, 16384, 1]⟩
abbrev S4x1x16384 : Shape := ⟨3, ![4, 1, 16384]⟩
abbrev S4x8x16384 : Shape := ⟨3, ![4, 8, 16384]⟩
abbrev S4x3x2048 : Shape := ⟨3, ![4, 3, 2048]⟩
abbrev S4x2048 : Shape := ⟨2, ![4, 2048]⟩
abbrev S4x2048x1 : Shape := ⟨3, ![4, 2048, 1]⟩
abbrev S4x1x2048 : Shape := ⟨3, ![4, 1, 2048]⟩
abbrev S4x8x2048 : Shape := ⟨3, ![4, 8, 2048]⟩
abbrev S4x18432x128 : Shape := ⟨3, ![4, 18432, 128]⟩
abbrev S1x512x128 : Shape := ⟨3, ![1, 512, 128]⟩
abbrev S1x8x512 : Shape := ⟨3, ![1, 8, 512]⟩
abbrev S1x8x2048 : Shape := ⟨3, ![1, 8, 2048]⟩
abbrev S1x2048x128 : Shape := ⟨3, ![1, 2048, 128]⟩
abbrev S2048x128 : Shape := ⟨2, ![2048, 128]⟩
abbrev S1x128 : Shape := ⟨2, ![1, 128]⟩
abbrev S512x128 : Shape := ⟨2, ![512, 128]⟩
abbrev S8x512 : Shape := ⟨2, ![8, 512]⟩
abbrev S8x2048 : Shape := ⟨2, ![8, 2048]⟩
abbrev S512x2048 : Shape := ⟨2, ![512, 2048]⟩
abbrev S512 : Shape := ⟨1, ![512]⟩
abbrev S512x1 : Shape := ⟨2, ![512, 1]⟩
abbrev S512x256 : Shape := ⟨2, ![512, 256]⟩
abbrev S2048x256 : Shape := ⟨2, ![2048, 256]⟩

abbrev nBuf : Space → Nat
  | .hbm => 38
  | .vmem => 21
  | .smem => 0
  | _ => 0

abbrev bufTy : (tb : Table) → Fin (tcTables nBuf tb) → BufTy
  | .hbm, ⟨0, _⟩ => ⟨S4x16384x128, .f32⟩
  | .hbm, ⟨1, _⟩ => ⟨S4x2048x128, .f32⟩
  | .hbm, ⟨2, _⟩ => ⟨S4x16384x3, .f32⟩
  | .hbm, ⟨3, _⟩ => ⟨S4x2048x3, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S4x3x16384, .f32⟩
  | .hbm, ⟨13, _⟩ => ⟨S4x16384x3, .f32⟩
  | .hbm, ⟨14, _⟩ => ⟨S_, .f32⟩
  | .hbm, ⟨15, _⟩ => ⟨S4x16384, .f32⟩
  | .hbm, ⟨16, _⟩ => ⟨S4x16384x1, .f32⟩
  | .hbm, ⟨17, _⟩ => ⟨S4x1x16384, .f32⟩
  | .hbm, ⟨18, _⟩ => ⟨S_, .f32⟩
  | .hbm, ⟨19, _⟩ => ⟨S4x1x16384, .f32⟩
  | .hbm, ⟨20, _⟩ => ⟨S_, .f32⟩
  | .hbm, ⟨21, _⟩ => ⟨S4x3x16384, .f32⟩
  | .hbm, ⟨22, _⟩ => ⟨S4x8x16384, .f32⟩
  | .hbm, ⟨23, _⟩ => ⟨S4x3x2048, .f32⟩
  | .hbm, ⟨24, _⟩ => ⟨S_, .f32⟩
  | .hbm, ⟨25, _⟩ => ⟨S4x3x2048, .f32⟩
  | .hbm, ⟨26, _⟩ => ⟨S4x3x2048, .f32⟩
  | .hbm, ⟨27, _⟩ => ⟨S4x2048x3, .f32⟩
  | .hbm, ⟨28, _⟩ => ⟨S_, .f32⟩
  | .hbm, ⟨29, _⟩ => ⟨S4x2048, .f32⟩
  | .hbm, ⟨30, _⟩ => ⟨S4x2048x1, .f32⟩
  | .hbm, ⟨31, _⟩ => ⟨S4x1x2048, .f32⟩
  | .hbm, ⟨32, _⟩ => ⟨S_, .f32⟩
  | .hbm, ⟨33, _⟩ => ⟨S4x1x2048, .f32⟩
  | .hbm, ⟨34, _⟩ => ⟨S_, .f32⟩
  | .hbm, ⟨35, _⟩ => ⟨S4x3x2048, .f32⟩
  | .hbm, ⟨36, _⟩ => ⟨S4x8x2048, .f32⟩
  | .hbm, ⟨37, _⟩ => ⟨S4x18432x128, .f32⟩
  | .local _ .vmem, ⟨0, _⟩ => ⟨S1x512x128, .f32⟩
  | .local _ .vmem, ⟨1, _⟩ => ⟨S1x512x128, .f32⟩
  | .local _ .vmem, ⟨2, _⟩ => ⟨S1x8x512, .f32⟩
  | .local _ .vmem, ⟨3, _⟩ => ⟨S1x8x512, .f32⟩
  | .local _ .vmem, ⟨4, _⟩ => ⟨S1x8x2048, .f32⟩
  | .local _ .vmem, ⟨5, _⟩ => ⟨S1x8x2048, .f32⟩
  | .local _ .vmem, ⟨6, _⟩ => ⟨S1x2048x128, .f32⟩
  | .local _ .vmem, ⟨7, _⟩ => ⟨S1x2048x128, .f32⟩
  | .local _ .vmem, ⟨8, _⟩ => ⟨S128x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S256x128, .f32⟩
  | .local _ .vmem, ⟨13, _⟩ => ⟨S128, .f32⟩
  | .local _ .vmem, ⟨14, _⟩ => ⟨S256x128, .f32⟩
  | .local _ .vmem, ⟨15, _⟩ => ⟨S128, .f32⟩
  | .local _ .vmem, ⟨16, _⟩ => ⟨S1x512x128, .f32⟩
  | .local _ .vmem, ⟨17, _⟩ => ⟨S1x512x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | _, _ => ⟨S4x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_4 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![4, 36], ![false, false]⟩

def k0_cond4 (i : grid0.Coords) : BitVec 1 :=
  let arg1 : BitVec 32 := BitVec.ofNat 32 (i 1).val
  let c32_i32_3 : BitVec 32 := 32#32
  let v9 : BitVec 1 := Scalar.cmpi .sge arg1 c32_i32_3
  let v10 : BitVec 32 := Scalar.extui v9
  let c0_i32_4 : BitVec 32 := 0#32
  let v11 : BitVec 1 := Scalar.cmpi .ne v10 c0_i32_4
  v11

def k0_mult1 (i : grid0.Coords) : BitVec 32 :=
  let arg1 : BitVec 32 := BitVec.ofNat 32 (i 1).val
  let c32_i32_5 : BitVec 32 := 32#32
  let v12 : BitVec 32 := Scalar.subi arg1 c32_i32_5
  let c512_i32 : BitVec 32 := 512#32
  let v13 : BitVec 32 := Scalar.muli v12 c512_i32
  v13
def k0_off1 (i : grid0.Coords) : Fin 2 → Nat :=
  let arg1 : BitVec 32 := BitVec.ofNat 32 (i 1).val
  let c32_i32_5 : BitVec 32 := 32#32
  let v12 : BitVec 32 := Scalar.subi arg1 c32_i32_5
  let c512_i32 : BitVec 32 := 512#32
  let v13 : BitVec 32 := Scalar.muli v12 c512_i32
  let v14 : BitVec 32 := v13
  let v15 : Index := Scalar.indexCast v14
  let c0 : Index := 0#32
  ![v15.toNat, 0]
def k0_cond2 (i : grid0.Coords) : BitVec 1 :=
  let arg1 : BitVec 32 := BitVec.ofNat 32 (i 1).val
  let c32_i32 : BitVec 32 := 32#32
  let v3 : BitVec 1 := Scalar.cmpi .slt arg1 c32_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

class Facts₀ : Prop where
  transposes_S4x16384x3_S4x3x16384_0_2_1 : S4x16384x3.Transposes [0, 2, 1] S4x3x16384
  reducesTo_S4x16384x3_S4x16384_d2 : S4x16384x3.ReducesTo [2] S4x16384
  h_S_ : 0 < S_.numel
  bcast_S4x16384_S4x16384x1_0_1 : S4x16384.BroadcastsInDim S4x16384x1 (![0, 1] : Fin 2 → Fin S4x16384x1.rank)
  transposes_S4x16384x1_S4x1x16384_0_2_1 : S4x16384x1.Transposes [0, 2, 1] S4x1x16384
  bcast_S_S4x1x16384 : S_.BroadcastsInDim S4x1x16384 (![] : Fin 0 → Fin S4x1x16384.rank)
  bcast_S_S4x3x16384 : S_.BroadcastsInDim S4x3x16384 (![] : Fin 0 → Fin S4x3x16384.rank)
  concatenates_S4x3x16384_S4x1x16384_S4x1x16384_S4x3x16384_S4x8x16384_d1 : Shape.Concatenates [S4x3x16384, S4x1x16384, S4x1x16384, S4x3x16384] S4x8x16384 1
  transposes_S4x2048x3_S4x3x2048_0_2_1 : S4x2048x3.Transposes [0, 2, 1] S4x3x2048
  bcast_S_S4x3x2048 : S_.BroadcastsInDim S4x3x2048 (![] : Fin 0 → Fin S4x3x2048.rank)
  reducesTo_S4x2048x3_S4x2048_d2 : S4x2048x3.ReducesTo [2] S4x2048
  bcast_S4x2048_S4x2048x1_0_1 : S4x2048.BroadcastsInDim S4x2048x1 (![0, 1] : Fin 2 → Fin S4x2048x1.rank)
  transposes_S4x2048x1_S4x1x2048_0_2_1 : S4x2048x1.Transposes [0, 2, 1] S4x1x2048
  bcast_S_S4x1x2048 : S_.BroadcastsInDim S4x1x2048 (![] : Fin 0 → Fin S4x1x2048.rank)
  concatenates_S4x3x2048_S4x1x2048_S4x1x2048_S4x3x2048_S4x8x2048_d1 : Shape.Concatenates [S4x3x2048, S4x1x2048, S4x1x2048, S4x3x2048] S4x8x2048 1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  bitsLt_bf16_f32 : FTy.bits .bf16 < FTy.bits .f32
  shapeCasts_S128_S1x128 : S128.ShapeCasts S1x128
  broadcasts_S1x128_S2048x128 : S1x128.Broadcasts S2048x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x8x512_S1x8x512_0_0_0 : ∀ a, (![0, 0, 0] : Fin 3 → Nat) a + S1x8x512.size a ≤ S1x8x512.size a
  h_S1x8x512 : 0 < S1x8x512.numel
  shapeCasts_S1x8x512_S8x512 : S1x8x512.ShapeCasts S8x512
  inb_S1x8x2048_S1x8x2048_0_0_0 : ∀ a, (![0, 0, 0] : Fin 3 → Nat) a + S1x8x2048.size a ≤ S1x8x2048.size a
  h_S1x8x2048 : 0 < S1x8x2048.numel
  shapeCasts_S1x8x2048_S8x2048 : S1x8x2048.ShapeCasts S8x2048
  broadcasts_S1x128_S512x128 : S1x128.Broadcasts S512x128
  reduces_S512x2048_S512 : S512x2048.Reduces [1] S512
  shapeCasts_S512_S512x1 : S512.ShapeCasts S512x1
  broadcasts_S512x1_S512x128 : S512x1.Broadcasts S512x128
  inb_S256x128_S256x128_0_0 : ∀ a, (![0, 0] : Fin 2 → Nat) a + S256x128.size a ≤ S256x128.size a
  h_S256x128 : 0 < S256x128.numel
  concatenates_S512x128_S512x128_S512x256_d1 : Shape.Concatenates [S512x128, S512x128] S512x256 1
  shapeCasts_S512x128_S1x512x128 : S512x128.ShapeCasts S1x512x128
  concatenates_S2048x128_S2048x128_S2048x256_d1 : Shape.Concatenates [S2048x128, S2048x128] S2048x256 1
  h_S512x128 : 0 < S512x128.numel
  dot_S2048x128_S128x128_S2048x128_1_0_0_1_n_n_wf : DotDims.WF S2048x128 S128x128 S2048x128 [1] [0] [0] [1] [] []
  dot_S512x128_S128x128_S512x128_1_0_0_1_n_n_wf : DotDims.WF S512x128 S128x128 S512x128 [1] [0] [0] [1] [] []
  dot_S8x512_S8x2048_S512x2048_0_0_1_1_n_n_wf : DotDims.WF S8x512 S8x2048 S512x2048 [0] [0] [1] [1] [] []
  dot_S512x2048_S2048x128_S512x128_1_0_0_1_n_n_wf : DotDims.WF S512x2048 S2048x128 S512x128 [1] [0] [0] [1] [] []
  dot_S512x2048_S512x128_S2048x128_0_0_1_1_n_n_wf : DotDims.WF S512x2048 S512x128 S2048x128 [0] [0] [1] [1] [] []
  dot_S512x256_S256x128_S512x128_1_0_0_1_n_n_wf : DotDims.WF S512x256 S256x128 S512x128 [1] [0] [0] [1] [] []
  dot_S2048x256_S256x128_S2048x128_1_0_0_1_n_n_wf : DotDims.WF S2048x256 S256x128 S2048x128 [1] [0] [0] [1] [] []
  hrank0 : 0 < grid0.rank
  k0_mult1_dvd : ∀ i : grid0.Coords, ∀ (k0_h4 : k0_cond4 i = 1#1), 512 ∣ (k0_mult1 i).toNat
  k0_off1_inb : ∀ i : grid0.Coords, ∀ (k0_h4 : k0_cond4 i = 1#1), ∀ a, (k0_off1 i) a + S512x128.size a ≤ S2048x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S4x16384x128.size a
  hwx0_0 : ∀ i : grid0.Coords, EltTy.bits .f32 = 32 ∨ (Rect.block (s := S4x16384x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x512.size a ≤ S4x8x16384.size a
  hwx0_1 : ∀ i : grid0.Coords, EltTy.bits .f32 = 32 ∨ (Rect.block (s := S4x8x16384) S1x8x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x2048.size a ≤ S4x8x2048.size a
  hwx0_2 : ∀ i : grid0.Coords, EltTy.bits .f32 = 32 ∨ (Rect.block (s := S4x8x2048) S1x8x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S4x2048x128.size a
  hwx0_3 : ∀ i : grid0.Coords, EltTy.bits .f32 = 32 ∨ (Rect.block (s := S4x2048x128) S1x2048x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .f32 = 32 ∨ (Rect.block (s := S256x128) S256x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x128.size a ≤ S256x128.size a
  hwx0_10 : ∀ i : grid0.Coords, EltTy.bits .f32 = 32 ∨ (Rect.block (s := S256x128) S256x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x512x128.size a ≤ S4x18432x128.size a
  hwx0_12 : ∀ i : grid0.Coords, EltTy.bits .f32 = 32 ∨ (Rect.block (s := S4x18432x128) S1x512x128.size (cc0_transform_12 i) (hinb0_12 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S8x512_S8x2048_S512x2048_0_0_1_1_n_n : DotDims S8x512 S8x2048 S512x2048 where
  lhsContracting := [0]
  rhsContracting := [0]
  lhsNonContracting := [1]
  rhsNonContracting := [1]
  lhsBatch := []
  rhsBatch := []
  wf := dot_S8x512_S8x2048_S512x2048_0_0_1_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x2048_S512x128_S2048x128_0_0_1_1_n_n : DotDims S512x2048 S512x128 S2048x128 where
  lhsContracting := [0]
  rhsContracting := [0]
  lhsNonContracting := [1]
  rhsNonContracting := [1]
  lhsBatch := []
  rhsBatch := []
  wf := dot_S512x2048_S512x128_S2048x128_0_0_1_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x8x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v18) S1x512x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond2 i == 1#1) && !(k0_cond4 i == 1#1) | ⟨_ + 13, h⟩ => absurd h (Nat.not_lt.2 (Nat.le_add_left _ _))

class Facts : Prop extends Facts₀ where

variable [Facts]
-- ==== ReferenceIdeal.lean ====
abbrev S4x16384x128 : Shape := ⟨3, ![4, 16384, 128]⟩
abbrev S4x2048x128 : Shape := ⟨3, ![4, 2048, 128]⟩
abbrev S4x16384x3 : Shape := ⟨3, ![4, 16384, 3]⟩
abbrev S4x2048x3 : Shape := ⟨3, ![4, 2048, 3]⟩
abbrev S128x128 : Shape := ⟨2, ![128, 128]⟩
abbrev S128 : Shape := ⟨1, ![128]⟩
abbrev S256x128 : Shape := ⟨2, ![256, 128]⟩
abbrev S1x1x128 : Shape := ⟨3, ![1, 1, 128]⟩
abbrev S_ : Shape := ⟨0, ![]⟩
abbrev S4x16384 : Shape := ⟨2, ![4, 16384]⟩
abbrev S4x16384x1 : Shape := ⟨3, ![4, 16384, 1]⟩
abbrev S4x2048 : Shape := ⟨2, ![4, 2048]⟩
abbrev S4x1x2048 : Shape := ⟨3, ![4, 1, 2048]⟩
abbrev S4x16384x2048 : Shape := ⟨3, ![4, 16384, 2048]⟩
abbrev S4x16384x256 : Shape := ⟨3, ![4, 16384, 256]⟩
abbrev S4x2048x256 : Shape := ⟨3, ![4, 2048, 256]⟩
abbrev S4x18432x128 : Shape := ⟨3, ![4, 18432, 128]⟩

abbrev nBuf : Space → Nat
  | .hbm => 82
  | .vmem => 0
  | .smem => 0
  | _ => 0

abbrev bufTy : (tb : Table) → Fin (tcTables nBuf tb) → BufTy
  | .hbm, ⟨0, _⟩ => ⟨S4x16384x128, .f32⟩
  | .hbm, ⟨1, _⟩ => ⟨S4x2048x128, .f32⟩
  | .hbm, ⟨2, _⟩ => ⟨S4x16384x3, .f32⟩
  | .hbm, ⟨3, _⟩ => ⟨S4x2048x3, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S4x16384x128, .f32⟩
  | .hbm, ⟨13, _⟩ => ⟨S1x1x128, .f32⟩
  | .hbm, ⟨14, _⟩ => ⟨S4x16384x128, .f32⟩
  | .hbm, ⟨15, _⟩ => ⟨S4x16384x128, .f32⟩
  | .hbm, ⟨16, _⟩ => ⟨S_, .f32⟩
  | .hbm, ⟨17, _⟩ => ⟨S4x16384x128, .f32⟩
  | .hbm, ⟨18, _⟩ => ⟨S4x16384x128, .f32⟩
  | .hbm, ⟨19, _⟩ => ⟨S4x2048x128, .f32⟩
  | .hbm, ⟨20, _⟩ => ⟨S1x1x128, .f32⟩
  | .hbm, ⟨21, _⟩ => ⟨S4x2048x128, .f32⟩
  | .hbm, ⟨22, _⟩ => ⟨S4x2048x128, .f32⟩
  | .hbm, ⟨23, _⟩ => ⟨S_, .f32⟩
  | .hbm, ⟨24, _⟩ => ⟨S4x2048x128, .f32⟩
  | .hbm, ⟨25, _⟩ => ⟨S4x2048x128, .f32⟩
  | .hbm, ⟨26, _⟩ => ⟨S4x16384x3, .f32⟩
  | .hbm, ⟨27, _⟩ => ⟨S_, .f32⟩
  | .hbm, ⟨28, _⟩ => ⟨S4x16384, .f32⟩
  | .hbm, ⟨29, _⟩ => ⟨S4x16384x1, .f32⟩
  | .hbm, ⟨30, _⟩ => ⟨S4x2048x3, .f32⟩
  | .hbm, ⟨31, _⟩ => ⟨S_, .f32⟩
  | .hbm, ⟨32, _⟩ => ⟨S4x2048, .f32⟩
  | .hbm, ⟨33, _⟩ => ⟨S4x1x2048, .f32⟩
  | .hbm, ⟨34, _⟩ => ⟨S4x16384x2048, .f32⟩
  | .hbm, ⟨35, _⟩ => ⟨S4x16384x2048, .f32⟩
  | .hbm, ⟨36, _⟩ => ⟨S4x16384x2048, .f32⟩
  | .hbm, ⟨37, _⟩ => ⟨S4x16384x2048, .f32⟩
  | .hbm, ⟨38, _⟩ => ⟨S_, .f32⟩
  | .hbm, ⟨39, _⟩ => ⟨S4x16384x2048, .f32⟩
  | .hbm, ⟨40, _⟩ => ⟨S4x16384x2048, .f32⟩
  | .hbm, ⟨41, _⟩ => ⟨S4x16384x2048, .f32⟩
  | .hbm, ⟨42, _⟩ => ⟨S_, .f32⟩
  | .hbm, ⟨43, _⟩ => ⟨S4x16384x2048, .f32⟩
  | .hbm, ⟨44, _⟩ => ⟨S4x16384x2048, .f32⟩
  | .hbm, ⟨45, _⟩ => ⟨S4x16384x2048, .f32⟩
  | .hbm, ⟨46, _⟩ => ⟨S_, .f32⟩
  | .hbm, ⟨47, _⟩ => ⟨S4x16384x2048, .f32⟩
  | .hbm, ⟨48, _⟩ => ⟨S4x16384x2048, .f32⟩
  | .hbm, ⟨49, _⟩ => ⟨S4x16384x2048, .f32⟩
  | .hbm, ⟨50, _⟩ => ⟨S_, .f32⟩
  | .hbm, ⟨51, _⟩ => ⟨S4x16384x2048, .f32⟩
  | .hbm, ⟨52, _⟩ => ⟨S4x16384x2048, .i1⟩
  | .hbm, ⟨53, _⟩ => ⟨S4x16384x2048, .f32⟩
  | .hbm, ⟨54, _⟩ => ⟨S4x16384x2048, .f32⟩
  | .hbm, ⟨55, _⟩ => ⟨S_, .f32⟩
  | .hbm, ⟨56, _⟩ => ⟨S4x16384, .f32⟩
  | .hbm, ⟨57, _⟩ => ⟨S4x16384x1, .f32⟩
  | .hbm, ⟨58, _⟩ => ⟨S_, .f32⟩
  | .hbm, ⟨59, _⟩ => ⟨S4x16384x1, .f32⟩
  | .hbm, ⟨60, _⟩ => ⟨S4x16384x1, .f32⟩
  | .hbm, ⟨61, _⟩ => ⟨S4x16384x2048, .f32⟩
  | .hbm, ⟨62, _⟩ => ⟨S4x16384x2048, .f32⟩
  | .hbm, ⟨63, _⟩ => ⟨S4x16384x128, .f32⟩
  | .hbm, ⟨64, _⟩ => ⟨S4x2048x128, .f32⟩
  | .hbm, ⟨65, _⟩ => ⟨S4x16384x256, .f32⟩
  | .hbm, ⟨66, _⟩ => ⟨S4x16384x128, .f32⟩
  | .hbm, ⟨67, _⟩ => ⟨S1x1x128, .f32⟩
  | .hbm, ⟨68, _⟩ => ⟨S4x16384x128, .f32⟩
  | .hbm, ⟨69, _⟩ => ⟨S4x16384x128, .f32⟩
  | .hbm, ⟨70, _⟩ => ⟨S_, .f32⟩
  | .hbm, ⟨71, _⟩ => ⟨S4x16384x128, .f32⟩
  | .hbm, ⟨72, _⟩ => ⟨S4x16384x128, .f32⟩
  | .hbm, ⟨73, _⟩ => ⟨S4x2048x256, .f32⟩
  | .hbm, ⟨74, _⟩ => ⟨S4x2048x128, .f32⟩
  | .hbm, ⟨75, _⟩ => ⟨S1x1x128, .f32⟩
  | .hbm, ⟨76, _⟩ => ⟨S4x2048x128, .f32⟩
  | .hbm, ⟨77, _⟩ => ⟨S4x2048x128, .f32⟩
  | .hbm, ⟨78, _⟩ => ⟨S_, .f32⟩
  | .hbm, ⟨79, _⟩ => ⟨S4x2048x128, .f32⟩
  | .hbm, ⟨80, _⟩ => ⟨S4x2048x128, .f32⟩
  | .hbm, ⟨81, _⟩ => ⟨S4x18432x128, .f32⟩
  | _, _ => ⟨S4x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call1_cst : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call2_cst : Ref sig .tc := ⟨.hbm, 70, rfl⟩
abbrev main_call2_v0 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call3_cst : Ref sig .tc := ⟨.hbm, 78, rfl⟩
abbrev main_call3_v0 : Ref sig .tc := ⟨.hbm, 79, rfl⟩
abbrev main_v52 : Ref sig .tc := ⟨.hbm, 80, rfl⟩
abbrev main_v53 : Ref sig .tc := ⟨.hbm, 81, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S4x16384x128_0_1_2 : S1x1x128.BroadcastsInDim S4x16384x128 (![0, 1, 2] : Fin 3 → Fin S4x16384x128.rank)
  bcast_S_S4x16384x128 : S_.BroadcastsInDim S4x16384x128 (![] : Fin 0 → Fin S4x16384x128.rank)
  bcast_S1x1x128_S4x2048x128_0_1_2 : S1x1x128.BroadcastsInDim S4x2048x128 (![0, 1, 2] : Fin 3 → Fin S4x2048x128.rank)
  bcast_S_S4x2048x128 : S_.BroadcastsInDim S4x2048x128 (![] : Fin 0 → Fin S4x2048x128.rank)
  reducesTo_S4x16384x3_S4x16384_d2 : S4x16384x3.ReducesTo [2] S4x16384
  h_S_ : 0 < S_.numel
  bcast_S4x16384_S4x16384x1_0_1 : S4x16384.BroadcastsInDim S4x16384x1 (![0, 1] : Fin 2 → Fin S4x16384x1.rank)
  reducesTo_S4x2048x3_S4x2048_d2 : S4x2048x3.ReducesTo [2] S4x2048
  bcast_S4x2048_S4x1x2048_0_2 : S4x2048.BroadcastsInDim S4x1x2048 (![0, 2] : Fin 2 → Fin S4x1x2048.rank)
  bcast_S4x16384x1_S4x16384x2048_0_1_2 : S4x16384x1.BroadcastsInDim S4x16384x2048 (![0, 1, 2] : Fin 3 → Fin S4x16384x2048.rank)
  bcast_S4x1x2048_S4x16384x2048_0_1_2 : S4x1x2048.BroadcastsInDim S4x16384x2048 (![0, 1, 2] : Fin 3 → Fin S4x16384x2048.rank)
  bcast_S_S4x16384x2048 : S_.BroadcastsInDim S4x16384x2048 (![] : Fin 0 → Fin S4x16384x2048.rank)
  reducesTo_S4x16384x2048_S4x16384_d2 : S4x16384x2048.ReducesTo [2] S4x16384
  bcast_S_S4x16384x1 : S_.BroadcastsInDim S4x16384x1 (![] : Fin 0 → Fin S4x16384x1.rank)
  concatenates_S4x16384x128_S4x16384x128_S4x16384x256_d2 : Shape.Concatenates [S4x16384x128, S4x16384x128] S4x16384x256 2
  concatenates_S4x2048x128_S4x2048x128_S4x2048x256_d2 : Shape.Concatenates [S4x2048x128, S4x2048x128] S4x2048x256 2
  concatenates_S4x16384x128_S4x2048x128_S4x18432x128_d1 : Shape.Concatenates [S4x16384x128, S4x2048x128] S4x18432x128 1
  dot_S4x16384x128_S128x128_S4x16384x128_2_0_01_1_n_n_wf : DotDims.WF S4x16384x128 S128x128 S4x16384x128 [2] [0] [0, 1] [1] [] []
  dot_S4x2048x128_S128x128_S4x2048x128_2_0_01_1_n_n_wf : DotDims.WF S4x2048x128 S128x128 S4x2048x128 [2] [0] [0, 1] [1] [] []
  dot_S4x16384x3_S4x2048x3_S4x16384x2048_2_2_1_1_0_0_wf : DotDims.WF S4x16384x3 S4x2048x3 S4x16384x2048 [2] [2] [1] [1] [0] [0]
  dot_S4x16384x2048_S4x2048x128_S4x16384x128_2_1_1_2_0_0_wf : DotDims.WF S4x16384x2048 S4x2048x128 S4x16384x128 [2] [1] [1] [2] [0] [0]
  dot_S4x16384x2048_S4x16384x128_S4x2048x128_1_1_2_2_0_0_wf : DotDims.WF S4x16384x2048 S4x16384x128 S4x2048x128 [1] [1] [2] [2] [0] [0]
  dot_S4x16384x256_S256x128_S4x16384x128_2_0_01_1_n_n_wf : DotDims.WF S4x16384x256 S256x128 S4x16384x128 [2] [0] [0, 1] [1] [] []
  dot_S4x2048x256_S256x128_S4x2048x128_2_0_01_1_n_n_wf : DotDims.WF S4x2048x256 S256x128 S4x2048x128 [2] [0] [0, 1] [1] [] []

variable [Facts₀]

def dot_S4x16384x128_S128x128_S4x16384x128_2_0_01_1_n_n : DotDims S4x16384x128 S128x128 S4x16384x128 where
  lhsContracting := [2]
  rhsContracting := [0]
  lhsNonContracting := [0, 1]
  rhsNonContracting := [1]
  lhsBatch := []
  rhsBatch := []
  wf := dot_S4x16384x128_S128x128_S4x16384x128_2_0_01_1_n_n_wf
def dot_S4x2048x128_S128x128_S4x2048x128_2_0_01_1_n_n : DotDims S4x2048x128 S128x128 S4x2048x128 where
  lhsContracting := [2]
  rhsContracting := [0]
  lhsNonContracting := [0, 1]
  rhsNonContracting := [1]
  lhsBatch := []
  rhsBatch := []
  wf := dot_S4x2048x128_S128x128_S4x2048x128_2_0_01_1_n_n_wf
def dot_S4x16384x3_S4x2048x3_S4x16384x2048_2_2_1_1_0_0 : DotDims S4x16384x3 S4x2048x3 S4x16384x2048 where
  lhsContracting := [2]
  rhsContracting := [2]
  lhsNonContracting := [1]
  rhsNonContracting := [1]
  lhsBatch := [0]
  rhsBatch := [0]
  wf := dot_S4x16384x3_S4x2048x3_S4x16384x2048_2_2_1_1_0_0_wf
def dot_S4x16384x2048_S4x2048x128_S4x16384x128_2_1_1_2_0_0 : DotDims S4x16384x2048 S4x2048x128 S4x16384x128 where
  lhsContracting := [2]
  rhsContracting := [1]
  lhsNonContracting := [1]
  rhsNonContracting := [2]
  lhsBatch := [0]
  rhsBatch := [0]
  wf := dot_S4x16384x2048_S4x2048x128_S4x16384x128_2_1_1_2_0_0_wf
def dot_S4x16384x2048_S4x16384x128_S4x2048x128_1_1_2_2_0_0 : DotDims S4x16384x2048 S4x16384x128 S4x2048x128 where
  lhsContracting := [1]
  rhsContracting := [1]
  lhsNonContracting := [2]
  rhsNonContracting := [2]
  lhsBatch := [0]
  rhsBatch := [0]
  wf := dot_S4x16384x2048_S4x16384x128_S4x2048x128_1_1_2_2_0_0_wf
def dot_S4x16384x256_S256x128_S4x16384x128_2_0_01_1_n_n : DotDims S4x16384x256 S256x128 S4x16384x128 where
  lhsContracting := [2]
  rhsContracting := [0]
  lhsNonContracting := [0, 1]
  rhsNonContracting := [1]
  lhsBatch := []
  rhsBatch := []
  wf := dot_S4x16384x256_S256x128_S4x16384x128_2_0_01_1_n_n_wf
def dot_S4x2048x256_S256x128_S4x2048x128_2_0_01_1_n_n : DotDims S4x2048x256 S256x128 S4x2048x128 where
  lhsContracting := [2]
  rhsContracting := [0]
  lhsNonContracting := [0, 1]
  rhsNonContracting := [1]
  lhsBatch := []
  rhsBatch := []
  wf := dot_S4x2048x256_S256x128_S4x2048x128_2_0_01_1_n_n_wf

class Facts : Prop extends Facts₀ where

variable [Facts]
-- ==== Proof.KB.Base.lean ====
/-
  The launch side of the kernel's run, for any reading of the floats.

  @main is twenty-five host operations (they build the two eight-row slabs from the coordinates) followed by ONE
  pallas_call over a 4 × 36 grid: per batch, 32 points that each treat 512 surface rows and 4 points that each copy
  512 finished graph rows into the tail of the result.  Here: what every buffer holds when the region is entered,
  that the twelve arguments are not written by the host operations, what block of its array each input window holds
  at each grid point, in closed form which of the body's four conditional parts run at which point, and how the
  frame claim follows from a run that ends with every windowed array at the contents the proof data computes.
-/
import proofs.«180177_j738734374947_2_alg».proof.Proof.Gen.Kernel.Launch
import proofs.«180177_j738734374947_2_alg».proof.Proof.Gen.Kernel.Skeleton
import proofs.«180177_j738734374947_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the host operations that build the slabs. -/
abbrev V (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is those operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched its block index has not moved since the point before. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is not
    fetched its block index has not moved since the point before. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is not
    fetched its block index has not moved since the point before. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it is not
    fetched its block index has not moved since the point before. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: where it is not
    fetched its block index has not moved since the point before. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not: where it is not
    fetched its block index has not moved since the point before. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not: where it is not
    fetched its block index has not moved since the point before. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not: where it is not
    fetched its block index has not moved since the point before. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not: where it is not
    fetched its block index has not moved since the point before. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not: where it is not
    fetched its block index has not moved since the point before. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not: where it is not
    fetched its block index has not moved since the point before. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not: where it is not
    fetched its block index has not moved since the point before. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- A run that ends with every windowed array at what the proof data computes — an input array at its entry contents —
    and every other unscoped buffer at its entry contents ends with the twelve arguments as launched: ten of them are
    input windows' arrays, the two coordinate arrays are read by the host operations only. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0).trans (((dats 0 c).arrAt_in 0 rfl _).trans ((hA c 0).trans (V_main_arg0 m c))),
      ((h c).1 3).trans (((dats 0 c).arrAt_in 3 rfl _).trans ((hA c 3).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c)))⟩) h

/-! ## The body's four conditions over the grid -/

/-- "this is the batch's first point" (the accumulator is reset and the graph pre-layer computed). -/
abbrev condA (i : grid0.Coords) : Prop := (Scalar.cmpi .ne (Scalar.extui (Scalar.cmpi .eq (BitVec.ofNat 32 (i 1).val) 0#32)) 0#32) = 1#1
theorem hcondA : ∀ t : Fin cfg0.N, condA (grid0.coords t) ↔ t.val % 36 = 0 :=
  (by decide +kernel : ∀ t : Fin grid0.N, condA (grid0.coords t) ↔ t.val % 36 = 0)
/-- "this point treats a tile of surface rows" (the first 32 points of a batch). -/
abbrev condS (i : grid0.Coords) : Prop := k0_cond2 i = 1#1
theorem hcondS : ∀ t : Fin cfg0.N, condS (grid0.coords t) ↔ t.val % 36 < 32 :=
  (by decide +kernel : ∀ t : Fin grid0.N, condS (grid0.coords t) ↔ t.val % 36 < 32)
/-- "this is the last surface tile" (the graph post-layer is computed into its scratch). -/
abbrev condL (i : grid0.Coords) : Prop := (Scalar.cmpi .ne (Scalar.extui (Scalar.cmpi .eq (BitVec.ofNat 32 (i 1).val) 31#32)) 0#32) = 1#1
theorem hcondL : ∀ t : Fin cfg0.N, condL (grid0.coords t) ↔ t.val % 36 = 31 :=
  (by decide +kernel : ∀ t : Fin grid0.N, condL (grid0.coords t) ↔ t.val % 36 = 31)
/-- "this point copies a tile of finished graph rows" (the last 4 points of a batch). -/
abbrev condG (i : grid0.Coords) : Prop := k0_cond4 i = 1#1
theorem hcondG : ∀ t : Fin cfg0.N, condG (grid0.coords t) ↔ 32 ≤ t.val % 36 :=
  (by decide +kernel : ∀ t : Fin grid0.N, condG (grid0.coords t) ↔ 32 ≤ t.val % 36)

/-- No window is idle anywhere on the grid: every point stores into the output window. -/
theorem liveAt : ∀ (w : Fin cfg0.W) (t : Fin cfg0.N), cfg0.idle w (grid0.coords t) = false := by decide +kernel

/-! ## The memrefs the body is called with -/

abbrev ms0 (t : Fin cfg0.N) : Memref sig .tc .vmem S1x512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x8x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S256x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S256x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S128 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x512x128 .f32 := win0_12.stage (cfg0.slots t 12)
abbrev hs12 (t : Fin cfg0.N) : (ms12 t).IsWhole := hstage0_12 ((cfg0.slots t 12).cast nbuf0_12)
/-- The three scratch operands: the graph message's accumulator, the graph pre-layer's output, the finished graph rows. -/
abbrev scAcc : Memref sig .tc .vmem S2048x128 .f32 := Memref.whole cc0_scratch0
abbrev scPre : Memref sig .tc .vmem S2048x128 .f32 := Memref.whole cc0_scratch1
abbrev scNew : Memref sig .tc .vmem S2048x128 .f32 := Memref.whole cc0_scratch2

/-- The class invariant with the three scratch operands as memrefs owned at some contents. -/
theorem PhiA_eq (c : Dev nD) :
    (Pipeline.ΦA spec0 c : sProp 𝕄)
      = iprop(iprop((∃ d, owns (c : Thread nD τ) scAcc fullShare d) ∗ (∃ d, owns (c : Thread nD τ) scPre fullShare d) ∗ (∃ d, owns (c : Thread nD τ) scNew fullShare d)) ∗ (∃ r, prngReg c r)) := by
  unfold Pipeline.ΦA; rw [scopedRest0_eq]; simp only [scAcc, scPre, scNew, owns_whole]; try rfl

end Cert.Kernel.Hand

end
-- ==== Proof.KB.RunA.lean ====
/-
  The kernel body run once, symbolically, at the batch's FIRST point: the accumulator is zeroed, the graph pre-layer is computed into its scratch, and the first surface tile is treated (its message added into the accumulator, its new rows stored).
  The stores it makes into each buffer it writes are recorded as a list of (rectangle, value) pieces, last store first;
  the values are the skeleton's payloads of the contents the body was handed.
-/
import proofs.«180177_j738734374947_2_alg».proof.Proof.KB.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Handed whole buffers at the stated contents (a buffer it overwrites before reading may hold anything), the body runs to
    its end, faults nowhere, leaves every buffer it only reads as it was, and each buffer it writes with the pieces found. -/
noncomputable def runA (c : Dev nD) (i : grid0.Coords) (arg2 : Memref sig .tc .vmem S1x512x128 .f32) (harg2 : arg2.IsWhole) (arg3 : Memref sig .tc .vmem S1x8x512 .f32) (harg3 : arg3.IsWhole) (arg4 : Memref sig .tc .vmem S1x8x2048 .f32) (harg4 : arg4.IsWhole) (arg5 : Memref sig .tc .vmem S1x2048x128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S256x128 .f32) (harg10 : arg10.IsWhole) (arg11 : Memref sig .tc .vmem S128 .f32) (harg11 : arg11.IsWhole) (arg12 : Memref sig .tc .vmem S256x128 .f32) (harg12 : arg12.IsWhole) (arg13 : Memref sig .tc .vmem S128 .f32) (harg13 : arg13.IsWhole) (arg14 : Memref sig .tc .vmem S1x512x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole)
    (h0 : condA i) (h1 : condS i) (h2 : ¬condL i) (h3 : ¬condG i)
    (x2 : Vec F S1x512x128 .f32) (x3 : Vec F S1x8x512 .f32) (x4 : Vec F S1x8x2048 .f32) (x5 : Vec F S1x2048x128 .f32) (x6 : Vec F S128x128 .f32) (x7 : Vec F S128 .f32) (x8 : Vec F S128x128 .f32) (x9 : Vec F S128 .f32) (x10 : Vec F S256x128 .f32) (x11 : Vec F S128 .f32) :
    Σ' (L14 : List (View.Piece (Elt F) S1x512x128 .f32)) (L15 : List (View.Piece (Elt F) S2048x128 .f32)), { L16 : List (View.Piece (Elt F) S2048x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16)) -∗ K ⟨⟩))
          ⊢ wp frame (wpE (defs₀ (F := F)) Variants.none c none) E (cc0__main_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0__main_kernel_eq_skeleton]; unfold cc0__main_kernel_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d14, %f14, -, H14⟩, ⟨%d15, %f15, -, H15⟩, ⟨%d16, %f16, -, H16⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := first | exact h0 | exact h1 | exact h2 | exact h3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H14]
    · iexists _; iexact H14
    isplitl [H15]
    · iexists _; iexact H15
    iexists _; iexact H16

end Cert.Kernel.Hand

end
-- ==== Proof.KB.RunB.lean ====
/-
  The kernel body run once, symbolically, at a MIDDLE surface tile: its message is added into the accumulator and its new rows are stored; the graph pre-layer's scratch is only read.
  The stores it makes into each buffer it writes are recorded as a list of (rectangle, value) pieces, last store first;
  the values are the skeleton's payloads of the contents the body was handed.
-/
import proofs.«180177_j738734374947_2_alg».proof.Proof.KB.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Handed whole buffers at the stated contents (a buffer it overwrites before reading may hold anything), the body runs to
    its end, faults nowhere, leaves every buffer it only reads as it was, and each buffer it writes with the pieces found. -/
noncomputable def runB (c : Dev nD) (i : grid0.Coords) (arg2 : Memref sig .tc .vmem S1x512x128 .f32) (harg2 : arg2.IsWhole) (arg3 : Memref sig .tc .vmem S1x8x512 .f32) (harg3 : arg3.IsWhole) (arg4 : Memref sig .tc .vmem S1x8x2048 .f32) (harg4 : arg4.IsWhole) (arg5 : Memref sig .tc .vmem S1x2048x128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S256x128 .f32) (harg10 : arg10.IsWhole) (arg11 : Memref sig .tc .vmem S128 .f32) (harg11 : arg11.IsWhole) (arg12 : Memref sig .tc .vmem S256x128 .f32) (harg12 : arg12.IsWhole) (arg13 : Memref sig .tc .vmem S128 .f32) (harg13 : arg13.IsWhole) (arg14 : Memref sig .tc .vmem S1x512x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole)
    (h0 : ¬condA i) (h1 : condS i) (h2 : ¬condL i) (h3 : ¬condG i)
    (x2 : Vec F S1x512x128 .f32) (x3 : Vec F S1x8x512 .f32) (x4 : Vec F S1x8x2048 .f32) (x6 : Vec F S128x128 .f32) (x7 : Vec F S128 .f32) (x10 : Vec F S256x128 .f32) (x11 : Vec F S128 .f32) (x15 : Vec F S2048x128 .f32) (x16 : Vec F S2048x128 .f32) :
    Σ' (L14 : List (View.Piece (Elt F) S1x512x128 .f32)), { L15 : List (View.Piece (Elt F) S2048x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg10 fullShare x10 ∗ owns (c : Thread nD τ) arg11 fullShare x11 ∗ (∃ d, owns (c : Thread nD τ) arg14 fullShare d) ∗ owns (c : Thread nD τ) arg15 fullShare x15 ∗ owns (c : Thread nD τ) arg16 fullShare x16
            ∗ (iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg10 fullShare x10 ∗ owns (c : Thread nD τ) arg11 fullShare x11 ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ owns (c : Thread nD τ) arg16 fullShare x16) -∗ K ⟨⟩))
          ⊢ wp frame (wpE (defs₀ (F := F)) Variants.none c none) E (cc0__main_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0__main_kernel_eq_skeleton]; unfold cc0__main_kernel_skel
    simp only [k0_part1_eq_skeleton]; unfold k0_part1_skel
    unfold owns
    iintro ⟨⟨%f2, %hf2, H2⟩, ⟨%f3, %hf3, H3⟩, ⟨%f4, %hf4, H4⟩, ⟨%f6, %hf6, H6⟩, ⟨%f7, %hf7, H7⟩, ⟨%f10, %hf10, H10⟩, ⟨%f11, %hf11, H11⟩, ⟨%d14, %f14, -, H14⟩, ⟨%f15, %hf15, H15⟩, ⟨%f16, %hf16, H16⟩, Hk⟩
    obtain rfl := harg2.eq_unread hf2; obtain rfl := harg3.eq_unread hf3; obtain rfl := harg4.eq_unread hf4; obtain rfl := harg6.eq_unread hf6; obtain rfl := harg7.eq_unread hf7; obtain rfl := harg10.eq_unread hf10; obtain rfl := harg11.eq_unread hf11; obtain rfl := harg15.eq_unread hf15; obtain rfl := harg16.eq_unread hf16
    sl_exec (disch := first | exact h0 | exact h1 | exact h2 | exact h3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [H10]
    · iexists _; isplitr; · ipureintro; exact harg10.read_unread _
      iexact H10
    isplitl [H11]
    · iexists _; isplitr; · ipureintro; exact harg11.read_unread _
      iexact H11
    isplitl [H14]
    · iexists _; iexact H14
    isplitl [H15]
    · iexists _; iexact H15
    iexists _; isplitr; · ipureintro; exact harg16.read_unread _
    iexact H16

end Cert.Kernel.Hand

end
-- ==== Proof.KB.RunC.lean ====
/-
  The kernel body run once, symbolically, at the LAST surface tile: as a middle tile, and then the graph post-layer of (pre-layer output, finished accumulator) is stored whole into the third scratch.
  The stores it makes into each buffer it writes are recorded as a list of (rectangle, value) pieces, last store first;
  the values are the skeleton's payloads of the contents the body was handed.
-/
import proofs.«180177_j738734374947_2_alg».proof.Proof.KB.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Handed whole buffers at the stated contents (a buffer it overwrites before reading may hold anything), the body runs to
    its end, faults nowhere, leaves every buffer it only reads as it was, and each buffer it writes with the pieces found. -/
noncomputable def runC (c : Dev nD) (i : grid0.Coords) (arg2 : Memref sig .tc .vmem S1x512x128 .f32) (harg2 : arg2.IsWhole) (arg3 : Memref sig .tc .vmem S1x8x512 .f32) (harg3 : arg3.IsWhole) (arg4 : Memref sig .tc .vmem S1x8x2048 .f32) (harg4 : arg4.IsWhole) (arg5 : Memref sig .tc .vmem S1x2048x128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S256x128 .f32) (harg10 : arg10.IsWhole) (arg11 : Memref sig .tc .vmem S128 .f32) (harg11 : arg11.IsWhole) (arg12 : Memref sig .tc .vmem S256x128 .f32) (harg12 : arg12.IsWhole) (arg13 : Memref sig .tc .vmem S128 .f32) (harg13 : arg13.IsWhole) (arg14 : Memref sig .tc .vmem S1x512x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole)
    (h0 : ¬condA i) (h1 : condS i) (h2 : condL i) (h3 : ¬condG i)
    (x2 : Vec F S1x512x128 .f32) (x3 : Vec F S1x8x512 .f32) (x4 : Vec F S1x8x2048 .f32) (x6 : Vec F S128x128 .f32) (x7 : Vec F S128 .f32) (x10 : Vec F S256x128 .f32) (x11 : Vec F S128 .f32) (x12 : Vec F S256x128 .f32) (x13 : Vec F S128 .f32) (x15 : Vec F S2048x128 .f32) (x16 : Vec F S2048x128 .f32) :
    Σ' (L14 : List (View.Piece (Elt F) S1x512x128 .f32)) (L15 : List (View.Piece (Elt F) S2048x128 .f32)), { L17 : List (View.Piece (Elt F) S2048x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ owns (c : Thread nD τ) arg15 fullShare x15 ∗ owns (c : Thread nD τ) arg16 fullShare x16 ∗ (∃ d, owns (c : Thread nD τ) arg17 fullShare d)
            ∗ (iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg10 fullShare x10 ∗ owns (c : Thread nD τ) arg11 fullShare x11 ∗ owns (c : Thread nD τ) arg12 fullShare x12 ∗ owns (c : Thread nD τ) arg13 fullShare x13 ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ owns (c : Thread nD τ) arg16 fullShare x16 ∗ (∃ f, arg17.view.loc (c : Thread nD τ) ↦[arg17.view.set]{fullShare} arg17.view.writes (Elt F) f L17)) -∗ K ⟨⟩))
          ⊢ wp frame (wpE (defs₀ (F := F)) Variants.none c none) E (cc0__main_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0__main_kernel_eq_skeleton]; unfold cc0__main_kernel_skel
    simp only [k0_part1_eq_skeleton]; unfold k0_part1_skel
    unfold owns
    iintro ⟨⟨%f2, %hf2, H2⟩, ⟨%f3, %hf3, H3⟩, ⟨%f4, %hf4, H4⟩, ⟨%f6, %hf6, H6⟩, ⟨%f7, %hf7, H7⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, ⟨%d17, %f17, -, H17⟩, Hk⟩
    obtain rfl := harg2.eq_unread hf2; obtain rfl := harg3.eq_unread hf3; obtain rfl := harg4.eq_unread hf4; obtain rfl := harg6.eq_unread hf6; obtain rfl := harg7.eq_unread hf7; obtain rfl := harg10.eq_unread hf10; obtain rfl := harg11.eq_unread hf11; obtain rfl := harg12.eq_unread hf12; obtain rfl := harg13.eq_unread hf13; obtain rfl := harg15.eq_unread hf15; obtain rfl := harg16.eq_unread hf16
    sl_exec (disch := first | exact h0 | exact h1 | exact h2 | exact h3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; iexact H14
    isplitl [H15]
    · iexists _; iexact H15
    isplitl [H16]
    · iexists _; isplitr; · ipureintro; exact harg16.read_unread _
      iexact H16
    iexists _; iexact H17

end Cert.Kernel.Hand

end
-- ==== Proof.KB.RunD.lean ====
/-
  The kernel body run once, symbolically, at a COPY point: 512 finished graph rows, at the row offset the point computes, are copied from the third scratch into the output window.
  The stores it makes into each buffer it writes are recorded as a list of (rectangle, value) pieces, last store first;
  the values are the skeleton's payloads of the contents the body was handed.
-/
import proofs.«180177_j738734374947_2_alg».proof.Proof.KB.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Handed whole buffers at the stated contents (a buffer it overwrites before reading may hold anything), the body runs to
    its end, faults nowhere, leaves every buffer it only reads as it was, and each buffer it writes with the pieces found. -/
noncomputable def runD (c : Dev nD) (i : grid0.Coords) (arg2 : Memref sig .tc .vmem S1x512x128 .f32) (harg2 : arg2.IsWhole) (arg3 : Memref sig .tc .vmem S1x8x512 .f32) (harg3 : arg3.IsWhole) (arg4 : Memref sig .tc .vmem S1x8x2048 .f32) (harg4 : arg4.IsWhole) (arg5 : Memref sig .tc .vmem S1x2048x128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S256x128 .f32) (harg10 : arg10.IsWhole) (arg11 : Memref sig .tc .vmem S128 .f32) (harg11 : arg11.IsWhole) (arg12 : Memref sig .tc .vmem S256x128 .f32) (harg12 : arg12.IsWhole) (arg13 : Memref sig .tc .vmem S128 .f32) (harg13 : arg13.IsWhole) (arg14 : Memref sig .tc .vmem S1x512x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole)
    (h0 : ¬condA i) (h1 : ¬condS i) (h2 : ¬condL i) (h3 : condG i)
    (x17 : Vec F S2048x128 .f32) :
    { L14 : List (View.Piece (Elt F) S1x512x128 .f32) //
      ∀ (E : Set ℕ) (K : PUnit → sProp 𝕄),
        iprop((∃ d, owns (c : Thread nD τ) arg14 fullShare d) ∗ owns (c : Thread nD τ) arg17 fullShare x17
            ∗ (iprop((∃ f, arg14.view.loc (c : Thread nD τ) ↦[arg14.view.set]{fullShare} arg14.view.writes (Elt F) f L14) ∗ owns (c : Thread nD τ) arg17 fullShare x17) -∗ K ⟨⟩))
          ⊢ wp frame (wpE (defs₀ (F := F)) Variants.none c none) E (cc0__main_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0__main_kernel_eq_skeleton]; unfold cc0__main_kernel_skel
    simp only [k0_part1_eq_skeleton]; unfold k0_part1_skel
    unfold owns
    iintro ⟨⟨%d14, %f14, -, H14⟩, ⟨%f17, %hf17, H17⟩, Hk⟩
    obtain rfl := harg17.eq_unread hf17
    sl_exec (disch := first | exact h0 | exact h1 | exact h2 | exact h3)
    sl_step
    iapply Hk
    isplitl [H14]
    · iexists _; iexact H14
    iexists _; isplitr; · ipureintro; exact harg17.read_unread _
    iexact H17

end Cert.Kernel.Hand

end
-- ==== Proof.KB.Points.lean ====
/-
  What the kernel leaves behind, point by point, and the run of the whole program.

  Per batch the grid walks 36 points.  Point 0 resets the graph message's accumulator, computes the graph pre-layer and
  treats surface tile 0; points 1 … 30 treat one surface tile each; point 31 treats the last tile and then applies the
  graph post-layer to (pre-layer output, finished accumulator); points 32 … 35 copy the finished graph rows out, 512 at
  a time.  So between points the three scratch buffers hold: the accumulator so far, the graph pre-layer's output, and
  — from point 31 on — the finished graph rows.  That is the invariant carried here, stated through what each point's
  run of the body stores.
-/
import proofs.«180177_j738734374947_2_alg».proof.Proof.KB.RunD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's run at a grid point, by the point's place in its batch -/

/-- Views through which the contents of the output window's buffer and of the three scratch buffers are stated. -/
abbrev VOut : View sig .tc .vmem S1x512x128 .f32 := (Memref.whole cc0_stg12_0 : Memref sig .tc .vmem S1x512x128 .f32).view
abbrev VAcc : View sig .tc .vmem S2048x128 .f32 := scAcc.view
abbrev VPre : View sig .tc .vmem S2048x128 .f32 := scPre.view
abbrev VNew : View sig .tc .vmem S2048x128 .f32 := scNew.view

/-- The run at a batch's first point, on the point's own staging buffers and input blocks. -/
noncomputable def rA (c : Dev nD) (t : Fin cfg0.N) (hr : t.val % 36 = 0) :=
  runA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scAcc (Memref.isWhole_whole _) scPre (Memref.isWhole_whole _) scNew (Memref.isWhole_whole _)
    ((hcondA t).mpr hr) ((hcondS t).mpr (by omega)) (fun h => by have := (hcondL t).mp h; omega) (fun h => by have := (hcondG t).mp h; omega)
    (iblk m c 0 t) (iblk m c 1 t) (iblk m c 2 t) (iblk m c 3 t) (iblk m c 4 t) (iblk m c 5 t) (iblk m c 6 t) (iblk m c 7 t) (iblk m c 8 t) (iblk m c 9 t)
/-- The run at a middle surface tile, given what the accumulator and the pre-layer scratch hold. -/
noncomputable def rB (c : Dev nD) (t : Fin cfg0.N) (h0 : ¬t.val % 36 = 0) (h1 : t.val % 36 < 31) (acc pre : Vec F S2048x128 .f32) :=
  runB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scAcc (Memref.isWhole_whole _) scPre (Memref.isWhole_whole _) scNew (Memref.isWhole_whole _)
    (fun h => h0 ((hcondA t).mp h)) ((hcondS t).mpr (by omega)) (fun h => by have := (hcondL t).mp h; omega) (fun h => by have := (hcondG t).mp h; omega)
    (iblk m c 0 t) (iblk m c 1 t) (iblk m c 2 t) (iblk m c 4 t) (iblk m c 5 t) (iblk m c 8 t) (iblk m c 9 t) acc pre
/-- The run at the last surface tile. -/
noncomputable def rC (c : Dev nD) (t : Fin cfg0.N) (hr : t.val % 36 = 31) (acc pre : Vec F S2048x128 .f32) :=
  runC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scAcc (Memref.isWhole_whole _) scPre (Memref.isWhole_whole _) scNew (Memref.isWhole_whole _)
    (fun h => by have := (hcondA t).mp h; omega) ((hcondS t).mpr (by omega)) ((hcondL t).mpr hr) (fun h => by have := (hcondG t).mp h; omega)
    (iblk m c 0 t) (iblk m c 1 t) (iblk m c 2 t) (iblk m c 4 t) (iblk m c 5 t) (iblk m c 8 t) (iblk m c 9 t) (iblk m c 10 t) (iblk m c 11 t) acc pre
/-- The run at a copy point, given what the finished-rows scratch holds. -/
noncomputable def rD (c : Dev nD) (t : Fin cfg0.N) (hr : 32 ≤ t.val % 36) (new : Vec F S2048x128 .f32) :=
  runD (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scAcc (Memref.isWhole_whole _) scPre (Memref.isWhole_whole _) scNew (Memref.isWhole_whole _)
    (fun h => by have := (hcondA t).mp h; omega) (fun h => by have := (hcondS t).mp h; omega) (fun h => by have := (hcondL t).mp h; omega) ((hcondG t).mpr hr)
    new

/-! ## Every buffer a run writes, it writes whole -/

theorem coverA_out (c : Dev nD) (t : Fin cfg0.N) (hr : t.val % 36 = 0) (y : S1x512x128.Idx) : ∃ pc ∈ (rA m c t hr).1, y ∈ pc.1.set :=
  View.cover_of_tiledL (rA m c t hr).1 S1x512x128.size (by sl_kernel_rfl) y
theorem coverA_acc (c : Dev nD) (t : Fin cfg0.N) (hr : t.val % 36 = 0) (y : S2048x128.Idx) : ∃ pc ∈ (rA m c t hr).2.1, y ∈ pc.1.set :=
  View.cover_of_tiledL (rA m c t hr).2.1 S2048x128.size (by sl_kernel_rfl) y
theorem coverA_pre (c : Dev nD) (t : Fin cfg0.N) (hr : t.val % 36 = 0) (y : S2048x128.Idx) : ∃ pc ∈ (rA m c t hr).2.2.1, y ∈ pc.1.set :=
  View.cover_of_tiledL (rA m c t hr).2.2.1 S2048x128.size (by sl_kernel_rfl) y
theorem coverB_out (c : Dev nD) (t : Fin cfg0.N) (h0 : ¬t.val % 36 = 0) (h1 : t.val % 36 < 31) (acc pre : Vec F S2048x128 .f32) (y : S1x512x128.Idx) : ∃ pc ∈ (rB m c t h0 h1 acc pre).1, y ∈ pc.1.set :=
  View.cover_of_tiledL (rB m c t h0 h1 acc pre).1 S1x512x128.size (by sl_kernel_rfl) y
theorem coverB_acc (c : Dev nD) (t : Fin cfg0.N) (h0 : ¬t.val % 36 = 0) (h1 : t.val % 36 < 31) (acc pre : Vec F S2048x128 .f32) (y : S2048x128.Idx) : ∃ pc ∈ (rB m c t h0 h1 acc pre).2.1, y ∈ pc.1.set :=
  View.cover_of_tiledL (rB m c t h0 h1 acc pre).2.1 S2048x128.size (by sl_kernel_rfl) y
theorem coverC_out (c : Dev nD) (t : Fin cfg0.N) (hr : t.val % 36 = 31) (acc pre : Vec F S2048x128 .f32) (y : S1x512x128.Idx) : ∃ pc ∈ (rC m c t hr acc pre).1, y ∈ pc.1.set :=
  View.cover_of_tiledL (rC m c t hr acc pre).1 S1x512x128.size (by sl_kernel_rfl) y
theorem coverC_acc (c : Dev nD) (t : Fin cfg0.N) (hr : t.val % 36 = 31) (acc pre : Vec F S2048x128 .f32) (y : S2048x128.Idx) : ∃ pc ∈ (rC m c t hr acc pre).2.1, y ∈ pc.1.set :=
  View.cover_of_tiledL (rC m c t hr acc pre).2.1 S2048x128.size (by sl_kernel_rfl) y
theorem coverC_new (c : Dev nD) (t : Fin cfg0.N) (hr : t.val % 36 = 31) (acc pre : Vec F S2048x128 .f32) (y : S2048x128.Idx) : ∃ pc ∈ (rC m c t hr acc pre).2.2.1, y ∈ pc.1.set :=
  View.cover_of_tiledL (rC m c t hr acc pre).2.2.1 S2048x128.size (by sl_kernel_rfl) y
theorem coverD_out (c : Dev nD) (t : Fin cfg0.N) (hr : 32 ≤ t.val % 36) (new : Vec F S2048x128 .f32) (y : S1x512x128.Idx) : ∃ pc ∈ (rD (F := F) c t hr new).1, y ∈ pc.1.set :=
  View.cover_of_tiledL (rD (F := F) c t hr new).1 S1x512x128.size (by sl_kernel_rfl) y

/-! ## What the buffers hold after each point -/

/-- After the point at position `n`: (the output window's buffer, the accumulator, the pre-layer scratch, the finished-rows
    scratch).  The last component means something only from a batch's point 31 on; before that it is carried along unread. -/
def outsAt (c : Dev nD) : (n : ℕ) → n < cfg0.N → Vec F S1x512x128 .f32 × Vec F S2048x128 .f32 × Vec F S2048x128 .f32 × Vec F S2048x128 .f32
  | 0, hn =>
    (VOut.read (Elt F) (VOut.writes (Elt F) VOut.junk (rA m c ⟨0, hn⟩ (Nat.zero_mod _)).1),
     VAcc.read (Elt F) (VAcc.writes (Elt F) VAcc.junk (rA m c ⟨0, hn⟩ (Nat.zero_mod _)).2.1),
     VPre.read (Elt F) (VPre.writes (Elt F) VPre.junk (rA m c ⟨0, hn⟩ (Nat.zero_mod _)).2.2.1),
     k0_pay1 (F := F))
  | n + 1, hn =>
    if h0 : (n + 1) % 36 = 0 then
      (VOut.read (Elt F) (VOut.writes (Elt F) VOut.junk (rA m c ⟨n + 1, hn⟩ h0).1),
       VAcc.read (Elt F) (VAcc.writes (Elt F) VAcc.junk (rA m c ⟨n + 1, hn⟩ h0).2.1),
       VPre.read (Elt F) (VPre.writes (Elt F) VPre.junk (rA m c ⟨n + 1, hn⟩ h0).2.2.1),
       k0_pay1 (F := F))
    else if h1 : (n + 1) % 36 < 31 then
      (VOut.read (Elt F) (VOut.writes (Elt F) VOut.junk (rB m c ⟨n + 1, hn⟩ h0 h1 (outsAt c n (Nat.lt_of_succ_lt hn)).2.1 (outsAt c n (Nat.lt_of_succ_lt hn)).2.2.1).1),
       VAcc.read (Elt F) (VAcc.writes (Elt F) VAcc.junk (rB m c ⟨n + 1, hn⟩ h0 h1 (outsAt c n (Nat.lt_of_succ_lt hn)).2.1 (outsAt c n (Nat.lt_of_succ_lt hn)).2.2.1).2.1),
       (outsAt c n (Nat.lt_of_succ_lt hn)).2.2.1,
       (outsAt c n (Nat.lt_of_succ_lt hn)).2.2.2)
    else if h2 : (n + 1) % 36 = 31 then
      (VOut.read (Elt F) (VOut.writes (Elt F) VOut.junk (rC m c ⟨n + 1, hn⟩ h2 (outsAt c n (Nat.lt_of_succ_lt hn)).2.1 (outsAt c n (Nat.lt_of_succ_lt hn)).2.2.1).1),
       VAcc.read (Elt F) (VAcc.writes (Elt F) VAcc.junk (rC m c ⟨n + 1, hn⟩ h2 (outsAt c n (Nat.lt_of_succ_lt hn)).2.1 (outsAt c n (Nat.lt_of_succ_lt hn)).2.2.1).2.1),
       (outsAt c n (Nat.lt_of_succ_lt hn)).2.2.1,
       VNew.read (Elt F) (VNew.writes (Elt F) VNew.junk (rC m c ⟨n + 1, hn⟩ h2 (outsAt c n (Nat.lt_of_succ_lt hn)).2.1 (outsAt c n (Nat.lt_of_succ_lt hn)).2.2.1).2.2.1))
    else
      (VOut.read (Elt F) (VOut.writes (Elt F) VOut.junk (rD (F := F) c ⟨n + 1, hn⟩ (show 32 ≤ (n + 1) % 36 by omega) (outsAt c n (Nat.lt_of_succ_lt hn)).2.2.2).1),
       (outsAt c n (Nat.lt_of_succ_lt hn)).2.1,
       (outsAt c n (Nat.lt_of_succ_lt hn)).2.2.1,
       (outsAt c n (Nat.lt_of_succ_lt hn)).2.2.2)

/-- The point before `t`, when `t` is not the first. -/
abbrev prevAt (c : Dev nD) (t : Fin cfg0.N) := outsAt m c (t.val - 1) (Nat.lt_of_le_of_lt (Nat.sub_le _ _) t.isLt)

theorem outsAt_A (c : Dev nD) (t : Fin cfg0.N) (hr : t.val % 36 = 0) :
    outsAt m c t.val t.isLt =
      (VOut.read (Elt F) (VOut.writes (Elt F) VOut.junk (rA m c t hr).1),
       VAcc.read (Elt F) (VAcc.writes (Elt F) VAcc.junk (rA m c t hr).2.1),
       VPre.read (Elt F) (VPre.writes (Elt F) VPre.junk (rA m c t hr).2.2.1),
       k0_pay1 (F := F)) := by
  obtain ⟨n, hn⟩ := t
  cases n with
  | zero => exact rfl
  | succ n => exact (dif_pos hr).trans rfl

theorem outsAt_B (c : Dev nD) (t : Fin cfg0.N) (h0 : ¬t.val % 36 = 0) (h1 : t.val % 36 < 31) :
    outsAt m c t.val t.isLt =
      (VOut.read (Elt F) (VOut.writes (Elt F) VOut.junk (rB m c t h0 h1 (prevAt m c t).2.1 (prevAt m c t).2.2.1).1),
       VAcc.read (Elt F) (VAcc.writes (Elt F) VAcc.junk (rB m c t h0 h1 (prevAt m c t).2.1 (prevAt m c t).2.2.1).2.1),
       (prevAt m c t).2.2.1, (prevAt m c t).2.2.2) := by
  obtain ⟨n, hn⟩ := t
  cases n with
  | zero => exact absurd (Nat.zero_mod _) h0
  | succ n => exact (dif_neg h0).trans ((dif_pos h1).trans rfl)

theorem outsAt_C (c : Dev nD) (t : Fin cfg0.N) (hr : t.val % 36 = 31) :
    outsAt m c t.val t.isLt =
      (VOut.read (Elt F) (VOut.writes (Elt F) VOut.junk (rC m c t hr (prevAt m c t).2.1 (prevAt m c t).2.2.1).1),
       VAcc.read (Elt F) (VAcc.writes (Elt F) VAcc.junk (rC m c t hr (prevAt m c t).2.1 (prevAt m c t).2.2.1).2.1),
       (prevAt m c t).2.2.1,
       VNew.read (Elt F) (VNew.writes (Elt F) VNew.junk (rC m c t hr (prevAt m c t).2.1 (prevAt m c t).2.2.1).2.2.1)) := by
  obtain ⟨n, hn⟩ := t
  cases n with
  | zero => exact absurd (show (0 : ℕ) % 36 = 31 from hr) (by decide)
  | succ n =>
    have hr' : (n + 1) % 36 = 31 := hr
    exact (dif_neg (by omega)).trans ((dif_neg (by omega)).trans ((dif_pos hr').trans rfl))

theorem outsAt_D (c : Dev nD) (t : Fin cfg0.N) (hr : 32 ≤ t.val % 36) :
    outsAt m c t.val t.isLt =
      (VOut.read (Elt F) (VOut.writes (Elt F) VOut.junk (rD (F := F) c t hr (prevAt m c t).2.2.2).1),
       (prevAt m c t).2.1, (prevAt m c t).2.2.1, (prevAt m c t).2.2.2) := by
  obtain ⟨n, hn⟩ := t
  cases n with
  | zero => exact absurd (show 32 ≤ (0 : ℕ) % 36 from hr) (by decide)
  | succ n =>
    have hr' : 32 ≤ (n + 1) % 36 := hr
    exact (dif_neg (by omega)).trans ((dif_neg (by omega)).trans ((dif_neg (by omega)).trans rfl))

end Cert.Kernel.Hand

end
-- ==== Proof.KB.Frame.lean ====
/-
  The proof data of the pipeline and the body's obligation at every grid point; then the run of @main and the frame.
-/
import proofs.«180177_j738734374947_2_alg».proof.Proof.KB.Points

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant between points -/

/-- The finished-rows scratch between points: after a point at place 31 or later of its batch it holds the finished graph
    rows; earlier in a batch it holds something nobody reads. -/
def newHeld (c : Dev nD) (n : ℕ) (hn : n < cfg0.N) : sProp 𝕄 :=
  if 31 ≤ n % 36 then owns (c : Thread nD τ) scNew fullShare (outsAt m c n hn).2.2.2 else iprop(∃ d, owns (c : Thread nD τ) scNew fullShare d)

theorem newHeld_pos (c : Dev nD) (n : ℕ) (hn : n < cfg0.N) (h : 31 ≤ n % 36) :
    newHeld m c n hn = owns (c : Thread nD τ) scNew fullShare (outsAt m c n hn).2.2.2 := if_pos h
theorem newHeld_neg (c : Dev nD) (n : ℕ) (hn : n < cfg0.N) (h : ¬31 ≤ n % 36) :
    newHeld m c n hn = iprop(∃ d, owns (c : Thread nD τ) scNew fullShare d) := if_neg h

/-- Before position `n`: at the very first point the scratch buffers hold anything; afterwards the accumulator and the
    pre-layer scratch hold what the point before left, the finished-rows scratch as `newHeld` says. -/
def PhiS (c : Dev nD) : (n : ℕ) → n ≤ cfg0.N → sProp 𝕄
  | 0, _ => Pipeline.ΦA spec0 c
  | n + 1, hn => iprop(iprop(owns (c : Thread nD τ) scAcc fullShare (outsAt m c n hn).2.1 ∗ owns (c : Thread nD τ) scPre fullShare (outsAt m c n hn).2.2.1 ∗ newHeld m c n hn) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scAcc fullShare (outsAt m c n hn).2.1 ∗ owns (c : Thread nD τ) scPre fullShare (outsAt m c n hn).2.2.1 ∗ newHeld m c n hn) ∗ (∃ r, prngReg c r)) := rfl
theorem PhiS_pos (c : Dev nD) (n : ℕ) (h : n ≤ cfg0.N) (hz : n ≠ 0) :
    PhiS m c n h = iprop(iprop(owns (c : Thread nD τ) scAcc fullShare (outsAt m c (n - 1) (by omega)).2.1 ∗ owns (c : Thread nD τ) scPre fullShare (outsAt m c (n - 1) (by omega)).2.2.1 ∗ newHeld m c (n - 1) (by omega)) ∗ (∃ r, prngReg c r)) := by
  cases n with
  | zero => exact absurd rfl hz
  | succ n => rfl

/-! ## The proof data -/

/-- The arrays as the region finds them; after the body each input's buffer still at its block and the output window's
    at what the point stored; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = (outsAt m c t.val t.isLt).1 := by dsimp only [dats]
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

/-- No window is idle, so what the body must leave in each current buffer is the proof data's `after`. -/
theorem leaves_eq (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [liveAt w t]

/-- Whatever the scratch holds between points, somebody owns it at SOME contents. -/
theorem newHeld_any (c : Dev nD) (n : ℕ) (hn : n < cfg0.N) :
    newHeld m c n hn ⊢ iprop(∃ d, owns (c : Thread nD τ) scNew fullShare d) := by
  unfold newHeld
  split
  · iintro H; iexists _; iexact H
  · exact Idealize.SL.BI.Entails.refl _

set_option maxHeartbeats 6400000 in
/-- The body at any point.  The point's place in its batch says which of the four runs applies; the inputs' buffers hold
    their blocks; the invariant hands over the scratch buffers at what the point before left (at anything at the very
    first point) and takes them back at what this point's run stored, each store covering its buffer. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).owesAt () t.succ = (dats m 0 c).owesAt () t.castSucc from rfl]
  rw [show (dats m 0 c).Φ t.succ = PhiS m c (t.val + 1) t.isLt from rfl, PhiS_succ]
  simp only [leaves_eq, after0, after1, after2, after3, after4, after5, after6, after7, after8, after9, after10, after11, after12]
  have hN : t.val < 144 := lt_of_lt_of_eq t.isLt (show cfg0.N = 144 from N_0)
  by_cases hr0 : t.val % 36 = 0
  · rw [newHeld_neg m c t.val t.isLt (by omega), outsAt_A m c t hr0]
    dsimp only
    by_cases hz : t.val = 0
    · rw [PhiS_castSucc m c t, PhiS_zero m c _ _ hz, PhiA_eq]
      iintro ⟨⟨⟨HAcc, HPre, HNew⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((rA m c t hr0).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H12]; · iexists _; iexact H12
      isplitl [HAcc]; · iexact HAcc
      isplitl [HPre]; · iexact HPre
      iintro ⟨H0, H1, H2, H3, H4, H5, H6, H7, H8, H9, ⟨%e14, H12⟩, ⟨%e15, HAcc⟩, ⟨%e16, HPre⟩⟩
      isplitl [HAcc HPre HNew Hg]
      · isplitr [Hg]
        · isplitl [HAcc]
          · unfold owns; iexists _; isplitr
            swap; · iexact HAcc
            ipureintro; exact View.read_writes_of_cover _ _ _ _ _ (coverA_acc m c t hr0)
          isplitl [HPre]
          · unfold owns; iexists _; isplitr
            swap; · iexact HPre
            ipureintro; exact View.read_writes_of_cover _ _ _ _ _ (coverA_pre m c t hr0)
          iexact HNew
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      unfold owns; iexists _; isplitr
      swap; · iexact H12
      ipureintro; exact View.read_writes_of_cover _ _ _ _ _ (coverA_out m c t hr0)

    · rw [PhiS_castSucc m c t, PhiS_pos m c _ _ hz]
      iintro ⟨⟨⟨HAcc, HPre, HNew⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      ihave HNew := (newHeld_any m c _ _) $$ HNew
      iapply ((rA m c t hr0).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H12]; · iexists _; iexact H12
      isplitl [HAcc]; · iexists _; iexact HAcc
      isplitl [HPre]; · iexists _; iexact HPre
      iintro ⟨H0, H1, H2, H3, H4, H5, H6, H7, H8, H9, ⟨%e14, H12⟩, ⟨%e15, HAcc⟩, ⟨%e16, HPre⟩⟩
      isplitl [HAcc HPre HNew Hg]
      · isplitr [Hg]
        · isplitl [HAcc]
          · unfold owns; iexists _; isplitr
            swap; · iexact HAcc
            ipureintro; exact View.read_writes_of_cover _ _ _ _ _ (coverA_acc m c t hr0)
          isplitl [HPre]
          · unfold owns; iexists _; isplitr
            swap; · iexact HPre
            ipureintro; exact View.read_writes_of_cover _ _ _ _ _ (coverA_pre m c t hr0)
          iexact HNew
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      unfold owns; iexists _; isplitr
      swap; · iexact H12
      ipureintro; exact View.read_writes_of_cover _ _ _ _ _ (coverA_out m c t hr0)

  · have hz : t.val ≠ 0 := fun h => hr0 (by rw [h])
    by_cases hr1 : t.val % 36 < 31
    · rw [newHeld_neg m c t.val t.isLt (by omega), outsAt_B m c t hr0 hr1]
      dsimp only
      rw [PhiS_castSucc m c t, PhiS_pos m c _ _ hz, newHeld_neg m c (t.val - 1) _ (by omega)]
      iintro ⟨⟨⟨HAcc, HPre, HNew⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((rB m c t hr0 hr1 _ _).2.2 Set.univ _)
      isplitl [H0]; · iexact H0
      isplitl [H1]; · iexact H1
      isplitl [H2]; · iexact H2
      isplitl [H4]; · iexact H4
      isplitl [H5]; · iexact H5
      isplitl [H8]; · iexact H8
      isplitl [H9]; · iexact H9
      isplitl [H12]; · iexists _; iexact H12
      isplitl [HAcc]; · iexact HAcc
      isplitl [HPre]; · iexact HPre
      iintro ⟨H0, H1, H2, H4, H5, H8, H9, ⟨%e14, H12⟩, ⟨%e15, HAcc⟩, HPre⟩
      isplitl [HAcc HPre HNew Hg]
      · isplitr [Hg]
        · isplitl [HAcc]
          · unfold owns; iexists _; isplitr
            swap; · iexact HAcc
            ipureintro; exact View.read_writes_of_cover _ _ _ _ _ (coverB_acc m c t hr0 hr1 _ _)
          isplitl [HPre]
          · iexact HPre
          iexact HNew
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      unfold owns; iexists _; isplitr
      swap; · iexact H12
      ipureintro; exact View.read_writes_of_cover _ _ _ _ _ (coverB_out m c t hr0 hr1 _ _)

    · by_cases hr2 : t.val % 36 = 31
      · rw [newHeld_pos m c t.val t.isLt (by omega), outsAt_C m c t hr2]
        dsimp only
        rw [PhiS_castSucc m c t, PhiS_pos m c _ _ hz, newHeld_neg m c (t.val - 1) _ (by omega)]
        iintro ⟨⟨⟨HAcc, HPre, HNew⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((rC m c t hr2 _ _).2.2.2 Set.univ _)
        isplitl [H0]; · iexact H0
        isplitl [H1]; · iexact H1
        isplitl [H2]; · iexact H2
        isplitl [H4]; · iexact H4
        isplitl [H5]; · iexact H5
        isplitl [H8]; · iexact H8
        isplitl [H9]; · iexact H9
        isplitl [H10]; · iexact H10
        isplitl [H11]; · iexact H11
        isplitl [H12]; · iexists _; iexact H12
        isplitl [HAcc]; · iexact HAcc
        isplitl [HPre]; · iexact HPre
        isplitl [HNew]; · iexact HNew
        iintro ⟨H0, H1, H2, H4, H5, H8, H9, H10, H11, ⟨%e14, H12⟩, ⟨%e15, HAcc⟩, HPre, ⟨%e17, HNew⟩⟩
        isplitl [HAcc HPre HNew Hg]
        · isplitr [Hg]
          · isplitl [HAcc]
            · unfold owns; iexists _; isplitr
              swap; · iexact HAcc
              ipureintro; exact View.read_writes_of_cover _ _ _ _ _ (coverC_acc m c t hr2 _ _)
            isplitl [HPre]
            · iexact HPre
            unfold owns; iexists _; isplitr
            swap; · iexact HNew
            ipureintro; exact View.read_writes_of_cover _ _ _ _ _ (coverC_new m c t hr2 _ _)
          · iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        unfold owns; iexists _; isplitr
        swap; · iexact H12
        ipureintro; exact View.read_writes_of_cover _ _ _ _ _ (coverC_out m c t hr2 _ _)

      · have hr3 : 32 ≤ t.val % 36 := by omega
        rw [newHeld_pos m c t.val t.isLt (by omega), outsAt_D m c t hr3]
        dsimp only
        rw [PhiS_castSucc m c t, PhiS_pos m c _ _ hz, newHeld_pos m c (t.val - 1) _ (by omega)]
        iintro ⟨⟨⟨HAcc, HPre, HNew⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((rD (F := F) c t hr3 _).2 Set.univ _)
        isplitl [H12]; · iexists _; iexact H12
        isplitl [HNew]; · iexact HNew
        iintro ⟨⟨%e14, H12⟩, HNew⟩
        isplitl [HAcc HPre HNew Hg]
        · isplitr [Hg]
          · isplitl [HAcc]
            · iexact HAcc
            isplitl [HPre]
            · iexact HPre
            iexact HNew
          · iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        unfold owns; iexists _; isplitr
        swap; · iexact H12
        ipureintro; exact View.read_writes_of_cover _ _ _ _ _ (coverD_out (F := F) c t hr3 _)

/-- The library's body obligation, at every point. -/
theorem body_obligation (c : Dev nD) : BodyObligation (dats (F := F) m 0 c) (defs₀ (F := F)) Variants.none () Set.univ := fun t => by
  rw [bigSep_W0, bigSep_W0]
  exact sound_body m c t

/-- The invariant before any position, restated at the position's number. -/
theorem Phi_eq (c : Dev nD) (t : Fin (cfg0.N + 1)) : (dats m 0 c).Φ t = PhiS m c t.val (Nat.le_of_lt_succ t.isLt) := by
  dsimp only [dats]

/-- Before the first point the class invariant IS the carried one. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the carried contents are forgotten again. -/
theorem hout (c : Dev nD) : (dats m 0 c).Φ (Fin.last cfg0.N) ⊢ Pipeline.ΦA spec0 c := by
  have ht : (Fin.last cfg0.N).val ≠ 0 := by rw [Fin.val_last]; have : cfg0.N = 144 := N_0; omega
  rw [Phi_eq m c (Fin.last cfg0.N), PhiS_pos m c _ _ ht, PhiA_eq]
  iintro ⟨⟨HAcc, HPre, HNew⟩, Hg⟩
  ihave HNew := (newHeld_any m c _ _) $$ HNew
  isplitl [HAcc HPre HNew]
  · isplitl [HAcc]; · iexists _; iexact HAcc
    isplitl [HPre]; · iexists _; iexact HPre
    iexact HNew
  iexact Hg

/-! ## The run and the frame -/

set_option backward.isDefEq.respectTransparency.types false in
/-- Every weakly fair execution of @main terminates, faults nowhere, and ends with every windowed array at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim, for any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.Kernel.Hand

end
-- ==== Proof.KI.Base.lean ====
/-
  The launch side of the kernel's run, for any reading of the floats.

  @main is twenty-five host operations (they build the two eight-row slabs from the coordinates) followed by ONE
  pallas_call over a 4 × 36 grid: per batch, 32 points that each treat 512 surface rows and 4 points that each copy
  512 finished graph rows into the tail of the result.  Here: what every buffer holds when the region is entered,
  that the twelve arguments are not written by the host operations, what block of its array each input window holds
  at each grid point, in closed form which of the body's four conditional parts run at which point, and how the
  frame claim follows from a run that ends with every windowed array at the contents the proof data computes.
-/
import proofs.«180177_j738734374947_2_alg».proof.Proof.Gen.KernelIdeal.Launch
import proofs.«180177_j738734374947_2_alg».proof.Proof.Gen.KernelIdeal.Skeleton
import proofs.«180177_j738734374947_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the host operations that build the slabs. -/
abbrev V (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is those operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched its block index has not moved since the point before. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is not
    fetched its block index has not moved since the point before. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is not
    fetched its block index has not moved since the point before. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it is not
    fetched its block index has not moved since the point before. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: where it is not
    fetched its block index has not moved since the point before. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not: where it is not
    fetched its block index has not moved since the point before. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not: where it is not
    fetched its block index has not moved since the point before. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not: where it is not
    fetched its block index has not moved since the point before. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not: where it is not
    fetched its block index has not moved since the point before. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not: where it is not
    fetched its block index has not moved since the point before. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not: where it is not
    fetched its block index has not moved since the point before. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not: where it is not
    fetched its block index has not moved since the point before. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a frame run -/

/-- A run that ends with every windowed array at what the proof data computes — an input array at its entry contents —
    and every other unscoped buffer at its entry contents ends with the twelve arguments as launched: ten of them are
    input windows' arrays, the two coordinate arrays are read by the host operations only. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0).trans (((dats 0 c).arrAt_in 0 rfl _).trans ((hA c 0).trans (V_main_arg0 m c))),
      ((h c).1 3).trans (((dats 0 c).arrAt_in 3 rfl _).trans ((hA c 3).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c)))⟩) h

/-! ## The body's four conditions over the grid -/

/-- "this is the batch's first point" (the accumulator is reset and the graph pre-layer computed). -/
abbrev condA (i : grid0.Coords) : Prop := (Scalar.cmpi .ne (Scalar.extui (Scalar.cmpi .eq (BitVec.ofNat 32 (i 1).val) 0#32)) 0#32) = 1#1
theorem hcondA : ∀ t : Fin cfg0.N, condA (grid0.coords t) ↔ t.val % 36 = 0 :=
  (by decide +kernel : ∀ t : Fin grid0.N, condA (grid0.coords t) ↔ t.val % 36 = 0)
/-- "this point treats a tile of surface rows" (the first 32 points of a batch). -/
abbrev condS (i : grid0.Coords) : Prop := k0_cond2 i = 1#1
theorem hcondS : ∀ t : Fin cfg0.N, condS (grid0.coords t) ↔ t.val % 36 < 32 :=
  (by decide +kernel : ∀ t : Fin grid0.N, condS (grid0.coords t) ↔ t.val % 36 < 32)
/-- "this is the last surface tile" (the graph post-layer is computed into its scratch). -/
abbrev condL (i : grid0.Coords) : Prop := (Scalar.cmpi .ne (Scalar.extui (Scalar.cmpi .eq (BitVec.ofNat 32 (i 1).val) 31#32)) 0#32) = 1#1
theorem hcondL : ∀ t : Fin cfg0.N, condL (grid0.coords t) ↔ t.val % 36 = 31 :=
  (by decide +kernel : ∀ t : Fin grid0.N, condL (grid0.coords t) ↔ t.val % 36 = 31)
/-- "this point copies a tile of finished graph rows" (the last 4 points of a batch). -/
abbrev condG (i : grid0.Coords) : Prop := k0_cond4 i = 1#1
theorem hcondG : ∀ t : Fin cfg0.N, condG (grid0.coords t) ↔ 32 ≤ t.val % 36 :=
  (by decide +kernel : ∀ t : Fin grid0.N, condG (grid0.coords t) ↔ 32 ≤ t.val % 36)

/-- No window is idle anywhere on the grid: every point stores into the output window. -/
theorem liveAt : ∀ (w : Fin cfg0.W) (t : Fin cfg0.N), cfg0.idle w (grid0.coords t) = false := by decide +kernel

/-! ## The memrefs the body is called with -/

abbrev ms0 (t : Fin cfg0.N) : Memref sig .tc .vmem S1x512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x8x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S256x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S256x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S128 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x512x128 .f32 := win0_12.stage (cfg0.slots t 12)
abbrev hs12 (t : Fin cfg0.N) : (ms12 t).IsWhole := hstage0_12 ((cfg0.slots t 12).cast nbuf0_12)
/-- The three scratch operands: the graph message's accumulator, the graph pre-layer's output, the finished graph rows. -/
abbrev scAcc : Memref sig .tc .vmem S2048x128 .f32 := Memref.whole cc0_scratch0
abbrev scPre : Memref sig .tc .vmem S2048x128 .f32 := Memref.whole cc0_scratch1
abbrev scNew : Memref sig .tc .vmem S2048x128 .f32 := Memref.whole cc0_scratch2

/-- The class invariant with the three scratch operands as memrefs owned at some contents. -/
theorem PhiA_eq (c : Dev nD) :
    (Pipeline.ΦA spec0 c : sProp 𝕄)
      = iprop(iprop((∃ d, owns (c : Thread nD τ) scAcc fullShare d) ∗ (∃ d, owns (c : Thread nD τ) scPre fullShare d) ∗ (∃ d, owns (c : Thread nD τ) scNew fullShare d)) ∗ (∃ r, prngReg c r)) := by
  unfold Pipeline.ΦA; rw [scopedRest0_eq]; simp only [scAcc, scPre, scNew, owns_whole]; try rfl

end Cert.KernelIdeal.Hand

end
-- ==== Proof.KI.RunA.lean ====
/-
  The kernel body run once, symbolically, at the batch's FIRST point: the accumulator is zeroed, the graph pre-layer is computed into its scratch, and the first surface tile is treated (its message added into the accumulator, its new rows stored).
  The stores it makes into each buffer it writes are recorded as a list of (rectangle, value) pieces, last store first;
  the values are the skeleton's payloads of the contents the body was handed.
-/
import proofs.«180177_j738734374947_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Handed whole buffers at the stated contents (a buffer it overwrites before reading may hold anything), the body runs to
    its end, faults nowhere, leaves every buffer it only reads as it was, and each buffer it writes with the pieces found. -/
noncomputable def runA (c : Dev nD) (i : grid0.Coords) (arg2 : Memref sig .tc .vmem S1x512x128 .f32) (harg2 : arg2.IsWhole) (arg3 : Memref sig .tc .vmem S1x8x512 .f32) (harg3 : arg3.IsWhole) (arg4 : Memref sig .tc .vmem S1x8x2048 .f32) (harg4 : arg4.IsWhole) (arg5 : Memref sig .tc .vmem S1x2048x128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S256x128 .f32) (harg10 : arg10.IsWhole) (arg11 : Memref sig .tc .vmem S128 .f32) (harg11 : arg11.IsWhole) (arg12 : Memref sig .tc .vmem S256x128 .f32) (harg12 : arg12.IsWhole) (arg13 : Memref sig .tc .vmem S128 .f32) (harg13 : arg13.IsWhole) (arg14 : Memref sig .tc .vmem S1x512x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole)
    (h0 : condA i) (h1 : condS i) (h2 : ¬condL i) (h3 : ¬condG i)
    (x2 : Vec F S1x512x128 .f32) (x3 : Vec F S1x8x512 .f32) (x4 : Vec F S1x8x2048 .f32) (x5 : Vec F S1x2048x128 .f32) (x6 : Vec F S128x128 .f32) (x7 : Vec F S128 .f32) (x8 : Vec F S128x128 .f32) (x9 : Vec F S128 .f32) (x10 : Vec F S256x128 .f32) (x11 : Vec F S128 .f32) :
    Σ' (L14 : List (View.Piece (Elt F) S1x512x128 .f32)) (L15 : List (View.Piece (Elt F) S2048x128 .f32)), { L16 : List (View.Piece (Elt F) S2048x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16)) -∗ K ⟨⟩))
          ⊢ wp frame (wpE (defs₀ (F := F)) Variants.none c none) E (cc0__main_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0__main_kernel_eq_skeleton]; unfold cc0__main_kernel_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d14, %f14, -, H14⟩, ⟨%d15, %f15, -, H15⟩, ⟨%d16, %f16, -, H16⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
    sl_exec (disch := first | exact h0 | exact h1 | exact h2 | exact h3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H14]
    · iexists _; iexact H14
    isplitl [H15]
    · iexists _; iexact H15
    iexists _; iexact H16

end Cert.KernelIdeal.Hand

end
-- ==== Proof.KI.RunB.lean ====
/-
  The kernel body run once, symbolically, at a MIDDLE surface tile: its message is added into the accumulator and its new rows are stored; the graph pre-layer's scratch is only read.
  The stores it makes into each buffer it writes are recorded as a list of (rectangle, value) pieces, last store first;
  the values are the skeleton's payloads of the contents the body was handed.
-/
import proofs.«180177_j738734374947_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Handed whole buffers at the stated contents (a buffer it overwrites before reading may hold anything), the body runs to
    its end, faults nowhere, leaves every buffer it only reads as it was, and each buffer it writes with the pieces found. -/
noncomputable def runB (c : Dev nD) (i : grid0.Coords) (arg2 : Memref sig .tc .vmem S1x512x128 .f32) (harg2 : arg2.IsWhole) (arg3 : Memref sig .tc .vmem S1x8x512 .f32) (harg3 : arg3.IsWhole) (arg4 : Memref sig .tc .vmem S1x8x2048 .f32) (harg4 : arg4.IsWhole) (arg5 : Memref sig .tc .vmem S1x2048x128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S256x128 .f32) (harg10 : arg10.IsWhole) (arg11 : Memref sig .tc .vmem S128 .f32) (harg11 : arg11.IsWhole) (arg12 : Memref sig .tc .vmem S256x128 .f32) (harg12 : arg12.IsWhole) (arg13 : Memref sig .tc .vmem S128 .f32) (harg13 : arg13.IsWhole) (arg14 : Memref sig .tc .vmem S1x512x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole)
    (h0 : ¬condA i) (h1 : condS i) (h2 : ¬condL i) (h3 : ¬condG i)
    (x2 : Vec F S1x512x128 .f32) (x3 : Vec F S1x8x512 .f32) (x4 : Vec F S1x8x2048 .f32) (x6 : Vec F S128x128 .f32) (x7 : Vec F S128 .f32) (x10 : Vec F S256x128 .f32) (x11 : Vec F S128 .f32) (x15 : Vec F S2048x128 .f32) (x16 : Vec F S2048x128 .f32) :
    Σ' (L14 : List (View.Piece (Elt F) S1x512x128 .f32)), { L15 : List (View.Piece (Elt F) S2048x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg10 fullShare x10 ∗ owns (c : Thread nD τ) arg11 fullShare x11 ∗ (∃ d, owns (c : Thread nD τ) arg14 fullShare d) ∗ owns (c : Thread nD τ) arg15 fullShare x15 ∗ owns (c : Thread nD τ) arg16 fullShare x16
            ∗ (iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg10 fullShare x10 ∗ owns (c : Thread nD τ) arg11 fullShare x11 ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ owns (c : Thread nD τ) arg16 fullShare x16) -∗ K ⟨⟩))
          ⊢ wp frame (wpE (defs₀ (F := F)) Variants.none c none) E (cc0__main_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0__main_kernel_eq_skeleton]; unfold cc0__main_kernel_skel
    simp only [k0_part1_eq_skeleton]; unfold k0_part1_skel
    unfold owns
    iintro ⟨⟨%f2, %hf2, H2⟩, ⟨%f3, %hf3, H3⟩, ⟨%f4, %hf4, H4⟩, ⟨%f6, %hf6, H6⟩, ⟨%f7, %hf7, H7⟩, ⟨%f10, %hf10, H10⟩, ⟨%f11, %hf11, H11⟩, ⟨%d14, %f14, -, H14⟩, ⟨%f15, %hf15, H15⟩, ⟨%f16, %hf16, H16⟩, Hk⟩
    obtain rfl := harg2.eq_unread hf2; obtain rfl := harg3.eq_unread hf3; obtain rfl := harg4.eq_unread hf4; obtain rfl := harg6.eq_unread hf6; obtain rfl := harg7.eq_unread hf7; obtain rfl := harg10.eq_unread hf10; obtain rfl := harg11.eq_unread hf11; obtain rfl := harg15.eq_unread hf15; obtain rfl := harg16.eq_unread hf16
    sl_exec (disch := first | exact h0 | exact h1 | exact h2 | exact h3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [H10]
    · iexists _; isplitr; · ipureintro; exact harg10.read_unread _
      iexact H10
    isplitl [H11]
    · iexists _; isplitr; · ipureintro; exact harg11.read_unread _
      iexact H11
    isplitl [H14]
    · iexists _; iexact H14
    isplitl [H15]
    · iexists _; iexact H15
    iexists _; isplitr; · ipureintro; exact harg16.read_unread _
    iexact H16

end Cert.KernelIdeal.Hand

end
-- ==== Proof.KI.RunC.lean ====
/-
  The kernel body run once, symbolically, at the LAST surface tile: as a middle tile, and then the graph post-layer of (pre-layer output, finished accumulator) is stored whole into the third scratch.
  The stores it makes into each buffer it writes are recorded as a list of (rectangle, value) pieces, last store first;
  the values are the skeleton's payloads of the contents the body was handed.
-/
import proofs.«180177_j738734374947_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Handed whole buffers at the stated contents (a buffer it overwrites before reading may hold anything), the body runs to
    its end, faults nowhere, leaves every buffer it only reads as it was, and each buffer it writes with the pieces found. -/
noncomputable def runC (c : Dev nD) (i : grid0.Coords) (arg2 : Memref sig .tc .vmem S1x512x128 .f32) (harg2 : arg2.IsWhole) (arg3 : Memref sig .tc .vmem S1x8x512 .f32) (harg3 : arg3.IsWhole) (arg4 : Memref sig .tc .vmem S1x8x2048 .f32) (harg4 : arg4.IsWhole) (arg5 : Memref sig .tc .vmem S1x2048x128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S256x128 .f32) (harg10 : arg10.IsWhole) (arg11 : Memref sig .tc .vmem S128 .f32) (harg11 : arg11.IsWhole) (arg12 : Memref sig .tc .vmem S256x128 .f32) (harg12 : arg12.IsWhole) (arg13 : Memref sig .tc .vmem S128 .f32) (harg13 : arg13.IsWhole) (arg14 : Memref sig .tc .vmem S1x512x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole)
    (h0 : ¬condA i) (h1 : condS i) (h2 : condL i) (h3 : ¬condG i)
    (x2 : Vec F S1x512x128 .f32) (x3 : Vec F S1x8x512 .f32) (x4 : Vec F S1x8x2048 .f32) (x6 : Vec F S128x128 .f32) (x7 : Vec F S128 .f32) (x10 : Vec F S256x128 .f32) (x11 : Vec F S128 .f32) (x12 : Vec F S256x128 .f32) (x13 : Vec F S128 .f32) (x15 : Vec F S2048x128 .f32) (x16 : Vec F S2048x128 .f32) :
    Σ' (L14 : List (View.Piece (Elt F) S1x512x128 .f32)) (L15 : List (View.Piece (Elt F) S2048x128 .f32)), { L17 : List (View.Piece (Elt F) S2048x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ owns (c : Thread nD τ) arg15 fullShare x15 ∗ owns (c : Thread nD τ) arg16 fullShare x16 ∗ (∃ d, owns (c : Thread nD τ) arg17 fullShare d)
            ∗ (iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg10 fullShare x10 ∗ owns (c : Thread nD τ) arg11 fullShare x11 ∗ owns (c : Thread nD τ) arg12 fullShare x12 ∗ owns (c : Thread nD τ) arg13 fullShare x13 ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ owns (c : Thread nD τ) arg16 fullShare x16 ∗ (∃ f, arg17.view.loc (c : Thread nD τ) ↦[arg17.view.set]{fullShare} arg17.view.writes (Elt F) f L17)) -∗ K ⟨⟩))
          ⊢ wp frame (wpE (defs₀ (F := F)) Variants.none c none) E (cc0__main_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0__main_kernel_eq_skeleton]; unfold cc0__main_kernel_skel
    simp only [k0_part1_eq_skeleton]; unfold k0_part1_skel
    unfold owns
    iintro ⟨⟨%f2, %hf2, H2⟩, ⟨%f3, %hf3, H3⟩, ⟨%f4, %hf4, H4⟩, ⟨%f6, %hf6, H6⟩, ⟨%f7, %hf7, H7⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, ⟨%d17, %f17, -, H17⟩, Hk⟩
    obtain rfl := harg2.eq_unread hf2; obtain rfl := harg3.eq_unread hf3; obtain rfl := harg4.eq_unread hf4; obtain rfl := harg6.eq_unread hf6; obtain rfl := harg7.eq_unread hf7; obtain rfl := harg10.eq_unread hf10; obtain rfl := harg11.eq_unread hf11; obtain rfl := harg12.eq_unread hf12; obtain rfl := harg13.eq_unread hf13; obtain rfl := harg15.eq_unread hf15; obtain rfl := harg16.eq_unread hf16
    sl_exec (disch := first | exact h0 | exact h1 | exact h2 | exact h3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; iexact H14
    isplitl [H15]
    · iexists _; iexact H15
    isplitl [H16]
    · iexists _; isplitr; · ipureintro; exact harg16.read_unread _
      iexact H16
    iexists _; iexact H17

end Cert.KernelIdeal.Hand

end
-- ==== Proof.KI.RunD.lean ====
/-
  The kernel body run once, symbolically, at a COPY point: 512 finished graph rows, at the row offset the point computes, are copied from the third scratch into the output window.
  The stores it makes into each buffer it writes are recorded as a list of (rectangle, value) pieces, last store first;
  the values are the skeleton's payloads of the contents the body was handed.
-/
import proofs.«180177_j738734374947_2_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Handed whole buffers at the stated contents (a buffer it overwrites before reading may hold anything), the body runs to
    its end, faults nowhere, leaves every buffer it only reads as it was, and each buffer it writes with the pieces found. -/
noncomputable def runD (c : Dev nD) (i : grid0.Coords) (arg2 : Memref sig .tc .vmem S1x512x128 .f32) (harg2 : arg2.IsWhole) (arg3 : Memref sig .tc .vmem S1x8x512 .f32) (harg3 : arg3.IsWhole) (arg4 : Memref sig .tc .vmem S1x8x2048 .f32) (harg4 : arg4.IsWhole) (arg5 : Memref sig .tc .vmem S1x2048x128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S256x128 .f32) (harg10 : arg10.IsWhole) (arg11 : Memref sig .tc .vmem S128 .f32) (harg11 : arg11.IsWhole) (arg12 : Memref sig .tc .vmem S256x128 .f32) (harg12 : arg12.IsWhole) (arg13 : Memref sig .tc .vmem S128 .f32) (harg13 : arg13.IsWhole) (arg14 : Memref sig .tc .vmem S1x512x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole)
    (h0 : ¬condA i) (h1 : ¬condS i) (h2 : ¬condL i) (h3 : condG i)
    (x17 : Vec F S2048x128 .f32) :
    { L14 : List (View.Piece (Elt F) S1x512x128 .f32) //
      ∀ (E : Set ℕ) (K : PUnit → sProp 𝕄),
        iprop((∃ d, owns (c : Thread nD τ) arg14 fullShare d) ∗ owns (c : Thread nD τ) arg17 fullShare x17
            ∗ (iprop((∃ f, arg14.view.loc (c : Thread nD τ) ↦[arg14.view.set]{fullShare} arg14.view.writes (Elt F) f L14) ∗ owns (c : Thread nD τ) arg17 fullShare x17) -∗ K ⟨⟩))
          ⊢ wp frame (wpE (defs₀ (F := F)) Variants.none c none) E (cc0__main_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [cc0__main_kernel_eq_skeleton]; unfold cc0__main_kernel_skel
    simp only [k0_part1_eq_skeleton]; unfold k0_part1_skel
    unfold owns
    iintro ⟨⟨%d14, %f14, -, H14⟩, ⟨%f17, %hf17, H17⟩, Hk⟩
    obtain rfl := harg17.eq_unread hf17
    sl_exec (disch := first | exact h0 | exact h1 | exact h2 | exact h3)
    sl_step
    iapply Hk
    isplitl [H14]
    · iexists _; iexact H14
    iexists _; isplitr; · ipureintro; exact harg17.read_unread _
    iexact H17

end Cert.KernelIdeal.Hand

end
-- ==== Proof.KI.Points.lean ====
/-
  What the kernel leaves behind, point by point, and the run of the whole program.

  Per batch the grid walks 36 points.  Point 0 resets the graph message's accumulator, computes the graph pre-layer and
  treats surface tile 0; points 1 … 30 treat one surface tile each; point 31 treats the last tile and then applies the
  graph post-layer to (pre-layer output, finished accumulator); points 32 … 35 copy the finished graph rows out, 512 at
  a time.  So between points the three scratch buffers hold: the accumulator so far, the graph pre-layer's output, and
  — from point 31 on — the finished graph rows.  That is the invariant carried here, stated through what each point's
  run of the body stores.
-/
import proofs.«180177_j738734374947_2_alg».proof.Proof.KI.RunD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's run at a grid point, by the point's place in its batch -/

/-- Views through which the contents of the output window's buffer and of the three scratch buffers are stated. -/
abbrev VOut : View sig .tc .vmem S1x512x128 .f32 := (Memref.whole cc0_stg12_0 : Memref sig .tc .vmem S1x512x128 .f32).view
abbrev VAcc : View sig .tc .vmem S2048x128 .f32 := scAcc.view
abbrev VPre : View sig .tc .vmem S2048x128 .f32 := scPre.view
abbrev VNew : View sig .tc .vmem S2048x128 .f32 := scNew.view

/-- The run at a batch's first point, on the point's own staging buffers and input blocks. -/
noncomputable def rA (c : Dev nD) (t : Fin cfg0.N) (hr : t.val % 36 = 0) :=
  runA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scAcc (Memref.isWhole_whole _) scPre (Memref.isWhole_whole _) scNew (Memref.isWhole_whole _)
    ((hcondA t).mpr hr) ((hcondS t).mpr (by omega)) (fun h => by have := (hcondL t).mp h; omega) (fun h => by have := (hcondG t).mp h; omega)
    (iblk m c 0 t) (iblk m c 1 t) (iblk m c 2 t) (iblk m c 3 t) (iblk m c 4 t) (iblk m c 5 t) (iblk m c 6 t) (iblk m c 7 t) (iblk m c 8 t) (iblk m c 9 t)
/-- The run at a middle surface tile, given what the accumulator and the pre-layer scratch hold. -/
noncomputable def rB (c : Dev nD) (t : Fin cfg0.N) (h0 : ¬t.val % 36 = 0) (h1 : t.val % 36 < 31) (acc pre : Vec F S2048x128 .f32) :=
  runB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scAcc (Memref.isWhole_whole _) scPre (Memref.isWhole_whole _) scNew (Memref.isWhole_whole _)
    (fun h => h0 ((hcondA t).mp h)) ((hcondS t).mpr (by omega)) (fun h => by have := (hcondL t).mp h; omega) (fun h => by have := (hcondG t).mp h; omega)
    (iblk m c 0 t) (iblk m c 1 t) (iblk m c 2 t) (iblk m c 4 t) (iblk m c 5 t) (iblk m c 8 t) (iblk m c 9 t) acc pre
/-- The run at the last surface tile. -/
noncomputable def rC (c : Dev nD) (t : Fin cfg0.N) (hr : t.val % 36 = 31) (acc pre : Vec F S2048x128 .f32) :=
  runC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scAcc (Memref.isWhole_whole _) scPre (Memref.isWhole_whole _) scNew (Memref.isWhole_whole _)
    (fun h => by have := (hcondA t).mp h; omega) ((hcondS t).mpr (by omega)) ((hcondL t).mpr hr) (fun h => by have := (hcondG t).mp h; omega)
    (iblk m c 0 t) (iblk m c 1 t) (iblk m c 2 t) (iblk m c 4 t) (iblk m c 5 t) (iblk m c 8 t) (iblk m c 9 t) (iblk m c 10 t) (iblk m c 11 t) acc pre
/-- The run at a copy point, given what the finished-rows scratch holds. -/
noncomputable def rD (c : Dev nD) (t : Fin cfg0.N) (hr : 32 ≤ t.val % 36) (new : Vec F S2048x128 .f32) :=
  runD (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scAcc (Memref.isWhole_whole _) scPre (Memref.isWhole_whole _) scNew (Memref.isWhole_whole _)
    (fun h => by have := (hcondA t).mp h; omega) (fun h => by have := (hcondS t).mp h; omega) (fun h => by have := (hcondL t).mp h; omega) ((hcondG t).mpr hr)
    new

/-! ## Every buffer a run writes, it writes whole -/

theorem coverA_out (c : Dev nD) (t : Fin cfg0.N) (hr : t.val % 36 = 0) (y : S1x512x128.Idx) : ∃ pc ∈ (rA m c t hr).1, y ∈ pc.1.set :=
  View.cover_of_tiledL (rA m c t hr).1 S1x512x128.size (by sl_kernel_rfl) y
theorem coverA_acc (c : Dev nD) (t : Fin cfg0.N) (hr : t.val % 36 = 0) (y : S2048x128.Idx) : ∃ pc ∈ (rA m c t hr).2.1, y ∈ pc.1.set :=
  View.cover_of_tiledL (rA m c t hr).2.1 S2048x128.size (by sl_kernel_rfl) y
theorem coverA_pre (c : Dev nD) (t : Fin cfg0.N) (hr : t.val % 36 = 0) (y : S2048x128.Idx) : ∃ pc ∈ (rA m c t hr).2.2.1, y ∈ pc.1.set :=
  View.cover_of_tiledL (rA m c t hr).2.2.1 S2048x128.size (by sl_kernel_rfl) y
theorem coverB_out (c : Dev nD) (t : Fin cfg0.N) (h0 : ¬t.val % 36 = 0) (h1 : t.val % 36 < 31) (acc pre : Vec F S2048x128 .f32) (y : S1x512x128.Idx) : ∃ pc ∈ (rB m c t h0 h1 acc pre).1, y ∈ pc.1.set :=
  View.cover_of_tiledL (rB m c t h0 h1 acc pre).1 S1x512x128.size (by sl_kernel_rfl) y
theorem coverB_acc (c : Dev nD) (t : Fin cfg0.N) (h0 : ¬t.val % 36 = 0) (h1 : t.val % 36 < 31) (acc pre : Vec F S2048x128 .f32) (y : S2048x128.Idx) : ∃ pc ∈ (rB m c t h0 h1 acc pre).2.1, y ∈ pc.1.set :=
  View.cover_of_tiledL (rB m c t h0 h1 acc pre).2.1 S2048x128.size (by sl_kernel_rfl) y
theorem coverC_out (c : Dev nD) (t : Fin cfg0.N) (hr : t.val % 36 = 31) (acc pre : Vec F S2048x128 .f32) (y : S1x512x128.Idx) : ∃ pc ∈ (rC m c t hr acc pre).1, y ∈ pc.1.set :=
  View.cover_of_tiledL (rC m c t hr acc pre).1 S1x512x128.size (by sl_kernel_rfl) y
theorem coverC_acc (c : Dev nD) (t : Fin cfg0.N) (hr : t.val % 36 = 31) (acc pre : Vec F S2048x128 .f32) (y : S2048x128.Idx) : ∃ pc ∈ (rC m c t hr acc pre).2.1, y ∈ pc.1.set :=
  View.cover_of_tiledL (rC m c t hr acc pre).2.1 S2048x128.size (by sl_kernel_rfl) y
theorem coverC_new (c : Dev nD) (t : Fin cfg0.N) (hr : t.val % 36 = 31) (acc pre : Vec F S2048x128 .f32) (y : S2048x128.Idx) : ∃ pc ∈ (rC m c t hr acc pre).2.2.1, y ∈ pc.1.set :=
  View.cover_of_tiledL (rC m c t hr acc pre).2.2.1 S2048x128.size (by sl_kernel_rfl) y
theorem coverD_out (c : Dev nD) (t : Fin cfg0.N) (hr : 32 ≤ t.val % 36) (new : Vec F S2048x128 .f32) (y : S1x512x128.Idx) : ∃ pc ∈ (rD (F := F) c t hr new).1, y ∈ pc.1.set :=
  View.cover_of_tiledL (rD (F := F) c t hr new).1 S1x512x128.size (by sl_kernel_rfl) y

/-! ## What the buffers hold after each point -/

/-- After the point at position `n`: (the output window's buffer, the accumulator, the pre-layer scratch, the finished-rows
    scratch).  The last component means something only from a batch's point 31 on; before that it is carried along unread. -/
def outsAt (c : Dev nD) : (n : ℕ) → n < cfg0.N → Vec F S1x512x128 .f32 × Vec F S2048x128 .f32 × Vec F S2048x128 .f32 × Vec F S2048x128 .f32
  | 0, hn =>
    (VOut.read (Elt F) (VOut.writes (Elt F) VOut.junk (rA m c ⟨0, hn⟩ (Nat.zero_mod _)).1),
     VAcc.read (Elt F) (VAcc.writes (Elt F) VAcc.junk (rA m c ⟨0, hn⟩ (Nat.zero_mod _)).2.1),
     VPre.read (Elt F) (VPre.writes (Elt F) VPre.junk (rA m c ⟨0, hn⟩ (Nat.zero_mod _)).2.2.1),
     k0_pay1 (F := F))
  | n + 1, hn =>
    if h0 : (n + 1) % 36 = 0 then
      (VOut.read (Elt F) (VOut.writes (Elt F) VOut.junk (rA m c ⟨n + 1, hn⟩ h0).1),
       VAcc.read (Elt F) (VAcc.writes (Elt F) VAcc.junk (rA m c ⟨n + 1, hn⟩ h0).2.1),
       VPre.read (Elt F) (VPre.writes (Elt F) VPre.junk (rA m c ⟨n + 1, hn⟩ h0).2.2.1),
       k0_pay1 (F := F))
    else if h1 : (n + 1) % 36 < 31 then
      (VOut.read (Elt F) (VOut.writes (Elt F) VOut.junk (rB m c ⟨n + 1, hn⟩ h0 h1 (outsAt c n (Nat.lt_of_succ_lt hn)).2.1 (outsAt c n (Nat.lt_of_succ_lt hn)).2.2.1).1),
       VAcc.read (Elt F) (VAcc.writes (Elt F) VAcc.junk (rB m c ⟨n + 1, hn⟩ h0 h1 (outsAt c n (Nat.lt_of_succ_lt hn)).2.1 (outsAt c n (Nat.lt_of_succ_lt hn)).2.2.1).2.1),
       (outsAt c n (Nat.lt_of_succ_lt hn)).2.2.1,
       (outsAt c n (Nat.lt_of_succ_lt hn)).2.2.2)
    else if h2 : (n + 1) % 36 = 31 then
      (VOut.read (Elt F) (VOut.writes (Elt F) VOut.junk (rC m c ⟨n + 1, hn⟩ h2 (outsAt c n (Nat.lt_of_succ_lt hn)).2.1 (outsAt c n (Nat.lt_of_succ_lt hn)).2.2.1).1),
       VAcc.read (Elt F) (VAcc.writes (Elt F) VAcc.junk (rC m c ⟨n + 1, hn⟩ h2 (outsAt c n (Nat.lt_of_succ_lt hn)).2.1 (outsAt c n (Nat.lt_of_succ_lt hn)).2.2.1).2.1),
       (outsAt c n (Nat.lt_of_succ_lt hn)).2.2.1,
       VNew.read (Elt F) (VNew.writes (Elt F) VNew.junk (rC m c ⟨n + 1, hn⟩ h2 (outsAt c n (Nat.lt_of_succ_lt hn)).2.1 (outsAt c n (Nat.lt_of_succ_lt hn)).2.2.1).2.2.1))
    else
      (VOut.read (Elt F) (VOut.writes (Elt F) VOut.junk (rD (F := F) c ⟨n + 1, hn⟩ (show 32 ≤ (n + 1) % 36 by omega) (outsAt c n (Nat.lt_of_succ_lt hn)).2.2.2).1),
       (outsAt c n (Nat.lt_of_succ_lt hn)).2.1,
       (outsAt c n (Nat.lt_of_succ_lt hn)).2.2.1,
       (outsAt c n (Nat.lt_of_succ_lt hn)).2.2.2)

/-- The point before `t`, when `t` is not the first. -/
abbrev prevAt (c : Dev nD) (t : Fin cfg0.N) := outsAt m c (t.val - 1) (Nat.lt_of_le_of_lt (Nat.sub_le _ _) t.isLt)

theorem outsAt_A (c : Dev nD) (t : Fin cfg0.N) (hr : t.val % 36 = 0) :
    outsAt m c t.val t.isLt =
      (VOut.read (Elt F) (VOut.writes (Elt F) VOut.junk (rA m c t hr).1),
       VAcc.read (Elt F) (VAcc.writes (Elt F) VAcc.junk (rA m c t hr).2.1),
       VPre.read (Elt F) (VPre.writes (Elt F) VPre.junk (rA m c t hr).2.2.1),
       k0_pay1 (F := F)) := by
  obtain ⟨n, hn⟩ := t
  cases n with
  | zero => exact rfl
  | succ n => exact (dif_pos hr).trans rfl

theorem outsAt_B (c : Dev nD) (t : Fin cfg0.N) (h0 : ¬t.val % 36 = 0) (h1 : t.val % 36 < 31) :
    outsAt m c t.val t.isLt =
      (VOut.read (Elt F) (VOut.writes (Elt F) VOut.junk (rB m c t h0 h1 (prevAt m c t).2.1 (prevAt m c t).2.2.1).1),
       VAcc.read (Elt F) (VAcc.writes (Elt F) VAcc.junk (rB m c t h0 h1 (prevAt m c t).2.1 (prevAt m c t).2.2.1).2.1),
       (prevAt m c t).2.2.1, (prevAt m c t).2.2.2) := by
  obtain ⟨n, hn⟩ := t
  cases n with
  | zero => exact absurd (Nat.zero_mod _) h0
  | succ n => exact (dif_neg h0).trans ((dif_pos h1).trans rfl)

theorem outsAt_C (c : Dev nD) (t : Fin cfg0.N) (hr : t.val % 36 = 31) :
    outsAt m c t.val t.isLt =
      (VOut.read (Elt F) (VOut.writes (Elt F) VOut.junk (rC m c t hr (prevAt m c t).2.1 (prevAt m c t).2.2.1).1),
       VAcc.read (Elt F) (VAcc.writes (Elt F) VAcc.junk (rC m c t hr (prevAt m c t).2.1 (prevAt m c t).2.2.1).2.1),
       (prevAt m c t).2.2.1,
       VNew.read (Elt F) (VNew.writes (Elt F) VNew.junk (rC m c t hr (prevAt m c t).2.1 (prevAt m c t).2.2.1).2.2.1)) := by
  obtain ⟨n, hn⟩ := t
  cases n with
  | zero => exact absurd (show (0 : ℕ) % 36 = 31 from hr) (by decide)
  | succ n =>
    have hr' : (n + 1) % 36 = 31 := hr
    exact (dif_neg (by omega)).trans ((dif_neg (by omega)).trans ((dif_pos hr').trans rfl))

theorem outsAt_D (c : Dev nD) (t : Fin cfg0.N) (hr : 32 ≤ t.val % 36) :
    outsAt m c t.val t.isLt =
      (VOut.read (Elt F) (VOut.writes (Elt F) VOut.junk (rD (F := F) c t hr (prevAt m c t).2.2.2).1),
       (prevAt m c t).2.1, (prevAt m c t).2.2.1, (prevAt m c t).2.2.2) := by
  obtain ⟨n, hn⟩ := t
  cases n with
  | zero => exact absurd (show 32 ≤ (0 : ℕ) % 36 from hr) (by decide)
  | succ n =>
    have hr' : 32 ≤ (n + 1) % 36 := hr
    exact (dif_neg (by omega)).trans ((dif_neg (by omega)).trans ((dif_neg (by omega)).trans rfl))

end Cert.KernelIdeal.Hand

end
-- ==== Proof.KI.Frame.lean ====
/-
  The proof data of the pipeline and the body's obligation at every grid point; then the run of @main and the frame.
-/
import proofs.«180177_j738734374947_2_alg».proof.Proof.KI.Points

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The invariant between points -/

/-- The finished-rows scratch between points: after a point at place 31 or later of its batch it holds the finished graph
    rows; earlier in a batch it holds something nobody reads. -/
def newHeld (c : Dev nD) (n : ℕ) (hn : n < cfg0.N) : sProp 𝕄 :=
  if 31 ≤ n % 36 then owns (c : Thread nD τ) scNew fullShare (outsAt m c n hn).2.2.2 else iprop(∃ d, owns (c : Thread nD τ) scNew fullShare d)

theorem newHeld_pos (c : Dev nD) (n : ℕ) (hn : n < cfg0.N) (h : 31 ≤ n % 36) :
    newHeld m c n hn = owns (c : Thread nD τ) scNew fullShare (outsAt m c n hn).2.2.2 := if_pos h
theorem newHeld_neg (c : Dev nD) (n : ℕ) (hn : n < cfg0.N) (h : ¬31 ≤ n % 36) :
    newHeld m c n hn = iprop(∃ d, owns (c : Thread nD τ) scNew fullShare d) := if_neg h

/-- Before position `n`: at the very first point the scratch buffers hold anything; afterwards the accumulator and the
    pre-layer scratch hold what the point before left, the finished-rows scratch as `newHeld` says. -/
def PhiS (c : Dev nD) : (n : ℕ) → n ≤ cfg0.N → sProp 𝕄
  | 0, _ => Pipeline.ΦA spec0 c
  | n + 1, hn => iprop(iprop(owns (c : Thread nD τ) scAcc fullShare (outsAt m c n hn).2.1 ∗ owns (c : Thread nD τ) scPre fullShare (outsAt m c n hn).2.2.1 ∗ newHeld m c n hn) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scAcc fullShare (outsAt m c n hn).2.1 ∗ owns (c : Thread nD τ) scPre fullShare (outsAt m c n hn).2.2.1 ∗ newHeld m c n hn) ∗ (∃ r, prngReg c r)) := rfl
theorem PhiS_pos (c : Dev nD) (n : ℕ) (h : n ≤ cfg0.N) (hz : n ≠ 0) :
    PhiS m c n h = iprop(iprop(owns (c : Thread nD τ) scAcc fullShare (outsAt m c (n - 1) (by omega)).2.1 ∗ owns (c : Thread nD τ) scPre fullShare (outsAt m c (n - 1) (by omega)).2.2.1 ∗ newHeld m c (n - 1) (by omega)) ∗ (∃ r, prngReg c r)) := by
  cases n with
  | zero => exact absurd rfl hz
  | succ n => rfl

/-! ## The proof data -/

/-- The arrays as the region finds them; after the body each input's buffer still at its block and the output window's
    at what the point stored; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = (outsAt m c t.val t.isLt).1 := by dsimp only [dats]
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

/-- No window is idle, so what the body must leave in each current buffer is the proof data's `after`. -/
theorem leaves_eq (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [liveAt w t]

/-- Whatever the scratch holds between points, somebody owns it at SOME contents. -/
theorem newHeld_any (c : Dev nD) (n : ℕ) (hn : n < cfg0.N) :
    newHeld m c n hn ⊢ iprop(∃ d, owns (c : Thread nD τ) scNew fullShare d) := by
  unfold newHeld
  split
  · iintro H; iexists _; iexact H
  · exact Idealize.SL.BI.Entails.refl _

set_option maxHeartbeats 6400000 in
/-- The body at any point.  The point's place in its batch says which of the four runs applies; the inputs' buffers hold
    their blocks; the invariant hands over the scratch buffers at what the point before left (at anything at the very
    first point) and takes them back at what this point's run stored, each store covering its buffer. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11]
  rw [show (dats m 0 c).owesAt () t.succ = (dats m 0 c).owesAt () t.castSucc from rfl]
  rw [show (dats m 0 c).Φ t.succ = PhiS m c (t.val + 1) t.isLt from rfl, PhiS_succ]
  simp only [leaves_eq, after0, after1, after2, after3, after4, after5, after6, after7, after8, after9, after10, after11, after12]
  have hN : t.val < 144 := lt_of_lt_of_eq t.isLt (show cfg0.N = 144 from N_0)
  by_cases hr0 : t.val % 36 = 0
  · rw [newHeld_neg m c t.val t.isLt (by omega), outsAt_A m c t hr0]
    dsimp only
    by_cases hz : t.val = 0
    · rw [PhiS_castSucc m c t, PhiS_zero m c _ _ hz, PhiA_eq]
      iintro ⟨⟨⟨HAcc, HPre, HNew⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((rA m c t hr0).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H12]; · iexists _; iexact H12
      isplitl [HAcc]; · iexact HAcc
      isplitl [HPre]; · iexact HPre
      iintro ⟨H0, H1, H2, H3, H4, H5, H6, H7, H8, H9, ⟨%e14, H12⟩, ⟨%e15, HAcc⟩, ⟨%e16, HPre⟩⟩
      isplitl [HAcc HPre HNew Hg]
      · isplitr [Hg]
        · isplitl [HAcc]
          · unfold owns; iexists _; isplitr
            swap; · iexact HAcc
            ipureintro; exact View.read_writes_of_cover _ _ _ _ _ (coverA_acc m c t hr0)
          isplitl [HPre]
          · unfold owns; iexists _; isplitr
            swap; · iexact HPre
            ipureintro; exact View.read_writes_of_cover _ _ _ _ _ (coverA_pre m c t hr0)
          iexact HNew
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      unfold owns; iexists _; isplitr
      swap; · iexact H12
      ipureintro; exact View.read_writes_of_cover _ _ _ _ _ (coverA_out m c t hr0)

    · rw [PhiS_castSucc m c t, PhiS_pos m c _ _ hz]
      iintro ⟨⟨⟨HAcc, HPre, HNew⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      ihave HNew := (newHeld_any m c _ _) $$ HNew
      iapply ((rA m c t hr0).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H12]; · iexists _; iexact H12
      isplitl [HAcc]; · iexists _; iexact HAcc
      isplitl [HPre]; · iexists _; iexact HPre
      iintro ⟨H0, H1, H2, H3, H4, H5, H6, H7, H8, H9, ⟨%e14, H12⟩, ⟨%e15, HAcc⟩, ⟨%e16, HPre⟩⟩
      isplitl [HAcc HPre HNew Hg]
      · isplitr [Hg]
        · isplitl [HAcc]
          · unfold owns; iexists _; isplitr
            swap; · iexact HAcc
            ipureintro; exact View.read_writes_of_cover _ _ _ _ _ (coverA_acc m c t hr0)
          isplitl [HPre]
          · unfold owns; iexists _; isplitr
            swap; · iexact HPre
            ipureintro; exact View.read_writes_of_cover _ _ _ _ _ (coverA_pre m c t hr0)
          iexact HNew
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      unfold owns; iexists _; isplitr
      swap; · iexact H12
      ipureintro; exact View.read_writes_of_cover _ _ _ _ _ (coverA_out m c t hr0)

  · have hz : t.val ≠ 0 := fun h => hr0 (by rw [h])
    by_cases hr1 : t.val % 36 < 31
    · rw [newHeld_neg m c t.val t.isLt (by omega), outsAt_B m c t hr0 hr1]
      dsimp only
      rw [PhiS_castSucc m c t, PhiS_pos m c _ _ hz, newHeld_neg m c (t.val - 1) _ (by omega)]
      iintro ⟨⟨⟨HAcc, HPre, HNew⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((rB m c t hr0 hr1 _ _).2.2 Set.univ _)
      isplitl [H0]; · iexact H0
      isplitl [H1]; · iexact H1
      isplitl [H2]; · iexact H2
      isplitl [H4]; · iexact H4
      isplitl [H5]; · iexact H5
      isplitl [H8]; · iexact H8
      isplitl [H9]; · iexact H9
      isplitl [H12]; · iexists _; iexact H12
      isplitl [HAcc]; · iexact HAcc
      isplitl [HPre]; · iexact HPre
      iintro ⟨H0, H1, H2, H4, H5, H8, H9, ⟨%e14, H12⟩, ⟨%e15, HAcc⟩, HPre⟩
      isplitl [HAcc HPre HNew Hg]
      · isplitr [Hg]
        · isplitl [HAcc]
          · unfold owns; iexists _; isplitr
            swap; · iexact HAcc
            ipureintro; exact View.read_writes_of_cover _ _ _ _ _ (coverB_acc m c t hr0 hr1 _ _)
          isplitl [HPre]
          · iexact HPre
          iexact HNew
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      unfold owns; iexists _; isplitr
      swap; · iexact H12
      ipureintro; exact View.read_writes_of_cover _ _ _ _ _ (coverB_out m c t hr0 hr1 _ _)

    · by_cases hr2 : t.val % 36 = 31
      · rw [newHeld_pos m c t.val t.isLt (by omega), outsAt_C m c t hr2]
        dsimp only
        rw [PhiS_castSucc m c t, PhiS_pos m c _ _ hz, newHeld_neg m c (t.val - 1) _ (by omega)]
        iintro ⟨⟨⟨HAcc, HPre, HNew⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((rC m c t hr2 _ _).2.2.2 Set.univ _)
        isplitl [H0]; · iexact H0
        isplitl [H1]; · iexact H1
        isplitl [H2]; · iexact H2
        isplitl [H4]; · iexact H4
        isplitl [H5]; · iexact H5
        isplitl [H8]; · iexact H8
        isplitl [H9]; · iexact H9
        isplitl [H10]; · iexact H10
        isplitl [H11]; · iexact H11
        isplitl [H12]; · iexists _; iexact H12
        isplitl [HAcc]; · iexact HAcc
        isplitl [HPre]; · iexact HPre
        isplitl [HNew]; · iexact HNew
        iintro ⟨H0, H1, H2, H4, H5, H8, H9, H10, H11, ⟨%e14, H12⟩, ⟨%e15, HAcc⟩, HPre, ⟨%e17, HNew⟩⟩
        isplitl [HAcc HPre HNew Hg]
        · isplitr [Hg]
          · isplitl [HAcc]
            · unfold owns; iexists _; isplitr
              swap; · iexact HAcc
              ipureintro; exact View.read_writes_of_cover _ _ _ _ _ (coverC_acc m c t hr2 _ _)
            isplitl [HPre]
            · iexact HPre
            unfold owns; iexists _; isplitr
            swap; · iexact HNew
            ipureintro; exact View.read_writes_of_cover _ _ _ _ _ (coverC_new m c t hr2 _ _)
          · iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        unfold owns; iexists _; isplitr
        swap; · iexact H12
        ipureintro; exact View.read_writes_of_cover _ _ _ _ _ (coverC_out m c t hr2 _ _)

      · have hr3 : 32 ≤ t.val % 36 := by omega
        rw [newHeld_pos m c t.val t.isLt (by omega), outsAt_D m c t hr3]
        dsimp only
        rw [PhiS_castSucc m c t, PhiS_pos m c _ _ hz, newHeld_pos m c (t.val - 1) _ (by omega)]
        iintro ⟨⟨⟨HAcc, HPre, HNew⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((rD (F := F) c t hr3 _).2 Set.univ _)
        isplitl [H12]; · iexists _; iexact H12
        isplitl [HNew]; · iexact HNew
        iintro ⟨⟨%e14, H12⟩, HNew⟩
        isplitl [HAcc HPre HNew Hg]
        · isplitr [Hg]
          · isplitl [HAcc]
            · iexact HAcc
            isplitl [HPre]
            · iexact HPre
            iexact HNew
          · iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        unfold owns; iexists _; isplitr
        swap; · iexact H12
        ipureintro; exact View.read_writes_of_cover _ _ _ _ _ (coverD_out (F := F) c t hr3 _)

/-- The library's body obligation, at every point. -/
theorem body_obligation (c : Dev nD) : BodyObligation (dats (F := F) m 0 c) (defs₀ (F := F)) Variants.none () Set.univ := fun t => by
  rw [bigSep_W0, bigSep_W0]
  exact sound_body m c t

/-- The invariant before any position, restated at the position's number. -/
theorem Phi_eq (c : Dev nD) (t : Fin (cfg0.N + 1)) : (dats m 0 c).Φ t = PhiS m c t.val (Nat.le_of_lt_succ t.isLt) := by
  dsimp only [dats]

/-- Before the first point the class invariant IS the carried one. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the carried contents are forgotten again. -/
theorem hout (c : Dev nD) : (dats m 0 c).Φ (Fin.last cfg0.N) ⊢ Pipeline.ΦA spec0 c := by
  have ht : (Fin.last cfg0.N).val ≠ 0 := by rw [Fin.val_last]; have : cfg0.N = 144 := N_0; omega
  rw [Phi_eq m c (Fin.last cfg0.N), PhiS_pos m c _ _ ht, PhiA_eq]
  iintro ⟨⟨HAcc, HPre, HNew⟩, Hg⟩
  ihave HNew := (newHeld_any m c _ _) $$ HNew
  isplitl [HAcc HPre HNew]
  · isplitl [HAcc]; · iexists _; iexact HAcc
    isplitl [HPre]; · iexists _; iexact HPre
    iexact HNew
  iexact Hg

/-! ## The run and the frame -/

set_option backward.isDefEq.respectTransparency.types false in
/-- Every weakly fair execution of @main terminates, faults nowhere, and ends with every windowed array at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim, for any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.KernelIdeal.Hand

end
-- ==== Proof.RefFrame.lean ====
/-
  The reference program is host operations only.  Its run is read back operation by operation, so every
  weakly fair execution ends with the result at the composed term of the arguments and with the arguments
  untouched; dropping the statement about the result leaves exactly the frame claim.
-/
import proofs.«180177_j738734374947_2_alg».proof.Defs
import proofs.«180177_j738734374947_2_alg».proof.Proof.Gen.Pre_finite_inputs
import proofs.«180177_j738734374947_2_alg».proof.Proof.Gen.ReferenceIdeal
import proofs.«180177_j738734374947_2_alg».proof.Proof.Gen.ReferenceIdeal.Run
import proofs.«180177_j738734374947_2_alg».proof.Proof.Gen.ReferenceIdeal.Read

noncomputable section

open Idealize.ShloMosaic Idealize.ShloMosaic.TcCoe Idealize.SL.Sem

namespace Cert.Proof.RefFrame

/-- The reference terminates on every fair schedule, faults nowhere, and leaves its twelve argument arrays as it found them. -/
theorem frame_ref : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.NamedConst.lean ====
/-
  The one rewrite of the idealization: the kernel's literal 0.16 (the reciprocal of sigma squared, 1 / 2.5²) is named
  and read as the exact rational 4/25.
-/
import proofs.«180177_j738734374947_2_alg».proof.Defs

noncomputable section

open Idealize.ShloMosaic

namespace Cert.Proof.NamedConst

/-- The table gives the name "c_4_25" the value 4/25, which is what the named constant denotes on the extended reals. -/
theorem preserves : Cert.preserves_Kernel_KernelIdeal :=
  IdealRules.named_const.statement Cert.KernelIdeal.κ "c_4_25" .f32 0x3E23D70A#32 ((4 / 25 : ℝ) : EReal) rfl

/-- The named reciprocal of sigma squared is the real number 4/25. -/
theorem inv_sigma2 : Named.named (F := Ideal) Cert.KernelIdeal.κ "c_4_25" (φ := .f32) 0x3E23D70A#32 = ((4 / 25 : ℝ) : EReal) :=
  IdealRules.named_const.ideal_named_scalar _ _ _ _ rfl

end Cert.Proof.NamedConst

end
-- ==== Proof.KSpec.lean ====
/-
  What the kernel computes, as mathematics on the extended reals, index by index.

  Notation.  B = 4 batches, Ns = 16384 surface points, Ng = 2048 graph points, D = 128 features.
  xs : B × Ns × D,  xg : B × Ng × D,  vs : B × Ns × 3,  vg : B × Ng × 3  (coordinates),
  Wsp, Wgp : D × D and bsp, bgp : D (the two pre-layers), Wso, Wgo : 2D × D and bso, bgo : D (the two post-layers).

  The kernel's way of arranging the computation:
  * the squared distance is ONE eight-term contraction of two augmented slabs
      aS[·,n] = (x, y, z, 1, |vs_n|², 0, 0, 0)      aG[·,m] = (−2x', −2y', −2z', |vg_m|², 1, 0, 0, 0),
    clamped below at 0;
  * the weight is  w = exp((0 − d²)·c)  where d² < 64, and 0 elsewhere  (c the named reciprocal of σ²);
  * the row normaliser is applied as ONE reciprocal per row, r_n = 1 / (Σ_m w_nm + ε):
      message to the surface  r_n · Σ_m w_nm · xgh_m,      message to the graph  Σ_n w_nm · (xsh_n · r_n);
  * both post-layers act on the concatenation (old features, message).
-/
import Mathlib.Data.EReal.Basic
import Mathlib.Analysis.SpecialFunctions.Exp
import Mathlib.Algebra.BigOperators.Fin

noncomputable section

namespace Cert.KSpec

/-- The data: the twelve argument arrays as functions of their coordinates, and the three scalar constants the
    kernel's body mentions (the cutoff, the reciprocal of σ², the ε of the normaliser) together with its exponential. -/
structure Args where
  xs : Fin 4 → Fin 16384 → Fin 128 → EReal
  xg : Fin 4 → Fin 2048 → Fin 128 → EReal
  vs : Fin 4 → Fin 16384 → Fin 3 → EReal
  vg : Fin 4 → Fin 2048 → Fin 3 → EReal
  Wsp : Fin 128 → Fin 128 → EReal
  bsp : Fin 128 → EReal
  Wgp : Fin 128 → Fin 128 → EReal
  bgp : Fin 128 → EReal
  Wso : Fin 256 → Fin 128 → EReal
  bso : Fin 128 → EReal
  Wgo : Fin 256 → Fin 128 → EReal
  bgo : Fin 128 → EReal

/-- The scalars of the body: `cut` the cutoff 64, `c` the reciprocal of σ², `eps` the normaliser's ε, `mtwo` the
    host's −2, and `ex` the exponential on the extended reals. -/
structure Consts where
  cut : EReal
  c : EReal
  eps : EReal
  mtwo : EReal
  ex : EReal → EReal

variable (A : Args) (K : Consts)

/-- |vs_n|², the sum of the three squared coordinates. -/
def sqS (b : Fin 4) (n : Fin 16384) : EReal := ∑ k : Fin 3, A.vs b n k * A.vs b n k
/-- |vg_m|². -/
def sqG (b : Fin 4) (m : Fin 2048) : EReal := ∑ k : Fin 3, A.vg b m k * A.vg b m k

/-- The surface slab's column at point n: (x, y, z, 1, |vs_n|², 0, 0, 0). -/
def augS (b : Fin 4) (r : Fin 8) (n : Fin 16384) : EReal :=
  if h : r.val < 3 then A.vs b n ⟨r.val, h⟩ else if r.val = 3 then 1 else if r.val = 4 then sqS A b n else 0
/-- The graph slab's column at point m: (−2x', −2y', −2z', |vg_m|², 1, 0, 0, 0). -/
def augG (b : Fin 4) (r : Fin 8) (m : Fin 2048) : EReal :=
  if h : r.val < 3 then K.mtwo * A.vg b m ⟨r.val, h⟩ else if r.val = 3 then sqG A b m else if r.val = 4 then 1 else 0

/-- The clamped squared distance: the eight-term contraction of the two slabs, then max with 0. -/
def dist2 (b : Fin 4) (n : Fin 16384) (m : Fin 2048) : EReal :=
  max (∑ r : Fin 8, augS A b r n * augG A K b r m) 0

/-- The unnormalised weight: exp((0 − d²)·c) inside the cutoff, 0 outside. -/
def wgt (b : Fin 4) (n : Fin 16384) (m : Fin 2048) : EReal :=
  if dist2 A K b n m < K.cut then K.ex ((0 - dist2 A K b n m) * K.c) else 0

/-- The float quotient on the extended reals: x · y⁻¹ for y ≠ 0; by zero it is ⊤ for a positive numerator and ⊥ otherwise. -/
def quot (x y : EReal) : EReal := if y = 0 then (if 0 < x then ⊤ else ⊥) else x * y⁻¹

/-- The reciprocal of the row normaliser: 1 / (Σ_m w_nm + ε), with the float quotient. -/
def recip (b : Fin 4) (n : Fin 16384) : EReal := quot 1 ((∑ m : Fin 2048, wgt A K b n m) + K.eps)

/-- The surface pre-layer: relu(xs · Wsp + bsp). -/
def xsh (b : Fin 4) (n : Fin 16384) (e : Fin 128) : EReal :=
  max ((∑ d : Fin 128, A.xs b n d * A.Wsp d e) + A.bsp e) 0
/-- The graph pre-layer: relu(xg · Wgp + bgp). -/
def xgh (b : Fin 4) (m : Fin 2048) (e : Fin 128) : EReal :=
  max ((∑ d : Fin 128, A.xg b m d * A.Wgp d e) + A.bgp e) 0

/-- The message to surface point n: the row's reciprocal times the weighted sum of the graph features. -/
def msgS (b : Fin 4) (n : Fin 16384) (e : Fin 128) : EReal :=
  recip A K b n * ∑ m : Fin 2048, wgt A K b n m * xgh A b m e
/-- The message to graph point m: the weighted sum over ALL surface points of the features scaled by their row's reciprocal. -/
def msgG (b : Fin 4) (m : Fin 2048) (e : Fin 128) : EReal :=
  ∑ n : Fin 16384, wgt A K b n m * (xsh A b n e * recip A K b n)

/-- Old features beside the message, along the feature axis (256 columns). -/
def catS (b : Fin 4) (n : Fin 16384) (k : Fin 256) : EReal :=
  if h : k.val < 128 then xsh A b n ⟨k.val, h⟩ else msgS A K b n ⟨k.val - 128, by omega⟩
def catG (b : Fin 4) (m : Fin 2048) (k : Fin 256) : EReal :=
  if h : k.val < 128 then xgh A b m ⟨k.val, h⟩ else msgG A K b m ⟨k.val - 128, by omega⟩

/-- The surface post-layer. -/
def newS (b : Fin 4) (n : Fin 16384) (e : Fin 128) : EReal :=
  max ((∑ k : Fin 256, catS A K b n k * A.Wso k e) + A.bso e) 0
/-- The graph post-layer. -/
def newG (b : Fin 4) (m : Fin 2048) (e : Fin 128) : EReal :=
  max ((∑ k : Fin 256, catG A K b m k * A.Wgo k e) + A.bgo e) 0

/-- The result: per batch the 16384 new surface rows followed by the 2048 new graph rows. -/
def out (b : Fin 4) (r : Fin 18432) (e : Fin 128) : EReal :=
  if h : r.val < 16384 then newS A K b ⟨r.val, h⟩ e else newG A K b ⟨r.val - 16384, by omega⟩ e

end Cert.KSpec

end
-- ==== Proof.ArgsOf.lean ====
/-
  The twelve argument arrays, held as functions of a multi-index, read as functions of their separate coordinates;
  and the scalar constants of the kernel's body as extended reals.
-/
import Idealize.ShloMosaic.Lib.ValueIdx
import Idealize.ShloMosaic.PureOps.Ideal
import proofs.«180177_j738734374947_2_alg».proof.Proof.KSpec

noncomputable section

open Idealize.ShloMosaic Idealize.ShloMosaic.ValueIdx

namespace Cert.ArgsOf

/-- The arrays by coordinates: `x0 (b, n, d)` becomes `xs b n d`, and so on for the twelve arguments in the order of the entry point. -/
def argsOf
    (x0 : (⟨3, ![4, 16384, 128]⟩ : Shape).Idx → EReal) (x1 : (⟨3, ![4, 2048, 128]⟩ : Shape).Idx → EReal)
    (x2 : (⟨3, ![4, 16384, 3]⟩ : Shape).Idx → EReal) (x3 : (⟨3, ![4, 2048, 3]⟩ : Shape).Idx → EReal)
    (x4 : (⟨2, ![128, 128]⟩ : Shape).Idx → EReal) (x5 : (⟨1, ![128]⟩ : Shape).Idx → EReal)
    (x6 : (⟨2, ![128, 128]⟩ : Shape).Idx → EReal) (x7 : (⟨1, ![128]⟩ : Shape).Idx → EReal)
    (x8 : (⟨2, ![256, 128]⟩ : Shape).Idx → EReal) (x9 : (⟨1, ![128]⟩ : Shape).Idx → EReal)
    (x10 : (⟨2, ![256, 128]⟩ : Shape).Idx → EReal) (x11 : (⟨1, ![128]⟩ : Shape).Idx → EReal) : Cert.KSpec.Args where
  xs b n d := x0 (ix3 b n d)
  xg b m d := x1 (ix3 b m d)
  vs b n k := x2 (ix3 b n k)
  vg b m k := x3 (ix3 b m k)
  Wsp d e := x4 (ix2 d e)
  bsp e := x5 (ix1 e)
  Wgp d e := x6 (ix2 d e)
  bgp e := x7 (ix1 e)
  Wso k e := x8 (ix2 k e)
  bso e := x9 (ix1 e)
  Wgo k e := x10 (ix2 k e)
  bgo e := x11 (ix1 e)

/-- The body's scalars: the cutoff 64.0, the named reciprocal of σ² (4/25), the ε of the normaliser (the float
    nearest 1e-8, kept as its pattern: both programs use the same word), the host's −2.0, and the exponential. -/
def consts : Cert.KSpec.Consts where
  cut := Ideal.ofBits .f32 0x42800000#32
  c := ((4 / 25 : ℝ) : EReal)
  eps := Ideal.ofBits .f32 0x322BCC77#32
  mtwo := Ideal.ofBits .f32 0xC0000000#32
  ex := Ideal.exp

end Cert.ArgsOf

end
-- ==== Proof.RSpec.lean ====
/-
  What the reference computes, as mathematics on the extended reals, index by index.

  Notation as for the kernel's arrangement.  B = 4 batches, Ns = 16384 surface points, Ng = 2048 graph points,
  D = 128 features; xs, xg the features, vs, vg the coordinates, (Wsp, bsp), (Wgp, bgp) the two pre-layers and
  (Wso, bso), (Wgo, bgo) the two post-layers.

  The reference's way of arranging the computation:
  * the two pre-layers relu(x · W + b) and the two squared norms |vs_n|², |vg_m|² are the kernel's own
    (the same sums in the same order), and are taken from there;
  * the squared distance is  (|vs_n|² + |vg_m|²) − 2 · (vs_n · vg_m),  a three-term inner product, clamped below at 0;
  * the weight is  exp((−d²) / σ²) · [d² < 64],  the bracket being 1 inside the cutoff and 0 elsewhere:
    a division by σ² where the kernel multiplies by its reciprocal, a product with a 0/1 mask where the kernel selects;
  * every weight is normalised FIRST,  ŵ_nm = w_nm / (Σ_m' w_nm' + ε),  and the two messages are sums of the
    normalised weights:  Σ_m ŵ_nm · xgh_m  to the surface,  Σ_n ŵ_nm · xsh_n  to the graph;
  * both post-layers act on the concatenation (old features, message), and the result lists per batch the
    new surface rows, then the new graph rows.
-/
import Mathlib.Data.EReal.Basic
import Mathlib.Data.EReal.Inv
import Mathlib.Analysis.SpecialFunctions.Exp
import Mathlib.Algebra.BigOperators.Fin
import proofs.«180177_j738734374947_2_alg».proof.Proof.KSpec

noncomputable section

namespace Cert.RSpec

open Cert.KSpec (Args sqS sqG xsh xgh)

/-- The reference's scalars: those of the kernel's body — of which the reference uses the cutoff `cut`, the
    normaliser's `eps` and the exponential `ex` — and two of its own: `two`, the 2 in front of the inner product,
    and `sig2`, σ² itself (the reference divides by it). -/
structure Consts extends Cert.KSpec.Consts where
  two : EReal
  sig2 : EReal

variable (A : Args) (K : Consts)

/-- The quotient of two floats read as extended reals: x · y⁻¹ when y ≠ 0 (an infinite y has inverse 0);
    a division by zero gives the infinity of x's sign, +∞ for a positive x and −∞ otherwise. -/
def quot (x y : EReal) : EReal := if y = 0 then (if 0 < x then ⊤ else ⊥) else x * y⁻¹

/-- The inner product vs_n · vg_m of the two coordinate triples. -/
def inner (b : Fin 4) (n : Fin 16384) (m : Fin 2048) : EReal := ∑ k : Fin 3, A.vs b n k * A.vg b m k

/-- The clamped squared distance: (|vs_n|² + |vg_m|²) − 2 · (vs_n · vg_m), then max with 0. -/
def dist2 (b : Fin 4) (n : Fin 16384) (m : Fin 2048) : EReal :=
  max ((sqS A b n + sqG A b m) - K.two * inner A b n m) 0

/-- The cutoff as a number: 1 where d² < 64, and 0 elsewhere. -/
def mask (b : Fin 4) (n : Fin 16384) (m : Fin 2048) : EReal := if dist2 A K b n m < K.cut then 1 else 0

/-- The unnormalised weight: exp((−d²) / σ²) times the cutoff's 0/1 mask. -/
def wgt (b : Fin 4) (n : Fin 16384) (m : Fin 2048) : EReal :=
  K.ex (quot (-dist2 A K b n m) K.sig2) * mask A K b n m

/-- The row normaliser: Σ_m w_nm + ε. -/
def norm (b : Fin 4) (n : Fin 16384) : EReal := (∑ m : Fin 2048, wgt A K b n m) + K.eps

/-- The normalised weight: w_nm / (Σ_m' w_nm' + ε). -/
def wn (b : Fin 4) (n : Fin 16384) (m : Fin 2048) : EReal := quot (wgt A K b n m) (norm A K b n)

/-- The message to surface point n: the sum over the graph points of normalised weight times graph feature. -/
def msgS (b : Fin 4) (n : Fin 16384) (e : Fin 128) : EReal := ∑ m : Fin 2048, wn A K b n m * xgh A b m e
/-- The message to graph point m: the sum over ALL surface points of normalised weight times surface feature. -/
def msgG (b : Fin 4) (m : Fin 2048) (e : Fin 128) : EReal := ∑ n : Fin 16384, wn A K b n m * xsh A b n e

/-- Old surface features beside the message, along the feature axis (256 columns). -/
def catS (b : Fin 4) (n : Fin 16384) (k : Fin 256) : EReal :=
  if h : k.val < 128 then xsh A b n ⟨k.val, h⟩ else msgS A K b n ⟨k.val - 128, by omega⟩
/-- Old graph features beside the message, along the feature axis (256 columns). -/
def catG (b : Fin 4) (m : Fin 2048) (k : Fin 256) : EReal :=
  if h : k.val < 128 then xgh A b m ⟨k.val, h⟩ else msgG A K b m ⟨k.val - 128, by omega⟩

/-- The surface post-layer: relu(cat · Wso + bso). -/
def newS (b : Fin 4) (n : Fin 16384) (e : Fin 128) : EReal :=
  max ((∑ k : Fin 256, catS A K b n k * A.Wso k e) + A.bso e) 0
/-- The graph post-layer: relu(cat · Wgo + bgo). -/
def newG (b : Fin 4) (m : Fin 2048) (e : Fin 128) : EReal :=
  max ((∑ k : Fin 256, catG A K b m k * A.Wgo k e) + A.bgo e) 0

/-- The result: per batch the 16384 new surface rows followed by the 2048 new graph rows. -/
def out (b : Fin 4) (r : Fin 18432) (e : Fin 128) : EReal :=
  if h : r.val < 16384 then newS A K b ⟨r.val, h⟩ e else newG A K b ⟨r.val - 16384, by omega⟩ e

end Cert.RSpec

end
-- ==== Proof.RefConsts.lean ====
/-
  The reference's scalars as extended reals: the kernel's own (of which the reference uses the cutoff 64.0, the
  normaliser's ε and the exponential), the 2.0 in front of the inner product of the coordinates, and σ² = 6.25.
  The float literals are kept as their patterns; both programs mention the cutoff and ε by the same words.
-/
import proofs.«180177_j738734374947_2_alg».proof.Proof.ArgsOf
import proofs.«180177_j738734374947_2_alg».proof.Proof.RSpec

noncomputable section

open Idealize.ShloMosaic

namespace Cert.RefConsts

/-- The reference's scalars: the kernel's, the literal 2.0 and the literal σ² = 6.25. -/
def consts : Cert.RSpec.Consts where
  toConsts := Cert.ArgsOf.consts
  two := Ideal.ofBits .f32 0x40000000#32
  sig2 := Ideal.ofBits .f32 0x40C80000#32

end Cert.RefConsts

end
-- ==== Proof.RefValue.lean ====
/-
  The reference's result array, read at one index, is the function the reference's arrangement names.

  The reference is a straight line of host operations; each is read at an index from its operands at an index
  (a contraction as a sum over the contracted coordinate, a float sum as its zero initial value plus the sum over the
  summed coordinate, a broadcast and a concatenation by locating the index in the operand).  Reading the last
  operation at (b, r, e) and following the operands down to the twelve arguments gives, stage by stage, the named
  definitions: the two pre-layers, the squared norms and the clamped squared distance, the masked weight, the row
  normaliser, the normalised weight, the two messages, the two concatenations (old features, message), the two
  post-layers and the final concatenation of surface rows and graph rows.  The only arithmetic used is 0 + x = x for
  the zero initial values of the float sums; a 4 × 16384 × 2048 intermediate is only ever read at one index.
-/
import proofs.«180177_j738734374947_2_alg».proof.Proof.Gen.ReferenceIdeal.Read
import proofs.«180177_j738734374947_2_alg».proof.Proof.ArgsOf
import proofs.«180177_j738734374947_2_alg».proof.Proof.RSpec
import proofs.«180177_j738734374947_2_alg».proof.Proof.RefConsts

noncomputable section

namespace Cert.ReferenceIdeal.RefValue

open Cert.ReferenceIdeal Cert.ReferenceIdeal.Gen Cert.ReferenceIdeal.Read Idealize.ShloMosaic Idealize.ShloMosaic.ValueIdx

/-- The float quotient on the extended reals is the quotient the reference's arrangement is written with. -/
theorem div_eq_quot (x y : EReal) : Ideal.div x y = Cert.RSpec.quot x y := by
  unfold Ideal.div Cert.RSpec.quot
  split_ifs <;> rfl

/-- The comparison d < c converted to a float is the number 1 where it holds and 0 where it does not. -/
theorem mask_eq (d c : EReal) :
    FloatOps.uitofp (F := Ideal) .f32 (FloatOps.cmpf (F := Ideal) (φ := .f32) .olt d c) = if d < c then 1 else 0 := by
  show (((Ideal.cmp .olt d c).toNat : ℝ) : EReal) = _
  by_cases h : d < c <;> simp [Ideal.cmp, h]

variable (x0 : (⟨S4x16384x128, .f32⟩ : BufTy).Contents (Elt Ideal)) (x1 : (⟨S4x2048x128, .f32⟩ : BufTy).Contents (Elt Ideal))
  (x2 : (⟨S4x16384x3, .f32⟩ : BufTy).Contents (Elt Ideal)) (x3 : (⟨S4x2048x3, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S256x128, .f32⟩ : BufTy).Contents (Elt Ideal)) (x9 : (⟨S128, .f32⟩ : BufTy).Contents (Elt Ideal))
  (x10 : (⟨S256x128, .f32⟩ : BufTy).Contents (Elt Ideal)) (x11 : (⟨S128, .f32⟩ : BufTy).Contents (Elt Ideal))

local notation "𝐀" => Cert.ArgsOf.argsOf x0 x1 x2 x3 x4 x5 x6 x7 x8 x9 x10 x11
local notation "𝐊" => Cert.RefConsts.consts

/-! ## The two pre-layers -/

/-- The surface pre-layer at (b, n, e): relu of the 128-term contraction of the features with the weights, plus the bias. -/
theorem xsh_at (b : Fin 4) (n : Fin 16384) (e : Fin 128) :
    val_main_v4 (F := Ideal) x0 x4 x5 (ix3 b n e) = Cert.KSpec.xsh 𝐀 b n e := by
  have hl : ∀ k, lidx_main_v0 (ix3 b n e) k = ix3 b n k := fun k => funext fun a => Fin.ext (by match a with | ⟨0, _⟩ => rfl | ⟨1, _⟩ => rfl | ⟨2, _⟩ => rfl)
  have hr : ∀ k, ridx_main_v0 (ix3 b n e) k = ix2 k e := fun k => funext fun a => Fin.ext (by match a with | ⟨0, _⟩ => rfl | ⟨1, _⟩ => rfl)
  have hb : idx_main_v1 (idx_main_v2 (ix3 b n e)) = ix1 e := funext fun a => Fin.ext (by match a with | ⟨0, _⟩ => rfl)
  rw [val_main_v4_apply, val_main_v3_apply, val_main_v0_apply, val_main_v2_apply, val_main_v1_apply, hb,
    val_main_call0_v0_apply, val_main_call0_cst_apply]
  simp only [hl, hr, Ideal.maximumf_def, Ideal.addf_def, Ideal.ofBits_def, Ideal.ofBits_zero_f32]
  rfl

/-- The graph pre-layer at (b, m, e). -/
theorem xgh_at (b : Fin 4) (m : Fin 2048) (e : Fin 128) :
    val_main_v9 (F := Ideal) x1 x6 x7 (ix3 b m e) = Cert.KSpec.xgh 𝐀 b m e := by
  have hl : ∀ k, lidx_main_v5 (ix3 b m e) k = ix3 b m k := fun k => funext fun a => Fin.ext (by match a with | ⟨0, _⟩ => rfl | ⟨1, _⟩ => rfl | ⟨2, _⟩ => rfl)
  have hr : ∀ k, ridx_main_v5 (ix3 b m e) k = ix2 k e := fun k => funext fun a => Fin.ext (by match a with | ⟨0, _⟩ => rfl | ⟨1, _⟩ => rfl)
  have hb : idx_main_v6 (idx_main_v7 (ix3 b m e)) = ix1 e := funext fun a => Fin.ext (by match a with | ⟨0, _⟩ => rfl)
  rw [val_main_v9_apply, val_main_v8_apply, val_main_v5_apply, val_main_v7_apply, val_main_v6_apply, hb,
    val_main_call1_v0_apply, val_main_call1_cst_apply]
  simp only [hl, hr, Ideal.maximumf_def, Ideal.addf_def, Ideal.ofBits_def, Ideal.ofBits_zero_f32]
  rfl

/-! ## The squared norms and the clamped squared distance -/

/-- |vs_n|²: the float sum starts from 0, and 0 + x = x. -/
theorem sqS_at (b : Fin 4) (n : Fin 16384) :
    val_main_v11 (F := Ideal) x2 (ix2 b n) = Cert.KSpec.sqS 𝐀 b n := by
  have h : ∀ k, idx_main_v11 (ix2 b n) k = ix3 b n k := fun k => funext fun a => Fin.ext (by match a with | ⟨0, _⟩ => rfl | ⟨1, _⟩ => rfl | ⟨2, _⟩ => rfl)
  rw [val_main_v11_apply, val_main_cst_apply]
  simp only [val_main_v10_apply, h, Ideal.mulf_def, Ideal.ofBits_def, Ideal.ofBits_zero_f32, zero_add]
  rfl

/-- |vg_m|². -/
theorem sqG_at (b : Fin 4) (m : Fin 2048) :
    val_main_v14 (F := Ideal) x3 (ix2 b m) = Cert.KSpec.sqG 𝐀 b m := by
  have h : ∀ k, idx_main_v14 (ix2 b m) k = ix3 b m k := fun k => funext fun a => Fin.ext (by match a with | ⟨0, _⟩ => rfl | ⟨1, _⟩ => rfl | ⟨2, _⟩ => rfl)
  rw [val_main_v14_apply, val_main_cst_0_apply]
  simp only [val_main_v13_apply, h, Ideal.mulf_def, Ideal.ofBits_def, Ideal.ofBits_zero_f32, zero_add]
  rfl

/-- The clamped squared distance at (b, n, m): (|vs_n|² + |vg_m|²) − 2 · (vs_n · vg_m), then max with 0. -/
theorem dist2_at (b : Fin 4) (n : Fin 16384) (m : Fin 2048) :
    val_main_v24 (F := Ideal) x2 x3 (ix3 b n m) = Cert.RSpec.dist2 𝐀 𝐊 b n m := by
  have h16 : idx_main_v12 (idx_main_v16 (ix3 b n m)) = ix2 b n := funext fun a => Fin.ext (by match a with | ⟨0, _⟩ => rfl | ⟨1, _⟩ => rfl)
  have h17 : idx_main_v15 (idx_main_v17 (ix3 b n m)) = ix2 b m := funext fun a => Fin.ext (by match a with | ⟨0, _⟩ => rfl | ⟨1, _⟩ => rfl)
  have hl : ∀ k, lidx_main_v19 (ix3 b n m) k = ix3 b n k := fun k => funext fun a => Fin.ext (by match a with | ⟨0, _⟩ => rfl | ⟨1, _⟩ => rfl | ⟨2, _⟩ => rfl)
  have hr : ∀ k, ridx_main_v19 (ix3 b n m) k = ix3 b m k := fun k => funext fun a => Fin.ext (by match a with | ⟨0, _⟩ => rfl | ⟨1, _⟩ => rfl | ⟨2, _⟩ => rfl)
  rw [val_main_v24_apply, val_main_v22_apply, val_main_v18_apply, val_main_v16_apply, val_main_v12_apply, h16,
    val_main_v17_apply, val_main_v15_apply, h17, val_main_v21_apply, val_main_v20_apply, val_main_cst_1_apply,
    val_main_v19_apply, val_main_v23_apply, val_main_cst_2_apply, sqS_at x0 x1 x2 x3 x4 x5 x6 x7 x8 x9 x10 x11, sqG_at x0 x1 x2 x3 x4 x5 x6 x7 x8 x9 x10 x11]
  simp only [hl, hr, Ideal.maximumf_def, Ideal.subf_def, Ideal.addf_def, Ideal.mulf_def, Ideal.ofBits_def,
    Ideal.ofBits_zero_f32]
  rfl

/-! ## The weight, the normaliser and the normalised weight -/

/-- The unnormalised weight at (b, n, m): exp((−d²) / σ²) times the 0/1 mask of the cutoff. -/
theorem wgt_at (b : Fin 4) (n : Fin 16384) (m : Fin 2048) :
    val_main_v32 (F := Ideal) x2 x3 (ix3 b n m) = Cert.RSpec.wgt 𝐀 𝐊 b n m := by
  rw [val_main_v32_apply, val_main_v28_apply, val_main_v27_apply, val_main_v25_apply, val_main_v26_apply,
    val_main_cst_3_apply, val_main_v31_apply, val_main_v30_apply, val_main_v29_apply, val_main_cst_4_apply,
    dist2_at x0 x1 x2 x3 x4 x5 x6 x7 x8 x9 x10 x11, mask_eq]
  simp only [Ideal.mulf_def, Ideal.hostUnary_exp_def, Ideal.hostDivf_def, Ideal.hostNegf_def, Ideal.negf_def,
    Ideal.ofBits_def, div_eq_quot]
  rfl

/-- The row normaliser at (b, n): the float sum over the graph points starts from 0, then ε is added. -/
theorem norm_at (b : Fin 4) (n : Fin 16384) (z : Fin 1) :
    val_main_v36 (F := Ideal) x2 x3 (ix3 b n z) = Cert.RSpec.norm 𝐀 𝐊 b n := by
  have h34 : idx_main_v34 (ix3 b n z) = ix2 b n := funext fun a => Fin.ext (by match a with | ⟨0, _⟩ => rfl | ⟨1, _⟩ => rfl)
  have h33 : ∀ k, idx_main_v33 (ix2 b n) k = ix3 b n k := fun k => funext fun a => Fin.ext (by match a with | ⟨0, _⟩ => rfl | ⟨1, _⟩ => rfl | ⟨2, _⟩ => rfl)
  rw [val_main_v36_apply, val_main_v34_apply, h34, val_main_v33_apply, val_main_cst_5_apply, val_main_v35_apply,
    val_main_cst_6_apply]
  simp only [h33, wgt_at x0 x1 x2 x3 x4 x5 x6 x7 x8 x9 x10 x11, Ideal.addf_def, Ideal.ofBits_def, Ideal.ofBits_zero_f32, zero_add]
  rfl

/-- The normalised weight at (b, n, m): the weight over its row's normaliser. -/
theorem wn_at (b : Fin 4) (n : Fin 16384) (m : Fin 2048) :
    val_main_v38 (F := Ideal) x2 x3 (ix3 b n m) = Cert.RSpec.wn 𝐀 𝐊 b n m := by
  have h37 : idx_main_v37 (ix3 b n m) = ix3 b n (0 : Fin 1) := funext fun a => Fin.ext (by match a with | ⟨0, _⟩ => rfl | ⟨1, _⟩ => rfl | ⟨2, _⟩ => rfl)
  rw [val_main_v38_apply, val_main_v37_apply, h37, norm_at x0 x1 x2 x3 x4 x5 x6 x7 x8 x9 x10 x11, wgt_at x0 x1 x2 x3 x4 x5 x6 x7 x8 x9 x10 x11]
  simp only [Ideal.hostDivf_def, div_eq_quot]
  rfl

/-! ## The two messages -/

/-- The message to surface point n: the 2048-term contraction of the normalised weights with the graph pre-layer. -/
theorem msgS_at (b : Fin 4) (n : Fin 16384) (e : Fin 128) :
    val_main_v39 (F := Ideal) x1 x2 x3 x6 x7 (ix3 b n e) = Cert.RSpec.msgS 𝐀 𝐊 b n e := by
  have hl : ∀ k, lidx_main_v39 (ix3 b n e) k = ix3 b n k := fun k => funext fun a => Fin.ext (by match a with | ⟨0, _⟩ => rfl | ⟨1, _⟩ => rfl | ⟨2, _⟩ => rfl)
  have hr : ∀ k, ridx_main_v39 (ix3 b n e) k = ix3 b k e := fun k => funext fun a => Fin.ext (by match a with | ⟨0, _⟩ => rfl | ⟨1, _⟩ => rfl | ⟨2, _⟩ => rfl)
  rw [val_main_v39_apply]
  simp only [hl, hr, wn_at x0 x1 x2 x3 x4 x5 x6 x7 x8 x9 x10 x11, xgh_at x0 x1 x2 x3 x4 x5 x6 x7 x8 x9 x10 x11]
  rfl

/-- The message to graph point m: the 16384-term contraction, over the surface points, with the surface pre-layer. -/
theorem msgG_at (b : Fin 4) (m : Fin 2048) (e : Fin 128) :
    val_main_v40 (F := Ideal) x0 x2 x3 x4 x5 (ix3 b m e) = Cert.RSpec.msgG 𝐀 𝐊 b m e := by
  have hl : ∀ k, lidx_main_v40 (ix3 b m e) k = ix3 b k m := fun k => funext fun a => Fin.ext (by match a with | ⟨0, _⟩ => rfl | ⟨1, _⟩ => rfl | ⟨2, _⟩ => rfl)
  have hr : ∀ k, ridx_main_v40 (ix3 b m e) k = ix3 b k e := fun k => funext fun a => Fin.ext (by match a with | ⟨0, _⟩ => rfl | ⟨1, _⟩ => rfl | ⟨2, _⟩ => rfl)
  rw [val_main_v40_apply]
  simp only [hl, hr, wn_at x0 x1 x2 x3 x4 x5 x6 x7 x8 x9 x10 x11, xsh_at x0 x1 x2 x3 x4 x5 x6 x7 x8 x9 x10 x11]
  rfl

/-! ## Old features beside the message -/

/-- The surface concatenation at column k: the pre-layer for k < 128, the message at k − 128 from there on. -/
theorem catS_at (b : Fin 4) (n : Fin 16384) (k : Fin 256) :
    val_main_v41 (F := Ideal) x0 x1 x2 x3 x4 x5 x6 x7 (ix3 b n k) = Cert.RSpec.catS 𝐀 𝐊 b n k := by
  unfold val_main_v41 Cert.RSpec.catS
  by_cases h : k.val < 128
  · rw [dif_pos h]
    refine (concatenate_pair_apply_left (t := S4x16384x256) (s₁ := S4x16384x128) (s₂ := S4x16384x128) 2 _ _ _ (ix3 b n k) rfl
      (ix3 b n ⟨k.val, h⟩) ?_).trans (xsh_at x0 x1 x2 x3 x4 x5 x6 x7 x8 x9 x10 x11 b n ⟨k.val, h⟩)
    intro a
    match a with
    | ⟨0, _⟩ => rfl
    | ⟨1, _⟩ => rfl
    | ⟨2, _⟩ => rfl
  · rw [dif_neg h]
    refine (concatenate_pair_apply_right (t := S4x16384x256) (s₁ := S4x16384x128) (s₂ := S4x16384x128) 2 _ _ _ (ix3 b n k) rfl rfl
      (ix3 b n ⟨k.val - 128, by omega⟩) ?_ ?_).trans
      (msgS_at x0 x1 x2 x3 x4 x5 x6 x7 x8 x9 x10 x11 b n ⟨k.val - 128, by omega⟩)
    · intro a ha
      match a, ha with
      | ⟨0, _⟩, _ => rfl
      | ⟨1, _⟩, _ => rfl
      | ⟨2, _⟩, ha => exact absurd rfl ha
    · show k.val - 128 + 128 = k.val
      omega

/-- The graph concatenation at column k. -/
theorem catG_at (b : Fin 4) (m : Fin 2048) (k : Fin 256) :
    val_main_v47 (F := Ideal) x0 x1 x2 x3 x4 x5 x6 x7 (ix3 b m k) = Cert.RSpec.catG 𝐀 𝐊 b m k := by
  unfold val_main_v47 Cert.RSpec.catG
  by_cases h : k.val < 128
  · rw [dif_pos h]
    refine (concatenate_pair_apply_left (t := S4x2048x256) (s₁ := S4x2048x128) (s₂ := S4x2048x128) 2 _ _ _ (ix3 b m k) rfl
      (ix3 b m ⟨k.val, h⟩) ?_).trans (xgh_at x0 x1 x2 x3 x4 x5 x6 x7 x8 x9 x10 x11 b m ⟨k.val, h⟩)
    intro a
    match a with
    | ⟨0, _⟩ => rfl
    | ⟨1, _⟩ => rfl
    | ⟨2, _⟩ => rfl
  · rw [dif_neg h]
    refine (concatenate_pair_apply_right (t := S4x2048x256) (s₁ := S4x2048x128) (s₂ := S4x2048x128) 2 _ _ _ (ix3 b m k) rfl rfl
      (ix3 b m ⟨k.val - 128, by omega⟩) ?_ ?_).trans
      (msgG_at x0 x1 x2 x3 x4 x5 x6 x7 x8 x9 x10 x11 b m ⟨k.val - 128, by omega⟩)
    · intro a ha
      match a, ha with
      | ⟨0, _⟩, _ => rfl
      | ⟨1, _⟩, _ => rfl
      | ⟨2, _⟩, ha => exact absurd rfl ha
    · show k.val - 128 + 128 = k.val
      omega

/-! ## The two post-layers -/

/-- The surface post-layer at (b, n, e): relu of the 256-term contraction of the concatenation with the weights, plus the bias. -/
theorem newS_at (b : Fin 4) (n : Fin 16384) (e : Fin 128) :
    val_main_v46 (F := Ideal) x0 x1 x2 x3 x4 x5 x6 x7 x8 x9 (ix3 b n e) = Cert.RSpec.newS 𝐀 𝐊 b n e := by
  have hl : ∀ k, lidx_main_v42 (ix3 b n e) k = ix3 b n k := fun k => funext fun a => Fin.ext (by match a with | ⟨0, _⟩ => rfl | ⟨1, _⟩ => rfl | ⟨2, _⟩ => rfl)
  have hr : ∀ k, ridx_main_v42 (ix3 b n e) k = ix2 k e := fun k => funext fun a => Fin.ext (by match a with | ⟨0, _⟩ => rfl | ⟨1, _⟩ => rfl)
  have hb : idx_main_v43 (idx_main_v44 (ix3 b n e)) = ix1 e := funext fun a => Fin.ext (by match a with | ⟨0, _⟩ => rfl)
  rw [val_main_v46_apply, val_main_v45_apply, val_main_v42_apply, val_main_v44_apply, val_main_v43_apply, hb,
    val_main_call2_v0_apply, val_main_call2_cst_apply]
  simp only [hl, hr, catS_at x0 x1 x2 x3 x4 x5 x6 x7 x8 x9 x10 x11, Ideal.maximumf_def, Ideal.addf_def, Ideal.ofBits_def, Ideal.ofBits_zero_f32]
  rfl

/-- The graph post-layer at (b, m, e). -/
theorem newG_at (b : Fin 4) (m : Fin 2048) (e : Fin 128) :
    val_main_v52 (F := Ideal) x0 x1 x2 x3 x4 x5 x6 x7 x10 x11 (ix3 b m e) = Cert.RSpec.newG 𝐀 𝐊 b m e := by
  have hl : ∀ k, lidx_main_v48 (ix3 b m e) k = ix3 b m k := fun k => funext fun a => Fin.ext (by match a with | ⟨0, _⟩ => rfl | ⟨1, _⟩ => rfl | ⟨2, _⟩ => rfl)
  have hr : ∀ k, ridx_main_v48 (ix3 b m e) k = ix2 k e := fun k => funext fun a => Fin.ext (by match a with | ⟨0, _⟩ => rfl | ⟨1, _⟩ => rfl)
  have hb : idx_main_v49 (idx_main_v50 (ix3 b m e)) = ix1 e := funext fun a => Fin.ext (by match a with | ⟨0, _⟩ => rfl)
  rw [val_main_v52_apply, val_main_v51_apply, val_main_v48_apply, val_main_v50_apply, val_main_v49_apply, hb,
    val_main_call3_v0_apply, val_main_call3_cst_apply]
  simp only [hl, hr, catG_at x0 x1 x2 x3 x4 x5 x6 x7 x8 x9 x10 x11, Ideal.maximumf_def, Ideal.addf_def, Ideal.ofBits_def, Ideal.ofBits_zero_f32]
  rfl

/-! ## The result -/

/-- The reference's result at (b, r, e): row r < 16384 is the new surface row r, row r ≥ 16384 the new graph row r − 16384. -/
theorem ref_result (b : Fin 4) (r : Fin 18432) (e : Fin 128) :
    val_main_v53 (F := Ideal) x0 x1 x2 x3 x4 x5 x6 x7 x8 x9 x10 x11 (ix3 b r e) = Cert.RSpec.out 𝐀 𝐊 b r e := by
  unfold val_main_v53 Cert.RSpec.out
  by_cases h : r.val < 16384
  · rw [dif_pos h]
    refine (concatenate_pair_apply_left (t := S4x18432x128) (s₁ := S4x16384x128) (s₂ := S4x2048x128) 1 _ _ _ (ix3 b r e) rfl
      (ix3 b ⟨r.val, h⟩ e) ?_).trans (newS_at x0 x1 x2 x3 x4 x5 x6 x7 x8 x9 x10 x11 b ⟨r.val, h⟩ e)
    intro a
    match a with
    | ⟨0, _⟩ => rfl
    | ⟨1, _⟩ => rfl
    | ⟨2, _⟩ => rfl
  · rw [dif_neg h]
    refine (concatenate_pair_apply_right (t := S4x18432x128) (s₁ := S4x16384x128) (s₂ := S4x2048x128) 1 _ _ _ (ix3 b r e) rfl rfl
      (ix3 b ⟨r.val - 16384, by omega⟩ e) ?_ ?_).trans
      (newG_at x0 x1 x2 x3 x4 x5 x6 x7 x8 x9 x10 x11 b ⟨r.val - 16384, by omega⟩ e)
    · intro a ha
      match a, ha with
      | ⟨0, _⟩, _ => rfl
      | ⟨1, _⟩, ha => exact absurd rfl ha
      | ⟨2, _⟩, _ => rfl
    · show r.val - 16384 + 16384 = r.val
      omega

end Cert.ReferenceIdeal.RefValue

end
-- ==== Proof.LibEReal.lean ====
/-
  Two facts about finiteness on the extended reals, and the float pattern of +∞.

  • `add_sub_cancel_real`: for a REAL number `a` and ANY extended real `q`, `a + (q - a) = q`.  This is the forward
    value of a "straight-through" expression `a + (q - a)`; it fails for infinite `a` (`⊤ + (q - ⊤) = ⊥` for real `q`).
  • `real_of_abs_lt_top`: an extended real whose absolute value `max x (-x)` is below `⊤` is a real number — the reading
    of a test "every entry has absolute value below +∞".
  • `inf_pattern`, `lt_top_of_cmp`: the f32 pattern 0x7F800000 denotes `⊤`, and an ordered less-than comparison against
    it that came out true says the left side is below `⊤`.
-/
import Idealize.ShloMosaic.PureOps.Ideal

noncomputable section

namespace Cert.LibEReal

open Idealize.ShloMosaic

/-- Adding a real number `a` to `q - a` gives `q` back, for EVERY extended real `q`: at `q = ⊤` both sides are `⊤`, at
    `q = ⊥` both are `⊥`, and between them it is the cancellation in the reals. -/
theorem add_sub_cancel_real (a : ℝ) (q : EReal) : (a : EReal) + (q - (a : EReal)) = q := by
  induction q using EReal.rec with
  | bot => rw [EReal.bot_sub, EReal.add_bot]
  | top => rw [EReal.top_sub_coe, EReal.coe_add_top]
  | coe s => rw [← EReal.coe_sub, ← EReal.coe_add]; exact congrArg _ (by ring)

/-- An extended real whose absolute value is below `⊤` is a real number. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- The f32 pattern of +∞ denotes `⊤`. -/
theorem inf_pattern : Ideal.ofBits .f32 0x7F800000#32 = ⊤ := by simp [Ideal.ofBits, Ideal.ieee]

/-- An ordered less-than test against the pattern of +∞ that is true says the left side is below `⊤`. -/
theorem lt_top_of_cmp (x : EReal) (h : Ideal.cmp .olt x (Ideal.ofBits .f32 0x7F800000#32) = 1#1) : x < ⊤ := by
  rw [inf_pattern] at h
  by_contra hc
  simp [Ideal.cmp, hc] at h

end Cert.LibEReal

end
-- ==== Proof.RealArgs.lean ====
/-
  The hypothesis under which the two arrangements of the layer agree: every entry of every one of the twelve
  argument arrays is a real number (neither +∞ nor −∞).  On the extended reals the distributive law, the
  cancellation of a common factor and the exchange of a factor with a sum all fail at the infinities; on real
  entries they are the laws of the real numbers.
-/
import proofs.«180177_j738734374947_2_alg».proof.Proof.KSpec

namespace Cert.KSpec

/-- Every entry of each of the twelve arrays is (the embedding of) a real number. -/
structure Args.Real (A : Args) : Prop where
  xs : ∀ b n d, ∃ v : ℝ, A.xs b n d = (v : EReal)
  xg : ∀ b m d, ∃ v : ℝ, A.xg b m d = (v : EReal)
  vs : ∀ b n k, ∃ v : ℝ, A.vs b n k = (v : EReal)
  vg : ∀ b m k, ∃ v : ℝ, A.vg b m k = (v : EReal)
  Wsp : ∀ d e, ∃ v : ℝ, A.Wsp d e = (v : EReal)
  bsp : ∀ e, ∃ v : ℝ, A.bsp e = (v : EReal)
  Wgp : ∀ d e, ∃ v : ℝ, A.Wgp d e = (v : EReal)
  bgp : ∀ e, ∃ v : ℝ, A.bgp e = (v : EReal)
  Wso : ∀ k e, ∃ v : ℝ, A.Wso k e = (v : EReal)
  bso : ∀ e, ∃ v : ℝ, A.bso e = (v : EReal)
  Wgo : ∀ k e, ∃ v : ℝ, A.Wgo k e = (v : EReal)
  bgo : ∀ e, ∃ v : ℝ, A.bgo e = (v : EReal)

end Cert.KSpec
-- ==== Proof.Finite.lean ====
/-
  From the precondition to real entries.

  The precondition is the conjunction, over the twelve argument arrays, of "every entry has absolute value below +∞":
  per array an elementwise comparison of |x| = max x (−x) against the pattern of +∞, reduced over all axes by "and"
  from the constant 1, and the twelve results joined by "and".  The conjunction being 1, every one of the twelve
  reductions is 1; a reduction by "and" over all axes that is 1 met a 1 at every index; and an extended real whose
  absolute value is below ⊤ is neither ⊤ nor ⊥, that is, a real number.
-/
import Idealize.ShloMosaic.Lib.ReduceAll
import proofs.«180177_j738734374947_2_alg».proof.Pre_finite_inputs
import proofs.«180177_j738734374947_2_alg».proof.Proof.LibEReal
import proofs.«180177_j738734374947_2_alg».proof.Proof.RealArgs
import proofs.«180177_j738734374947_2_alg».proof.Proof.ArgsOf

noncomputable section

open Idealize.ShloMosaic Idealize.ShloMosaic.ValueIdx

namespace Cert.Finite

/-- The shape of a scalar has one index. -/
instance : Subsingleton (⟨0, ![]⟩ : Shape).Idx := ⟨fun a b => funext fun d => d.elim0⟩

/-- One entry: the comparison |x_i| < +∞ came out true, so x_i is a real number. -/
theorem real_of_elem {s : Shape} (x : FVec Ideal s .f32)
    (hb : (⟨0, ![]⟩ : Shape).BroadcastsInDim s (![] : Fin 0 → Fin s.rank)) (i : s.Idx)
    (h : cmpf .olt (Host.absf x) (broadcastInDim s ![] hb (constant (F := Ideal) ⟨0, ![]⟩ .f32 0x7F800000#32)) i = 1#1) :
    ∃ v : ℝ, x i = (v : EReal) := by
  have h' : Ideal.cmp .olt (max (x i) (-(x i))) (Ideal.ofBits .f32 0x7F800000#32) = 1#1 := h
  exact Cert.LibEReal.real_of_abs_lt_top _ (Cert.LibEReal.lt_top_of_cmp _ h')

/-- One array: the "and" over all its entries of |x_i| < +∞ is 1, so every entry is a real number. -/
theorem real_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi
        (cmpf .olt (Host.absf x) (broadcastInDim s ![] hb (constant (F := Ideal) ⟨0, ![]⟩ .f32 0x7F800000#32)))
        (constantI ⟨0, ![]⟩ 1 1#1) hr hu ix0 = 1#1) (i : s.Idx) : ∃ v : ℝ, x i = (v : EReal) :=
  real_of_elem x hb i (Host.reduce_andi_all _ _ hr hu ix0 h i)

open Cert.Pre_finite_inputs in
/-- The twelve arrays: the conjunction of the twelve tests is 1, so each test is, and every entry of every array is real. -/
theorem all_real [Cert.Pre_finite_inputs.Facts]
    (x0 : (⟨3, ![4, 16384, 128]⟩ : Shape).Idx → EReal) (x1 : (⟨3, ![4, 2048, 128]⟩ : Shape).Idx → EReal)
    (x2 : (⟨3, ![4, 16384, 3]⟩ : Shape).Idx → EReal) (x3 : (⟨3, ![4, 2048, 3]⟩ : Shape).Idx → EReal)
    (x4 : (⟨2, ![128, 128]⟩ : Shape).Idx → EReal) (x5 : (⟨1, ![128]⟩ : Shape).Idx → EReal)
    (x6 : (⟨2, ![128, 128]⟩ : Shape).Idx → EReal) (x7 : (⟨1, ![128]⟩ : Shape).Idx → EReal)
    (x8 : (⟨2, ![256, 128]⟩ : Shape).Idx → EReal) (x9 : (⟨1, ![128]⟩ : Shape).Idx → EReal)
    (x10 : (⟨2, ![256, 128]⟩ : Shape).Idx → EReal) (x11 : (⟨1, ![128]⟩ : Shape).Idx → EReal)
    (h : Cert.Pre_finite_inputs.fn (F := Ideal) x0 x1 x2 x3 x4 x5 x6 x7 x8 x9 x10 x11 = fun _ => 1#1) :
    (∀ i, ∃ v : ℝ, x0 i = (v : EReal)) ∧ (∀ i, ∃ v : ℝ, x1 i = (v : EReal)) ∧ (∀ i, ∃ v : ℝ, x2 i = (v : EReal)) ∧
    (∀ i, ∃ v : ℝ, x3 i = (v : EReal)) ∧ (∀ i, ∃ v : ℝ, x4 i = (v : EReal)) ∧ (∀ i, ∃ v : ℝ, x5 i = (v : EReal)) ∧
    (∀ i, ∃ v : ℝ, x6 i = (v : EReal)) ∧ (∀ i, ∃ v : ℝ, x7 i = (v : EReal)) ∧ (∀ i, ∃ v : ℝ, x8 i = (v : EReal)) ∧
    (∀ i, ∃ v : ℝ, x9 i = (v : EReal)) ∧ (∀ i, ∃ v : ℝ, x10 i = (v : EReal)) ∧ (∀ i, ∃ v : ℝ, x11 i = (v : EReal)) := by
  have h0 := congrFun h ix0
  dsimp only [fn, fn_part1, fn_part2, fn_part3] at h0
  obtain ⟨h0, e11⟩ := IntOp.andi_eq_one.1 (show IntOp.andi _ _ = 1#1 from h0)
  obtain ⟨h0, e10⟩ := IntOp.andi_eq_one.1 (show IntOp.andi _ _ = 1#1 from h0)
  obtain ⟨h0, e9⟩ := IntOp.andi_eq_one.1 (show IntOp.andi _ _ = 1#1 from h0)
  obtain ⟨h0, e8⟩ := IntOp.andi_eq_one.1 (show IntOp.andi _ _ = 1#1 from h0)
  obtain ⟨h0, e7⟩ := IntOp.andi_eq_one.1 (show IntOp.andi _ _ = 1#1 from h0)
  obtain ⟨h0, e6⟩ := IntOp.andi_eq_one.1 (show IntOp.andi _ _ = 1#1 from h0)
  obtain ⟨h0, e5⟩ := IntOp.andi_eq_one.1 (show IntOp.andi _ _ = 1#1 from h0)
  obtain ⟨h0, e4⟩ := IntOp.andi_eq_one.1 (show IntOp.andi _ _ = 1#1 from h0)
  obtain ⟨h0, e3⟩ := IntOp.andi_eq_one.1 (show IntOp.andi _ _ = 1#1 from h0)
  obtain ⟨h0, e2⟩ := IntOp.andi_eq_one.1 (show IntOp.andi _ _ = 1#1 from h0)
  obtain ⟨e0, e1⟩ := IntOp.andi_eq_one.1 (show IntOp.andi _ _ = 1#1 from h0)
  exact ⟨real_of_all x0 _ _ _ e0, real_of_all x1 _ _ _ e1, real_of_all x2 _ _ _ e2, real_of_all x3 _ _ _ e3,
    real_of_all x4 _ _ _ e4, real_of_all x5 _ _ _ e5, real_of_all x6 _ _ _ e6, real_of_all x7 _ _ _ e7,
    real_of_all x8 _ _ _ e8, real_of_all x9 _ _ _ e9, real_of_all x10 _ _ _ e10, real_of_all x11 _ _ _ e11⟩

/-- Under the precondition the twelve arrays, read by coordinates, have real entries only. -/
theorem real_of_pre [Cert.Pre_finite_inputs.Facts]
    (x0 : (⟨3, ![4, 16384, 128]⟩ : Shape).Idx → EReal) (x1 : (⟨3, ![4, 2048, 128]⟩ : Shape).Idx → EReal)
    (x2 : (⟨3, ![4, 16384, 3]⟩ : Shape).Idx → EReal) (x3 : (⟨3, ![4, 2048, 3]⟩ : Shape).Idx → EReal)
    (x4 : (⟨2, ![128, 128]⟩ : Shape).Idx → EReal) (x5 : (⟨1, ![128]⟩ : Shape).Idx → EReal)
    (x6 : (⟨2, ![128, 128]⟩ : Shape).Idx → EReal) (x7 : (⟨1, ![128]⟩ : Shape).Idx → EReal)
    (x8 : (⟨2, ![256, 128]⟩ : Shape).Idx → EReal) (x9 : (⟨1, ![128]⟩ : Shape).Idx → EReal)
    (x10 : (⟨2, ![256, 128]⟩ : Shape).Idx → EReal) (x11 : (⟨1, ![128]⟩ : Shape).Idx → EReal)
    (h : Cert.Pre_finite_inputs.fn (F := Ideal) x0 x1 x2 x3 x4 x5 x6 x7 x8 x9 x10 x11 = fun _ => 1#1) :
    (Cert.ArgsOf.argsOf x0 x1 x2 x3 x4 x5 x6 x7 x8 x9 x10 x11).Real := by
  obtain ⟨r0, r1, r2, r3, r4, r5, r6, r7, r8, r9, r10, r11⟩ := all_real x0 x1 x2 x3 x4 x5 x6 x7 x8 x9 x10 x11 h
  exact ⟨fun b n d => r0 (ix3 b n d), fun b m d => r1 (ix3 b m d), fun b n k => r2 (ix3 b n k),
    fun b m k => r3 (ix3 b m k), fun d e => r4 (ix2 d e), fun e => r5 (ix1 e), fun d e => r6 (ix2 d e),
    fun e => r7 (ix1 e), fun k e => r8 (ix2 k e), fun e => r9 (ix1 e), fun k e => r10 (ix2 k e),
    fun e => r11 (ix1 e)⟩

end Cert.Finite

end
-- ==== Proof.RealLaws.lean ====
/-
  The laws of the real numbers that join the two arrangements of the layer, and the passage of the embedding of the
  reals into the extended reals through the operations the layer is made of.

  On the extended reals the distributive law, the exchange of a factor with a sum and the cancellation of a common
  factor fail at ±∞.  Both arrangements are therefore first read on real entries as embeddings of real numbers (the
  embedding commutes with finite sums, products, maxima and a choice between two values), and the comparison is then
  made in ℝ:
  * the eight-term contraction of the augmented coordinate columns is |vs|² + |vg|² − 2 vs·vg;
  * (0 − d)·(4/25) = (−d)/(25/4);
  * one reciprocal per row in front of a weighted sum is the sum of the normalised weights:
    l⁻¹ · Σ w·y = Σ (w/l)·y, and w·(y·l⁻¹) = (w/l)·y term by term.
-/
import Mathlib.Data.EReal.Basic
import Mathlib.Data.EReal.Inv
import Mathlib.Analysis.SpecialFunctions.Exp
import Mathlib.Algebra.BigOperators.Fin

noncomputable section

open scoped BigOperators

namespace Cert.RealLaws

/-- The embedding of the reals commutes with finite sums. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The embedding of the reals commutes with the maximum (it is monotone). -/
theorem coe_max (a b : ℝ) : ((max a b : ℝ) : EReal) = max (a : EReal) (b : EReal) :=
  EReal.coe_strictMono.monotone.map_max

/-- The embedding of the reals commutes with a choice between two real values. -/
theorem coe_ite (p : Prop) [Decidable p] (a b : ℝ) :
    ((if p then a else b : ℝ) : EReal) = if p then (a : EReal) else (b : EReal) := by
  split <;> rfl

/-- The eight-term contraction of the columns (x, y, z, 1, |vs|², 0, 0, 0) and (−2x', −2y', −2z', |vg|², 1, 0, 0, 0),
    on real entries, is the embedding of |vs|² + |vg|² − 2 (x x' + y y' + z z'). -/
theorem contraction (a0 a1 a2 g0 g1 g2 sS sG : ℝ) :
    (a0 : EReal) * (((-2 : ℝ) : EReal) * (g0 : EReal)) + (a1 : EReal) * (((-2 : ℝ) : EReal) * (g1 : EReal))
        + (a2 : EReal) * (((-2 : ℝ) : EReal) * (g2 : EReal)) + 1 * (sG : EReal) + (sS : EReal) * 1
        + 0 * 0 + 0 * 0 + 0 * 0
      = ((sS + sG - 2 * (a0 * g0 + a1 * g1 + a2 * g2) : ℝ) : EReal) := by
  rw [← EReal.coe_one, ← EReal.coe_zero]
  simp only [← EReal.coe_mul, ← EReal.coe_add]
  exact congrArg _ (by ring)

/-- The reference's form of the same squared distance on real entries. -/
theorem expansion (a0 a1 a2 g0 g1 g2 sS sG : ℝ) :
    ((sS : EReal) + (sG : EReal))
        - ((2 : ℝ) : EReal) * ((a0 : EReal) * (g0 : EReal) + (a1 : EReal) * (g1 : EReal) + (a2 : EReal) * (g2 : EReal))
      = ((sS + sG - 2 * (a0 * g0 + a1 * g1 + a2 * g2) : ℝ) : EReal) := by
  simp only [← EReal.coe_mul, ← EReal.coe_add, ← EReal.coe_sub]

/-- The kernel's exponent (0 − d)·(4/25) is the reference's (−d)/(25/4). -/
theorem exponent (d : ℝ) : (0 - d) * (4 / 25) = -d / (25 / 4) := by ring

/-- One reciprocal in front of a weighted sum is the sum of the normalised weights. -/
theorem recip_mul_sum {ι : Type*} (s : Finset ι) (w y : ι → ℝ) (l : ℝ) :
    l⁻¹ * ∑ m ∈ s, w m * y m = ∑ m ∈ s, w m / l * y m := by
  rw [Finset.mul_sum]
  exact Finset.sum_congr rfl fun m _ => by ring

/-- A weight times a feature scaled by its row's reciprocal is the normalised weight times the feature. -/
theorem sum_mul_recip {ι : Type*} (s : Finset ι) (w y l : ι → ℝ) :
    ∑ n ∈ s, w n * (y n * (l n)⁻¹) = ∑ n ∈ s, w n / l n * y n :=
  Finset.sum_congr rfl fun n _ => by ring

/-- A sum of nonnegative weights plus a positive ε is positive. -/
theorem norm_pos {ι : Type*} (s : Finset ι) (w : ι → ℝ) (hw : ∀ m, 0 ≤ w m) (ε : ℝ) (hε : 0 < ε) :
    0 < (∑ m ∈ s, w m) + ε :=
  add_pos_of_nonneg_of_pos (Finset.sum_nonneg fun m _ => hw m) hε

end Cert.RealLaws

end
-- ==== Proof.RealModel.lean ====
/-
  The layer on real entries.

  When every entry of the twelve arrays is a real number the arrays are the embeddings of twelve real arrays, and the
  quantities both arrangements share — the two squared norms |vs_n|², |vg_m|² and the two pre-layers — are embeddings
  of the same sums and maxima taken in ℝ.  This module fixes the real arrays and the real quantities: the squared
  distance d² = max(|vs|² + |vg|² − 2 vs·vg, 0), the weight w = exp(−d²/(25/4)) inside the cutoff d² < 64 and 0
  outside, and the row normaliser l = Σ_m w + ε, which is positive because no weight is negative and ε > 0.
-/
import proofs.«180177_j738734374947_2_alg».proof.Proof.RealArgs
import proofs.«180177_j738734374947_2_alg».proof.Proof.RealLaws

noncomputable section

open scoped BigOperators

namespace Cert.RealModel

open Cert.RealLaws

/-- Twelve real arrays, by coordinates. -/
structure RArgs where
  xs : Fin 4 → Fin 16384 → Fin 128 → ℝ
  xg : Fin 4 → Fin 2048 → Fin 128 → ℝ
  vs : Fin 4 → Fin 16384 → Fin 3 → ℝ
  vg : Fin 4 → Fin 2048 → Fin 3 → ℝ
  Wsp : Fin 128 → Fin 128 → ℝ
  bsp : Fin 128 → ℝ
  Wgp : Fin 128 → Fin 128 → ℝ
  bgp : Fin 128 → ℝ
  Wso : Fin 256 → Fin 128 → ℝ
  bso : Fin 128 → ℝ
  Wgo : Fin 256 → Fin 128 → ℝ
  bgo : Fin 128 → ℝ

/-- The real arrays embedded entry by entry in the extended reals. -/
def RArgs.toArgs (R : RArgs) : Cert.KSpec.Args where
  xs b n d := (R.xs b n d : EReal)
  xg b m d := (R.xg b m d : EReal)
  vs b n k := (R.vs b n k : EReal)
  vg b m k := (R.vg b m k : EReal)
  Wsp d e := (R.Wsp d e : EReal)
  bsp e := (R.bsp e : EReal)
  Wgp d e := (R.Wgp d e : EReal)
  bgp e := (R.bgp e : EReal)
  Wso k e := (R.Wso k e : EReal)
  bso e := (R.bso e : EReal)
  Wgo k e := (R.Wgo k e : EReal)
  bgo e := (R.bgo e : EReal)

/-- Arrays with real entries only are the embedding of real arrays. -/
theorem exists_real {A : Cert.KSpec.Args} (hA : A.Real) : ∃ R : RArgs, A = R.toArgs := by
  obtain ⟨axs, axg, avs, avg, aWsp, absp, aWgp, abgp, aWso, abso, aWgo, abgo⟩ := A
  obtain ⟨h1, h2, h3, h4, h5, h6, h7, h8, h9, h10, h11, h12⟩ := hA
  choose xs hxs using h1
  choose xg hxg using h2
  choose vs hvs using h3
  choose vg hvg using h4
  choose Wsp hWsp using h5
  choose bsp hbsp using h6
  choose Wgp hWgp using h7
  choose bgp hbgp using h8
  choose Wso hWso using h9
  choose bso hbso using h10
  choose Wgo hWgo using h11
  choose bgo hbgo using h12
  refine ⟨⟨xs, xg, vs, vg, Wsp, bsp, Wgp, bgp, Wso, bso, Wgo, bgo⟩, ?_⟩
  simp only [RArgs.toArgs, Cert.KSpec.Args.mk.injEq]
  exact ⟨funext fun b => funext fun n => funext fun d => hxs b n d,
    funext fun b => funext fun m => funext fun d => hxg b m d,
    funext fun b => funext fun n => funext fun k => hvs b n k,
    funext fun b => funext fun m => funext fun k => hvg b m k,
    funext fun d => funext fun e => hWsp d e, funext fun e => hbsp e,
    funext fun d => funext fun e => hWgp d e, funext fun e => hbgp e,
    funext fun k => funext fun e => hWso k e, funext fun e => hbso e,
    funext fun k => funext fun e => hWgo k e, funext fun e => hbgo e⟩

variable (R : RArgs)

/-- |vs_n|² in ℝ. -/
def sqS (b : Fin 4) (n : Fin 16384) : ℝ := ∑ k : Fin 3, R.vs b n k * R.vs b n k
/-- |vg_m|² in ℝ. -/
def sqG (b : Fin 4) (m : Fin 2048) : ℝ := ∑ k : Fin 3, R.vg b m k * R.vg b m k
/-- The clamped squared distance in ℝ. -/
def d2 (b : Fin 4) (n : Fin 16384) (m : Fin 2048) : ℝ :=
  max (sqS R b n + sqG R b m
    - 2 * (R.vs b n 0 * R.vg b m 0 + R.vs b n 1 * R.vg b m 1 + R.vs b n 2 * R.vg b m 2)) 0
/-- The unnormalised weight in ℝ. -/
def w (b : Fin 4) (n : Fin 16384) (m : Fin 2048) : ℝ :=
  if d2 R b n m < 64 then Real.exp (-d2 R b n m / (25 / 4)) else 0
/-- The row normaliser in ℝ. -/
def l (ε : ℝ) (b : Fin 4) (n : Fin 16384) : ℝ := (∑ m : Fin 2048, w R b n m) + ε
/-- The surface pre-layer in ℝ. -/
def xsh (b : Fin 4) (n : Fin 16384) (e : Fin 128) : ℝ :=
  max ((∑ d : Fin 128, R.xs b n d * R.Wsp d e) + R.bsp e) 0
/-- The graph pre-layer in ℝ. -/
def xgh (b : Fin 4) (m : Fin 2048) (e : Fin 128) : ℝ :=
  max ((∑ d : Fin 128, R.xg b m d * R.Wgp d e) + R.bgp e) 0

/-- No weight is negative: it is an exponential or 0. -/
theorem w_nonneg (b : Fin 4) (n : Fin 16384) (m : Fin 2048) : 0 ≤ w R b n m := by
  unfold w
  split
  · exact (Real.exp_pos _).le
  · exact le_rfl

/-- The row normaliser is positive, so it is not 0. -/
theorem l_pos {ε : ℝ} (hε : 0 < ε) (b : Fin 4) (n : Fin 16384) : 0 < l R ε b n :=
  norm_pos _ _ (fun m => w_nonneg R b n m) ε hε

theorem l_ne {ε : ℝ} (hε : 0 < ε) (b : Fin 4) (n : Fin 16384) : l R ε b n ≠ 0 := (l_pos R hε b n).ne'

/-- The squared norms of embedded real coordinates are the embedded real squared norms. -/
theorem sqS_coe (b : Fin 4) (n : Fin 16384) : Cert.KSpec.sqS R.toArgs b n = (sqS R b n : EReal) := by
  simp only [Cert.KSpec.sqS, RArgs.toArgs, sqS, coe_sum, EReal.coe_mul]

theorem sqG_coe (b : Fin 4) (m : Fin 2048) : Cert.KSpec.sqG R.toArgs b m = (sqG R b m : EReal) := by
  simp only [Cert.KSpec.sqG, RArgs.toArgs, sqG, coe_sum, EReal.coe_mul]

/-- The pre-layers of embedded real arrays are the embedded real pre-layers. -/
theorem xsh_coe (b : Fin 4) (n : Fin 16384) (e : Fin 128) :
    Cert.KSpec.xsh R.toArgs b n e = (xsh R b n e : EReal) := by
  simp only [Cert.KSpec.xsh, RArgs.toArgs, xsh, coe_max, EReal.coe_add, coe_sum, EReal.coe_mul, EReal.coe_zero]

theorem xgh_coe (b : Fin 4) (m : Fin 2048) (e : Fin 128) :
    Cert.KSpec.xgh R.toArgs b m e = (xgh R b m e : EReal) := by
  simp only [Cert.KSpec.xgh, RArgs.toArgs, xgh, coe_max, EReal.coe_add, coe_sum, EReal.coe_mul, EReal.coe_zero]

end Cert.RealModel

end
-- ==== Proof.KReal.lean ====
/-
  The kernel's arrangement on real entries.

  Each quantity of the kernel's arrangement, evaluated on embedded real arrays, is the embedding of a real number:
  * the eight-term contraction of the augmented columns is |vs|² + |vg|² − 2 vs·vg, so the clamped squared
    distance is the real d²;
  * the selected exponential exp((0 − d²)·(4/25)) is the real weight w (the exponent is (−d²)/(25/4));
  * the row normaliser l = Σ_m w + ε is positive, hence not 0, so its reciprocal is the real 1/l;
  * the reciprocal in front of the weighted sum is the sum of the normalised weights w/l times the graph features,
    and the sum of weights times features scaled by their row's reciprocal is the sum of w/l times the surface features.
-/
import proofs.«180177_j738734374947_2_alg».proof.Proof.RealModel

noncomputable section

open scoped BigOperators

namespace Cert.KReal

open Cert.RealLaws Cert.RealModel

/-- The kernel's scalars as real numbers: the cutoff 64, the reciprocal 4/25 of σ², a real ε, the factor −2, and an
    exponential that on a real number is the real exponential. -/
structure KStd (K : Cert.KSpec.Consts) (ε : ℝ) : Prop where
  cut : K.cut = ((64 : ℝ) : EReal)
  c : K.c = ((4 / 25 : ℝ) : EReal)
  eps : K.eps = (ε : EReal)
  mtwo : K.mtwo = ((-2 : ℝ) : EReal)
  ex : ∀ r : ℝ, K.ex (r : EReal) = (Real.exp r : EReal)

/-- The eight products of the contraction, written out: three coordinate products, the two cross terms
    1·|vg|² and |vs|²·1, and three products of zeros. -/
theorem contraction_eq (A : Cert.KSpec.Args) (K : Cert.KSpec.Consts) (b : Fin 4) (n : Fin 16384) (m : Fin 2048) :
    ∑ r : Fin 8, Cert.KSpec.augS A b r n * Cert.KSpec.augG A K b r m
      = A.vs b n 0 * (K.mtwo * A.vg b m 0) + A.vs b n 1 * (K.mtwo * A.vg b m 1)
        + A.vs b n 2 * (K.mtwo * A.vg b m 2) + 1 * Cert.KSpec.sqG A b m + Cert.KSpec.sqS A b n * 1
        + 0 * 0 + 0 * 0 + 0 * 0 := by
  rw [Fin.sum_univ_eight]
  rfl

/-- The quotient of two real numbers with a nonzero divisor is the real quotient. -/
theorem quot_coe (a c : ℝ) (hc : c ≠ 0) : Cert.KSpec.quot (a : EReal) (c : EReal) = ((a / c : ℝ) : EReal) := by
  unfold Cert.KSpec.quot
  rw [if_neg (EReal.coe_ne_zero.2 hc), ← EReal.coe_inv, ← EReal.coe_mul, div_eq_mul_inv]

variable (R : RArgs) {K : Cert.KSpec.Consts} {ε : ℝ} (hK : KStd K ε)

include hK

/-- The clamped contraction is the real squared distance. -/
theorem dist2_coe (b : Fin 4) (n : Fin 16384) (m : Fin 2048) :
    Cert.KSpec.dist2 R.toArgs K b n m = (d2 R b n m : EReal) := by
  unfold Cert.KSpec.dist2
  rw [contraction_eq, sqS_coe, sqG_coe, hK.mtwo]
  simp only [RArgs.toArgs]
  rw [contraction, d2, coe_max, EReal.coe_zero]

/-- The selected exponential is the real weight. -/
theorem wgt_coe (b : Fin 4) (n : Fin 16384) (m : Fin 2048) :
    Cert.KSpec.wgt R.toArgs K b n m = (w R b n m : EReal) := by
  unfold Cert.KSpec.wgt
  rw [dist2_coe R hK, hK.cut, hK.c]
  by_cases h : d2 R b n m < 64
  · rw [if_pos (EReal.coe_lt_coe_iff.2 h), w, if_pos h, ← EReal.coe_zero, ← EReal.coe_sub, ← EReal.coe_mul, hK.ex,
      exponent]
  · rw [if_neg (fun h' => h (EReal.coe_lt_coe_iff.1 h')), w, if_neg h, EReal.coe_zero]

/-- The row normaliser is the real l. -/
theorem norm_coe (b : Fin 4) (n : Fin 16384) :
    (∑ m : Fin 2048, Cert.KSpec.wgt R.toArgs K b n m) + K.eps = (l R ε b n : EReal) := by
  simp only [wgt_coe R hK, hK.eps, l, EReal.coe_add, coe_sum]

/-- The row's reciprocal is the real 1/l: the normaliser is positive, so the quotient is the real one. -/
theorem recip_coe (hε : 0 < ε) (b : Fin 4) (n : Fin 16384) :
    Cert.KSpec.recip R.toArgs K b n = (((l R ε b n)⁻¹ : ℝ) : EReal) := by
  unfold Cert.KSpec.recip
  rw [norm_coe R hK, ← EReal.coe_one, quot_coe _ _ (l_ne R hε b n), one_div]

/-- The message to the surface: the reciprocal in front of the weighted sum is the sum of the normalised weights
    times the graph features. -/
theorem msgS_coe (hε : 0 < ε) (b : Fin 4) (n : Fin 16384) (e : Fin 128) :
    Cert.KSpec.msgS R.toArgs K b n e = ((∑ m : Fin 2048, w R b n m / l R ε b n * xgh R b m e : ℝ) : EReal) := by
  unfold Cert.KSpec.msgS
  rw [recip_coe R hK hε]
  simp only [wgt_coe R hK, xgh_coe]
  rw [← recip_mul_sum, EReal.coe_mul, coe_sum]
  simp only [EReal.coe_mul]

/-- The message to the graph: weight times the feature scaled by its row's reciprocal is normalised weight times feature. -/
theorem msgG_coe (hε : 0 < ε) (b : Fin 4) (m : Fin 2048) (e : Fin 128) :
    Cert.KSpec.msgG R.toArgs K b m e = ((∑ n : Fin 16384, w R b n m / l R ε b n * xsh R b n e : ℝ) : EReal) := by
  unfold Cert.KSpec.msgG
  simp only [wgt_coe R hK, xsh_coe, recip_coe R hK hε]
  rw [← sum_mul_recip, coe_sum]
  simp only [EReal.coe_mul]

end Cert.KReal

end
-- ==== Proof.RReal.lean ====
/-
  The reference's arrangement on real entries.

  Each quantity of the reference's arrangement, evaluated on embedded real arrays, is the embedding of a real number:
  * (|vs|² + |vg|²) − 2·(vs·vg) clamped at 0 is the real d²;
  * the quotient of two real numbers with a nonzero divisor is the real quotient, so exp((−d²)/(25/4)) times the
    0/1 mask of the cutoff is the real weight w;
  * the row normaliser l = Σ_m w + ε is positive, hence not 0, so every normalised weight is the real w/l, and the
    two messages are the real sums of w/l times the features.
-/
import proofs.«180177_j738734374947_2_alg».proof.Proof.RealModel
import proofs.«180177_j738734374947_2_alg».proof.Proof.RSpec

noncomputable section

open scoped BigOperators

namespace Cert.RReal

open Cert.RealLaws Cert.RealModel

/-- The reference's scalars as real numbers: the cutoff 64, a real ε, an exponential that on a real number is the
    real exponential, the factor 2 and σ² = 25/4. -/
structure RStd (K : Cert.RSpec.Consts) (ε : ℝ) : Prop where
  cut : K.cut = ((64 : ℝ) : EReal)
  eps : K.eps = (ε : EReal)
  ex : ∀ r : ℝ, K.ex (r : EReal) = (Real.exp r : EReal)
  two : K.two = ((2 : ℝ) : EReal)
  sig2 : K.sig2 = ((25 / 4 : ℝ) : EReal)

/-- The quotient of two real numbers with a nonzero divisor is the real quotient. -/
theorem quot_coe (a c : ℝ) (hc : c ≠ 0) : Cert.RSpec.quot (a : EReal) (c : EReal) = ((a / c : ℝ) : EReal) := by
  unfold Cert.RSpec.quot
  rw [if_neg (EReal.coe_ne_zero.2 hc), ← EReal.coe_inv, ← EReal.coe_mul, div_eq_mul_inv]

variable (R : RArgs) {K : Cert.RSpec.Consts} {ε : ℝ} (hK : RStd K ε)

include hK

/-- The clamped expansion is the real squared distance. -/
theorem dist2_coe (b : Fin 4) (n : Fin 16384) (m : Fin 2048) :
    Cert.RSpec.dist2 R.toArgs K b n m = (d2 R b n m : EReal) := by
  unfold Cert.RSpec.dist2 Cert.RSpec.inner
  rw [Fin.sum_univ_three, sqS_coe, sqG_coe, hK.two]
  simp only [RArgs.toArgs]
  rw [expansion, d2, coe_max, EReal.coe_zero]

/-- The masked exponential is the real weight. -/
theorem wgt_coe (b : Fin 4) (n : Fin 16384) (m : Fin 2048) :
    Cert.RSpec.wgt R.toArgs K b n m = (w R b n m : EReal) := by
  unfold Cert.RSpec.wgt Cert.RSpec.mask
  rw [dist2_coe R hK, hK.cut, hK.sig2, ← EReal.coe_neg, quot_coe _ _ (by norm_num), hK.ex]
  by_cases h : d2 R b n m < 64
  · rw [if_pos (EReal.coe_lt_coe_iff.2 h), w, if_pos h, mul_one]
  · rw [if_neg (fun h' => h (EReal.coe_lt_coe_iff.1 h')), w, if_neg h, mul_zero, EReal.coe_zero]

/-- The row normaliser is the real l. -/
theorem norm_coe (b : Fin 4) (n : Fin 16384) : Cert.RSpec.norm R.toArgs K b n = (l R ε b n : EReal) := by
  unfold Cert.RSpec.norm
  simp only [wgt_coe R hK, hK.eps, l, EReal.coe_add, coe_sum]

/-- The normalised weight is the real w/l: the normaliser is positive, so the quotient is the real one. -/
theorem wn_coe (hε : 0 < ε) (b : Fin 4) (n : Fin 16384) (m : Fin 2048) :
    Cert.RSpec.wn R.toArgs K b n m = ((w R b n m / l R ε b n : ℝ) : EReal) := by
  unfold Cert.RSpec.wn
  rw [wgt_coe R hK, norm_coe R hK, quot_coe _ _ (l_ne R hε b n)]

/-- The message to the surface is the real sum of normalised weights times graph features. -/
theorem msgS_coe (hε : 0 < ε) (b : Fin 4) (n : Fin 16384) (e : Fin 128) :
    Cert.RSpec.msgS R.toArgs K b n e = ((∑ m : Fin 2048, w R b n m / l R ε b n * xgh R b m e : ℝ) : EReal) := by
  unfold Cert.RSpec.msgS
  simp only [wn_coe R hK hε, xgh_coe, coe_sum, EReal.coe_mul]

/-- The message to the graph is the real sum of normalised weights times surface features. -/
theorem msgG_coe (hε : 0 < ε) (b : Fin 4) (m : Fin 2048) (e : Fin 128) :
    Cert.RSpec.msgG R.toArgs K b m e = ((∑ n : Fin 16384, w R b n m / l R ε b n * xsh R b n e : ℝ) : EReal) := by
  unfold Cert.RSpec.msgG
  simp only [wn_coe R hK hε, xsh_coe, coe_sum, EReal.coe_mul]

end Cert.RReal

end
-- ==== Proof.Algebra.lean ====
/-
  The two arrangements of the layer agree on real entries.

  On arrays whose entries are all real numbers, the kernel's two messages and the reference's two messages are the
  embeddings of the same two real sums (of the normalised weights w/l times the features).  Everything after the
  messages — the concatenation with the old features, the post-layers, the listing of the new surface rows before the
  new graph rows — is the same expression of the messages on both sides, so the results agree index by index.
-/
import proofs.«180177_j738734374947_2_alg».proof.Proof.KReal
import proofs.«180177_j738734374947_2_alg».proof.Proof.RReal

noncomputable section

open scoped BigOperators

namespace Cert.Algebra

open Cert.RealModel Cert.KReal Cert.RReal

variable {K : Cert.KSpec.Consts} {K' : Cert.RSpec.Consts} {ε : ℝ}

/-- The messages to the surface agree. -/
theorem msgS_eq (hK : KStd K ε) (hK' : RStd K' ε) (hε : 0 < ε) (R : RArgs) (b : Fin 4) (n : Fin 16384) (e : Fin 128) :
    Cert.KSpec.msgS R.toArgs K b n e = Cert.RSpec.msgS R.toArgs K' b n e :=
  (Cert.KReal.msgS_coe R hK hε b n e).trans (Cert.RReal.msgS_coe R hK' hε b n e).symm

/-- The messages to the graph agree. -/
theorem msgG_eq (hK : KStd K ε) (hK' : RStd K' ε) (hε : 0 < ε) (R : RArgs) (b : Fin 4) (m : Fin 2048) (e : Fin 128) :
    Cert.KSpec.msgG R.toArgs K b m e = Cert.RSpec.msgG R.toArgs K' b m e :=
  (Cert.KReal.msgG_coe R hK hε b m e).trans (Cert.RReal.msgG_coe R hK' hε b m e).symm

/-- The kernel's arrangement and the reference's arrangement give the same result at every index, for arrays whose
    entries are all real numbers and scalars that are the same real numbers on both sides. -/
theorem out_eq_of_std (hK : KStd K ε) (hK' : RStd K' ε) (hε : 0 < ε) (A : Cert.KSpec.Args) (hA : A.Real)
    (b : Fin 4) (r : Fin 18432) (e : Fin 128) :
    Cert.KSpec.out A K b r e = Cert.RSpec.out A K' b r e := by
  obtain ⟨R, rfl⟩ := exists_real hA
  unfold Cert.KSpec.out Cert.RSpec.out Cert.KSpec.newS Cert.RSpec.newS Cert.KSpec.newG Cert.RSpec.newG
    Cert.KSpec.catS Cert.RSpec.catS Cert.KSpec.catG Cert.RSpec.catG
  simp only [msgS_eq hK hK' hε, msgG_eq hK hK' hε]

end Cert.Algebra

end
-- ==== Proof.AlgebraConsts.lean ====
/-
  The scalars of the two programs are the same real numbers, and the two arrangements agree.

  The float patterns the two bodies mention denote real numbers: 0x42800000 is 64 (the cutoff, on both sides),
  0xC0000000 is −2 and 0x40000000 is 2 (the factors in front of the inner product of the coordinates), 0x40C80000
  is 25/4 = σ² exactly, whose reciprocal is the kernel's named 4/25, and 0x322BCC77 is 11258999 · 2⁻⁵⁰, a positive
  number (the ε of the normaliser, the same word on both sides).  The exponential of a real number is the real
  exponential.  With these the agreement of the two arrangements on real entries applies to the programs' own scalars.
-/
import proofs.«180177_j738734374947_2_alg».proof.Proof.ArgsOf
import proofs.«180177_j738734374947_2_alg».proof.Proof.RefConsts
import proofs.«180177_j738734374947_2_alg».proof.Proof.Algebra

noncomputable section

open Idealize.ShloMosaic

namespace Cert.Algebra

/-- The cutoff's pattern denotes 64. -/
theorem cut_val : Ideal.ofBits .f32 0x42800000#32 = ((64 : ℝ) : EReal) := by
  simp [Ideal.ofBits, Ideal.ieee]
  rw [← EReal.coe_mul]; exact congrArg _ (by norm_num)

/-- The kernel's factor in front of the graph coordinates denotes −2. -/
theorem mtwo_val : Ideal.ofBits .f32 0xC0000000#32 = ((-2 : ℝ) : EReal) := by
  simp [Ideal.ofBits, Ideal.ieee]
  rw [← EReal.coe_mul]; exact congrArg _ (by norm_num)

/-- The reference's factor in front of the inner product denotes 2. -/
theorem two_val : Ideal.ofBits .f32 0x40000000#32 = ((2 : ℝ) : EReal) := by
  simp [Ideal.ofBits, Ideal.ieee]
  rw [← EReal.coe_mul]; exact congrArg _ (by norm_num)

/-- The reference's σ² denotes 25/4 exactly. -/
theorem sig2_val : Ideal.ofBits .f32 0x40C80000#32 = ((25 / 4 : ℝ) : EReal) := by
  simp [Ideal.ofBits, Ideal.ieee]
  rw [← EReal.coe_mul]; exact congrArg _ (by norm_num)

/-- The normaliser's ε denotes 11258999 · 2⁻⁵⁰. -/
theorem eps_val : Ideal.ofBits .f32 0x322BCC77#32 = ((11258999 / 2 ^ 50 : ℝ) : EReal) := by
  simp [Ideal.ofBits, Ideal.ieee]
  rw [← EReal.coe_mul]; exact congrArg _ (by norm_num)

/-- The normaliser's ε is positive. -/
theorem eps_pos : (0 : ℝ) < 11258999 / 2 ^ 50 := by positivity

/-- The kernel's scalars are the real numbers the comparison assumes. -/
theorem kstd : Cert.KReal.KStd Cert.ArgsOf.consts (11258999 / 2 ^ 50) :=
  ⟨cut_val, rfl, eps_val, mtwo_val, fun _ => rfl⟩

/-- The reference's scalars are the same real numbers, with 2 and σ² = 25/4. -/
theorem rstd : Cert.RReal.RStd Cert.RefConsts.consts (11258999 / 2 ^ 50) :=
  ⟨cut_val, eps_val, fun _ => rfl, two_val, sig2_val⟩

/-- On arrays whose entries are all real numbers the kernel's arrangement and the reference's arrangement, with the
    programs' own scalars, give the same result at every index. -/
theorem out_eq (A : Cert.KSpec.Args) (hA : A.Real) (b : Fin 4) (r : Fin 18432) (e : Fin 128) :
    Cert.KSpec.out A Cert.ArgsOf.consts b r e = Cert.RSpec.out A Cert.RefConsts.consts b r e :=
  out_eq_of_std kstd rstd eps_pos A hA b r e

end Cert.Algebra

end
-- ==== Proof.KI.Slabs.lean ====
/-
  The two eight-row slabs, as the region finds them, are the kernel's augmented coordinate slabs.

  Before the region, twenty-five host operations build, from the surface coordinates vs : 4 × 16384 × 3 and the
  graph coordinates vg : 4 × 2048 × 3, the slabs
      aS : 4 × 8 × 16384,  rows  x, y, z, 1, |vs_n|², 0, 0, 0,
      aG : 4 × 8 × 2048,   rows  −2x', −2y', −2z', |vg_m|², 1, 0, 0, 0,
  each as four pieces laid one under the other along the row axis, of heights 3, 1, 1, 3: the coordinates transposed
  (the graph's also scaled by −2), a row of ones, the row of squared norms (a float sum of the three squared
  coordinates from a zero initial value, 0 + s = s), and three rows of zeros.  An entry of a slab is read by locating
  its row among the pieces: rows 0–2 in the first, row 3 in the second, row 4 in the third, rows 5–7 in the last.
-/
import proofs.«180177_j738734374947_2_alg».proof.Proof.KI.Base
import proofs.«180177_j738734374947_2_alg».proof.Proof.ArgsOf
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Slabs

open Cert.KernelIdeal Cert.KernelIdeal.Gen Cert.KernelIdeal.Hand
open Idealize.ShloMosaic Idealize.ShloMosaic.TcCoe Idealize.ShloMosaic.ValueIdx
open Idealize.SL Idealize.SL.Sem Idealize.ShloMosaic.StableHlo

variable (m : (ℓ : Loc nD τ sig) → Buf (Elt Ideal) ℓ) (c : Dev nD)

/-- The twelve argument arrays of core c's launch, by coordinates. -/
def argsAt : Cert.KSpec.Args :=
  Cert.ArgsOf.argsOf (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg8)) (m ((c : Thread nD τ).loc main_arg9))
    (m ((c : Thread nD τ).loc main_arg10)) (m ((c : Thread nD τ).loc main_arg11))

/-- The pattern of the float 1.0 is the number 1. -/
theorem one_f32 : Ideal.ofBits .f32 0x3F800000#32 = 1 := by
  simp [Ideal.ofBits, Ideal.ieee, -EReal.coe_mul]; norm_num

/-! ## The surface slab as a function of the coordinates -/

section S
variable (x : (⟨S4x16384x3, .f32⟩ : BufTy).Contents (Elt Ideal))

/-- Rows 0–2: the coordinates transposed, so that the point index runs along the last axis. -/
def rowsS : S4x3x16384.Idx → EReal :=
  transpose S4x3x16384 [0, 2, 1] x transposes_S4x16384x3_S4x3x16384_0_2_1
/-- The row of ones. -/
def onesS : S4x1x16384.Idx → EReal :=
  broadcastInDim S4x1x16384 ![] bcast_S_S4x1x16384 (constant (F := Ideal) S_ .f32 0x3F800000#32)
/-- The row of squared norms: the float sum of the squared coordinates, from a zero initial value, laid along the last axis. -/
def normS : S4x1x16384.Idx → EReal :=
  transpose S4x1x16384 [0, 2, 1] (broadcastInDim S4x16384x1 ![0, 1] bcast_S4x16384_S4x16384x1_0_1
    (Host.reduceAdd (F := Ideal) (mulf x x) (constant S_ .f32 0x00000000#32) reducesTo_S4x16384x3_S4x16384_d2 h_S_))
    transposes_S4x16384x1_S4x1x16384_0_2_1
/-- The three rows of zeros. -/
def zerosS : S4x3x16384.Idx → EReal :=
  broadcastInDim S4x3x16384 ![] bcast_S_S4x3x16384 (constant (F := Ideal) S_ .f32 0x00000000#32)

/-- The slab: the four pieces one under the other (heights 3, 1, 1, 3: coordinates, ones, squared norms, zeros). -/
def slabSOf : S4x8x16384.Idx → EReal :=
  concatenate S4x8x16384 1 [⟨S4x3x16384, rowsS x⟩, ⟨S4x1x16384, onesS⟩, ⟨S4x1x16384, normS x⟩, ⟨S4x3x16384, zerosS⟩]
    concatenates_S4x3x16384_S4x1x16384_S4x1x16384_S4x3x16384_S4x8x16384_d1

theorem rowsS_at (b : Fin 4) (k : Fin 3) (n : Fin 16384) :
    rowsS x (ix3 b k n) = x (ix3 b n k) := by
  unfold rowsS
  exact transpose_ix3_021_apply x transposes_S4x16384x3_S4x3x16384_0_2_1 b k n

theorem onesS_at (b : Fin 4) (z : Fin 1) (n : Fin 16384) : onesS (ix3 b z n) = 1 :=
  (broadcastInDim_apply _ bcast_S_S4x1x16384 _ (ix3 b z n) ix0 (fun a => a.elim0)).trans one_f32

theorem zerosS_at (b : Fin 4) (k : Fin 3) (n : Fin 16384) : zerosS (ix3 b k n) = 0 :=
  (broadcastInDim_apply _ bcast_S_S4x3x16384 _ (ix3 b k n) ix0 (fun a => a.elim0)).trans Ideal.ofBits_zero_f32

/-- The squared-norm row at point n: the sum of the three squared coordinates (0 + s = s for the zero initial value). -/
theorem normS_at (b : Fin 4) (z : Fin 1) (n : Fin 16384) :
    normS x (ix3 b z n) = ∑ k : Fin 3, x (ix3 b n k) * x (ix3 b n k) := by
  unfold normS
  rw [transpose_ix3_021_apply _ transposes_S4x16384x1_S4x1x16384_0_2_1 b z n]
  rw [broadcastInDim_apply _ bcast_S4x16384_S4x16384x1_0_1 _ (ix3 b n z) (ix2 b n) (fun a => match a with
    | ⟨0, _⟩ => by show b.val = if (4 : Nat) = 1 then 0 else b.val; rw [if_neg (by decide)]
    | ⟨1, _⟩ => by show n.val = if (16384 : Nat) = 1 then 0 else n.val; rw [if_neg (by decide)])]
  simp only [Host.reduceAdd, Ideal.hostReduceAdd_def]
  rw [Ideal.hostReduceAdd_single reducesTo_S4x16384x3_S4x16384_d2 (by decide)]
  refine (congrArg₂ (· + ·) Ideal.ofBits_zero_f32 (Finset.sum_congr rfl fun k _ => ?_)).trans (zero_add _)
  exact congrArg (fun i => x i * x i) (funext fun a => Fin.ext (by match a with | ⟨0, _⟩ => rfl | ⟨1, _⟩ => rfl | ⟨2, _⟩ => rfl))

/-- The slab at (b, r, n), by the row: which piece holds row r, and at which of its rows. -/
theorem slabSOf_at (b : Fin 4) (r : Fin 8) (n : Fin 16384) :
    slabSOf x (ix3 b r n) =
      if h : r.val < 3 then x (ix3 b n ⟨r.val, h⟩)
      else if r.val = 3 then 1
      else if r.val = 4 then ∑ k : Fin 3, x (ix3 b n k) * x (ix3 b n k) else 0 := by
  have key := concatenate_apply_piece (t := S4x8x16384) 1
    [⟨S4x3x16384, rowsS x⟩, ⟨S4x1x16384, onesS⟩, ⟨S4x1x16384, normS x⟩, ⟨S4x3x16384, zerosS⟩]
    concatenates_S4x3x16384_S4x1x16384_S4x1x16384_S4x3x16384_S4x8x16384_d1 (ix3 b r n)
  unfold slabSOf
  by_cases h0 : r.val < 3
  · rw [dif_pos h0]
    refine (key 0 (by show (0 : ℕ) < 4; omega) S4x3x16384 _ rfl rfl 0 rfl (ix3 b ⟨r.val, h0⟩ n) ?_ ?_).trans (rowsS_at x b ⟨r.val, h0⟩ n)
    · intro a ha
      match a, ha with
      | ⟨0, _⟩, _ => rfl
      | ⟨1, _⟩, ha => exact absurd rfl ha
      | ⟨2, _⟩, _ => rfl
    · show 0 + r.val = r.val
      omega
  · rw [dif_neg h0]
    by_cases h3 : r.val = 3
    · rw [if_pos h3]
      refine (key 1 (by show (1 : ℕ) < 4; omega) S4x1x16384 _ rfl rfl 3 rfl (ix3 b (0 : Fin 1) n) ?_ ?_).trans (onesS_at b 0 n)
      · intro a ha
        match a, ha with
        | ⟨0, _⟩, _ => rfl
        | ⟨1, _⟩, ha => exact absurd rfl ha
        | ⟨2, _⟩, _ => rfl
      · show 3 + 0 = r.val
        omega
    · rw [if_neg h3]
      by_cases h4 : r.val = 4
      · rw [if_pos h4]
        refine (key 2 (by show (2 : ℕ) < 4; omega) S4x1x16384 _ rfl rfl 4 rfl (ix3 b (0 : Fin 1) n) ?_ ?_).trans (normS_at x b 0 n)
        · intro a ha
          match a, ha with
          | ⟨0, _⟩, _ => rfl
          | ⟨1, _⟩, ha => exact absurd rfl ha
          | ⟨2, _⟩, _ => rfl
        · show 4 + 0 = r.val
          omega
      · rw [if_neg h4]
        have h5 : 5 ≤ r.val := by omega
        refine (key 3 (by show (3 : ℕ) < 4; omega) S4x3x16384 _ rfl rfl 5 rfl (ix3 b ⟨r.val - 5, by omega⟩ n) ?_ ?_).trans (zerosS_at b ⟨r.val - 5, by omega⟩ n)
        · intro a ha
          match a, ha with
          | ⟨0, _⟩, _ => rfl
          | ⟨1, _⟩, ha => exact absurd rfl ha
          | ⟨2, _⟩, _ => rfl
        · show 5 + (r.val - 5) = r.val
          omega

end S

/-! ## The graph slab as a function of the coordinates -/

section G
variable (x : (⟨S4x2048x3, .f32⟩ : BufTy).Contents (Elt Ideal))

/-- Rows 0–2: −2 times the coordinates, transposed so that the point index runs along the last axis. -/
def rowsG : S4x3x2048.Idx → EReal :=
  mulf (broadcastInDim S4x3x2048 ![] bcast_S_S4x3x2048 (constant (F := Ideal) S_ .f32 0xC0000000#32))
    (transpose S4x3x2048 [0, 2, 1] x transposes_S4x2048x3_S4x3x2048_0_2_1)
/-- The row of ones. -/
def onesG : S4x1x2048.Idx → EReal :=
  broadcastInDim S4x1x2048 ![] bcast_S_S4x1x2048 (constant (F := Ideal) S_ .f32 0x3F800000#32)
/-- The row of squared norms: the float sum of the squared coordinates, from a zero initial value, laid along the last axis. -/
def normG : S4x1x2048.Idx → EReal :=
  transpose S4x1x2048 [0, 2, 1] (broadcastInDim S4x2048x1 ![0, 1] bcast_S4x2048_S4x2048x1_0_1
    (Host.reduceAdd (F := Ideal) (mulf x x) (constant S_ .f32 0x00000000#32) reducesTo_S4x2048x3_S4x2048_d2 h_S_))
    transposes_S4x2048x1_S4x1x2048_0_2_1
/-- The three rows of zeros. -/
def zerosG : S4x3x2048.Idx → EReal :=
  broadcastInDim S4x3x2048 ![] bcast_S_S4x3x2048 (constant (F := Ideal) S_ .f32 0x00000000#32)

/-- The slab: the four pieces one under the other (heights 3, 1, 1, 3: scaled coordinates, squared norms, ones, zeros). -/
def slabGOf : S4x8x2048.Idx → EReal :=
  concatenate S4x8x2048 1 [⟨S4x3x2048, rowsG x⟩, ⟨S4x1x2048, normG x⟩, ⟨S4x1x2048, onesG⟩, ⟨S4x3x2048, zerosG⟩]
    concatenates_S4x3x2048_S4x1x2048_S4x1x2048_S4x3x2048_S4x8x2048_d1

theorem rowsG_at (b : Fin 4) (k : Fin 3) (n : Fin 2048) :
    rowsG x (ix3 b k n) = Ideal.ofBits .f32 0xC0000000#32 * x (ix3 b n k) := by
  unfold rowsG
  show broadcastInDim S4x3x2048 ![] bcast_S_S4x3x2048 (constant (F := Ideal) S_ .f32 0xC0000000#32) (ix3 b k n)
    * transpose S4x3x2048 [0, 2, 1] x transposes_S4x2048x3_S4x3x2048_0_2_1 (ix3 b k n) = _
  rw [broadcastInDim_apply _ bcast_S_S4x3x2048 _ (ix3 b k n) ix0 (fun a => a.elim0),
    transpose_ix3_021_apply x transposes_S4x2048x3_S4x3x2048_0_2_1 b k n]
  rfl

theorem onesG_at (b : Fin 4) (z : Fin 1) (n : Fin 2048) : onesG (ix3 b z n) = 1 :=
  (broadcastInDim_apply _ bcast_S_S4x1x2048 _ (ix3 b z n) ix0 (fun a => a.elim0)).trans one_f32

theorem zerosG_at (b : Fin 4) (k : Fin 3) (n : Fin 2048) : zerosG (ix3 b k n) = 0 :=
  (broadcastInDim_apply _ bcast_S_S4x3x2048 _ (ix3 b k n) ix0 (fun a => a.elim0)).trans Ideal.ofBits_zero_f32

/-- The squared-norm row at point n: the sum of the three squared coordinates (0 + s = s for the zero initial value). -/
theorem normG_at (b : Fin 4) (z : Fin 1) (n : Fin 2048) :
    normG x (ix3 b z n) = ∑ k : Fin 3, x (ix3 b n k) * x (ix3 b n k) := by
  unfold normG
  rw [transpose_ix3_021_apply _ transposes_S4x2048x1_S4x1x2048_0_2_1 b z n]
  rw [broadcastInDim_apply _ bcast_S4x2048_S4x2048x1_0_1 _ (ix3 b n z) (ix2 b n) (fun a => match a with
    | ⟨0, _⟩ => by show b.val = if (4 : Nat) = 1 then 0 else b.val; rw [if_neg (by decide)]
    | ⟨1, _⟩ => by show n.val = if (2048 : Nat) = 1 then 0 else n.val; rw [if_neg (by decide)])]
  simp only [Host.reduceAdd, Ideal.hostReduceAdd_def]
  rw [Ideal.hostReduceAdd_single reducesTo_S4x2048x3_S4x2048_d2 (by decide)]
  refine (congrArg₂ (· + ·) Ideal.ofBits_zero_f32 (Finset.sum_congr rfl fun k _ => ?_)).trans (zero_add _)
  exact congrArg (fun i => x i * x i) (funext fun a => Fin.ext (by match a with | ⟨0, _⟩ => rfl | ⟨1, _⟩ => rfl | ⟨2, _⟩ => rfl))

/-- The slab at (b, r, n), by the row: which piece holds row r, and at which of its rows. -/
theorem slabGOf_at (b : Fin 4) (r : Fin 8) (n : Fin 2048) :
    slabGOf x (ix3 b r n) =
      if h : r.val < 3 then Ideal.ofBits .f32 0xC0000000#32 * x (ix3 b n ⟨r.val, h⟩)
      else if r.val = 3 then ∑ k : Fin 3, x (ix3 b n k) * x (ix3 b n k)
      else if r.val = 4 then 1 else 0 := by
  have key := concatenate_apply_piece (t := S4x8x2048) 1
    [⟨S4x3x2048, rowsG x⟩, ⟨S4x1x2048, normG x⟩, ⟨S4x1x2048, onesG⟩, ⟨S4x3x2048, zerosG⟩]
    concatenates_S4x3x2048_S4x1x2048_S4x1x2048_S4x3x2048_S4x8x2048_d1 (ix3 b r n)
  unfold slabGOf
  by_cases h0 : r.val < 3
  · rw [dif_pos h0]
    refine (key 0 (by show (0 : ℕ) < 4; omega) S4x3x2048 _ rfl rfl 0 rfl (ix3 b ⟨r.val, h0⟩ n) ?_ ?_).trans (rowsG_at x b ⟨r.val, h0⟩ n)
    · intro a ha
      match a, ha with
      | ⟨0, _⟩, _ => rfl
      | ⟨1, _⟩, ha => exact absurd rfl ha
      | ⟨2, _⟩, _ => rfl
    · show 0 + r.val = r.val
      omega
  · rw [dif_neg h0]
    by_cases h3 : r.val = 3
    · rw [if_pos h3]
      refine (key 1 (by show (1 : ℕ) < 4; omega) S4x1x2048 _ rfl rfl 3 rfl (ix3 b (0 : Fin 1) n) ?_ ?_).trans (normG_at x b 0 n)
      · intro a ha
        match a, ha with
        | ⟨0, _⟩, _ => rfl
        | ⟨1, _⟩, ha => exact absurd rfl ha
        | ⟨2, _⟩, _ => rfl
      · show 3 + 0 = r.val
        omega
    · rw [if_neg h3]
      by_cases h4 : r.val = 4
      · rw [if_pos h4]
        refine (key 2 (by show (2 : ℕ) < 4; omega) S4x1x2048 _ rfl rfl 4 rfl (ix3 b (0 : Fin 1) n) ?_ ?_).trans (onesG_at b 0 n)
        · intro a ha
          match a, ha with
          | ⟨0, _⟩, _ => rfl
          | ⟨1, _⟩, ha => exact absurd rfl ha
          | ⟨2, _⟩, _ => rfl
        · show 4 + 0 = r.val
          omega
      · rw [if_neg h4]
        have h5 : 5 ≤ r.val := by omega
        refine (key 3 (by show (3 : ℕ) < 4; omega) S4x3x2048 _ rfl rfl 5 rfl (ix3 b ⟨r.val - 5, by omega⟩ n) ?_ ?_).trans (zerosG_at b ⟨r.val - 5, by omega⟩ n)
        · intro a ha
          match a, ha with
          | ⟨0, _⟩, _ => rfl
          | ⟨1, _⟩, ha => exact absurd rfl ha
          | ⟨2, _⟩, _ => rfl
        · show 5 + (r.val - 5) = r.val
          omega

end G

/-! ## The slabs as the region finds them -/

/-- The operations after the one that writes the buffer in hand do not write it. -/
local macro "later_ops" : tactic => `(tactic| repeat (first
    | (rw [nullary_result_ne]; rotate_left; decide)
    | (rw [unary_result_ne]; rotate_left; decide)
    | (rw [binary_result_ne]; rotate_left; decide)
    | (rw [nary_result_ne]; rotate_left; decide)))
/-- Each operation's result at its own buffer is its function of its operands; at another buffer, what was there. -/
local macro "own_ops" : tactic => `(tactic| repeat (first
    | rw [nullary_result] | rw [unary_result] | rw [binary_result]
    | (rw [nullary_result_ne]; rotate_left; decide)
    | (rw [unary_result_ne]; rotate_left; decide)
    | (rw [binary_result_ne]; rotate_left; decide)
    | (rw [nary_result_ne]; rotate_left; decide)))

/-- The surface slab when the region is entered is the four pieces built from the launch's surface coordinates. -/
theorem v7_eq : (V m c main_v7 : S4x8x16384.Idx → EReal) = slabSOf (m ((c : Thread nD τ).loc main_arg2)) := by
  dsimp only [V, hostOps0]
  simp only [after_cons, after_nil]
  later_ops
  rw [nary4_result]
  own_ops
  rfl

set_option maxHeartbeats 2000000 in
/-- The graph slab when the region is entered is the four pieces built from the launch's graph coordinates. -/
theorem v17_eq : (V m c main_v17 : S4x8x2048.Idx → EReal) = slabGOf (m ((c : Thread nD τ).loc main_arg3)) := by
  dsimp only [V, hostOps0]
  simp only [after_cons, after_nil]
  rw [nary4_result]
  own_ops
  rfl

/-- The surface slab at (b, r, n): rows x, y, z, 1, |vs_n|², 0, 0, 0. -/
theorem slabS (b : Fin 4) (r : Fin 8) (n : Fin 16384) :
    V m c main_v7 (ix3 b r n) = Cert.KSpec.augS (argsAt m c) b r n := by
  refine (congrFun (v7_eq m c) (ix3 b r n)).trans ?_
  rw [slabSOf_at]
  rfl

/-- The graph slab at (b, r, m): rows −2x', −2y', −2z', |vg_m|², 1, 0, 0, 0. -/
theorem slabG (b : Fin 4) (r : Fin 8) (mm : Fin 2048) :
    V m c main_v17 (ix3 b r mm) = Cert.KSpec.augG (argsAt m c) Cert.ArgsOf.consts b r mm := by
  refine (congrFun (v17_eq m c) (ix3 b r mm)).trans ?_
  rw [slabGOf_at]
  rfl

end Cert.KernelIdeal.Slabs

end
-- ==== Proof.AlgebraicOf.lean ====
/-
  The two idealized programs, run from memories that agree on the twelve arguments, end with equal results.

  The kernel's run ends with its result array at the kernel's arrangement of the layer, index by index, and with its
  arguments as launched.  The reference's run ends with its result at the composed term of its operations, which, read
  at an index, is the reference's arrangement of the same layer.  The memories agree on the arguments, so both
  arrangements are of the same twelve arrays; under the precondition every entry of those arrays is a real number, and
  on real entries the two arrangements are equal at every index.
-/
import proofs.«180177_j738734374947_2_alg».proof.Defs
import proofs.«180177_j738734374947_2_alg».proof.Proof.Gen.KernelIdeal
import proofs.«180177_j738734374947_2_alg».proof.Proof.Gen.ReferenceIdeal
import proofs.«180177_j738734374947_2_alg».proof.Proof.Gen.Pre_finite_inputs
import proofs.«180177_j738734374947_2_alg».proof.Proof.RefValue
import proofs.«180177_j738734374947_2_alg».proof.Proof.Finite
import proofs.«180177_j738734374947_2_alg».proof.Proof.AlgebraConsts
import proofs.«180177_j738734374947_2_alg».proof.Proof.KI.Slabs

set_option maxRecDepth 16384

noncomputable section

namespace Cert.Proof.Algebraic

open Idealize.ShloMosaic Idealize.ShloMosaic.TcCoe Idealize.ShloMosaic.ValueIdx Idealize.SL.Sem

/-- On arrays that pass the precondition, the reference's result at every index is the kernel's arrangement of the
    same arrays: the reference's arrangement there, and the two agree on real entries. -/
theorem ref_eq_spec
    (x0 : (⟨Cert.ReferenceIdeal.S4x16384x128, .f32⟩ : BufTy).Contents (Elt Ideal))
    (x1 : (⟨Cert.ReferenceIdeal.S4x2048x128, .f32⟩ : BufTy).Contents (Elt Ideal))
    (x2 : (⟨Cert.ReferenceIdeal.S4x16384x3, .f32⟩ : BufTy).Contents (Elt Ideal))
    (x3 : (⟨Cert.ReferenceIdeal.S4x2048x3, .f32⟩ : BufTy).Contents (Elt Ideal))
    (x4 : (⟨Cert.ReferenceIdeal.S128x128, .f32⟩ : BufTy).Contents (Elt Ideal))
    (x5 : (⟨Cert.ReferenceIdeal.S128, .f32⟩ : BufTy).Contents (Elt Ideal))
    (x6 : (⟨Cert.ReferenceIdeal.S128x128, .f32⟩ : BufTy).Contents (Elt Ideal))
    (x7 : (⟨Cert.ReferenceIdeal.S128, .f32⟩ : BufTy).Contents (Elt Ideal))
    (x8 : (⟨Cert.ReferenceIdeal.S256x128, .f32⟩ : BufTy).Contents (Elt Ideal))
    (x9 : (⟨Cert.ReferenceIdeal.S128, .f32⟩ : BufTy).Contents (Elt Ideal))
    (x10 : (⟨Cert.ReferenceIdeal.S256x128, .f32⟩ : BufTy).Contents (Elt Ideal))
    (x11 : (⟨Cert.ReferenceIdeal.S128, .f32⟩ : BufTy).Contents (Elt Ideal))
    (hx : Cert.Pre_finite_inputs.fn (F := Ideal) x0 x1 x2 x3 x4 x5 x6 x7 x8 x9 x10 x11 = fun _ => 1#1) (j : Cert.ReferenceIdeal.S4x18432x128.Idx) :
    Cert.ReferenceIdeal.Read.val_main_v53 (F := Ideal) x0 x1 x2 x3 x4 x5 x6 x7 x8 x9 x10 x11 j
      = Cert.KSpec.out (Cert.ArgsOf.argsOf x0 x1 x2 x3 x4 x5 x6 x7 x8 x9 x10 x11) Cert.ArgsOf.consts (j 0) (j 1) (j 2) := by
  obtain ⟨b, r, e, rfl⟩ : ∃ (b : Fin 4) (r : Fin 18432) (e : Fin 128), j = ix3 b r e := ⟨j 0, j 1, j 2, eq_ix3 j⟩
  rw [Cert.ReferenceIdeal.RefValue.ref_result]
  exact (Cert.Algebra.out_eq _ (Cert.Finite.real_of_pre x0 x1 x2 x3 x4 x5 x6 x7 x8 x9 x10 x11 hx) b r e).symm

/-- The equality of the two results, from a run of the kernel that ends with its result array at the kernel's
    arrangement of the launch's arrays and with the arguments unchanged. -/
theorem algebraic_of
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v18)
          = (fun j : Cert.KernelIdeal.S4x18432x128.Idx => Cert.KSpec.out (Cert.KernelIdeal.Slabs.argsAt m c) Cert.ArgsOf.consts (j 0) (j 1) (j 2))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))) :
    Cert.algebraic_KernelIdeal_ReferenceIdeal := by
  intro m ρ m' ρ' hpre hagree
  refine ⟨fun c => fun j : Cert.KernelIdeal.S4x18432x128.Idx => Cert.KSpec.out (Cert.KernelIdeal.Slabs.argsAt m c) Cert.ArgsOf.consts (j 0) (j 1) (j 2),
    hrun m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v53_eq]
  obtain ⟨h0, h1, h2, h3, h4, h5, h6, h7, h8, h9, h10, h11⟩ := hagree c
  rw [h0, h1, h2, h3, h4, h5, h6, h7, h8, h9, h10, h11]
  exact funext fun j => ref_eq_spec _ _ _ _ _ _ _ _ _ _ _ _ (hpre c) j

end Cert.Proof.Algebraic

end
-- ==== Proof.KI.Pieces.lean ====
/-
  What each point's run stores, as the body's arithmetic of what it was handed.

  Every store of the body covers its whole buffer, so a buffer's contents after a point are the LAST payload stored into
  it, and every load reads a whole buffer (or, at a copy point, one 512-row slice of the finished graph rows).
  With S, W, R the tile's pre-layer output, weights and row reciprocals (functions of the point's input blocks):
    first point:   pre-layer scratch  P = graph pre-layer;   accumulator = 0 updated by (S, W, R);   output = post-layer of (P, S, W, R)
    middle point:  accumulator updated by (S, W, R);          output = post-layer of (pre, S, W, R)
    last tile:     as a middle point, then finished rows = graph post-layer of (pre, updated accumulator)
    copy point:    output = the slice of the finished rows at the point's row offset.
-/
import proofs.«180177_j738734374947_2_alg».proof.Proof.KI.Points
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A load of a whole scratch buffer reads what it holds. -/
theorem read_acc (h : (scAcc : Memref sig .tc .vmem S2048x128 .f32).IsWhole) (X : Vec F S2048x128 .f32) :
    View.read (Elt F) (View.whole cc0_scratch0) (h.unread X) = X := h.read_unread X
theorem read_pre (h : (scPre : Memref sig .tc .vmem S2048x128 .f32).IsWhole) (X : Vec F S2048x128 .f32) :
    View.read (Elt F) (View.whole cc0_scratch1) (h.unread X) = X := h.read_unread X
theorem read_new (h : (scNew : Memref sig .tc .vmem S2048x128 .f32).IsWhole) (X : Vec F S2048x128 .f32) :
    View.read (Elt F) (View.whole cc0_scratch2) (h.unread X) = X := h.read_unread X

/-- The tile's pre-layer output, weights and row reciprocals at point `t`. -/
abbrev tileS (c : Dev nD) (t : Fin cfg0.N) : Vec F S512x128 .f32 := k0_pay8 (iblk m c 0 t) (iblk m c 4 t) (iblk m c 5 t)
abbrev tileW (c : Dev nD) (t : Fin cfg0.N) : Vec F S512x2048 .f32 := k0_pay9 (iblk m c 1 t) (iblk m c 2 t)
abbrev tileR (c : Dev nD) (t : Fin cfg0.N) : Vec F S512x1 .f32 := k0_pay10 (iblk m c 1 t) (iblk m c 2 t)
/-- The graph pre-layer of the batch's graph block. -/
abbrev preOf (c : Dev nD) (t : Fin cfg0.N) : Vec F S2048x128 .f32 := k0_pay2 (iblk m c 3 t) (iblk m c 6 t) (iblk m c 7 t)

set_option maxHeartbeats 1600000 in
theorem pieceA_pre (c : Dev nD) (t : Fin cfg0.N) (hr : t.val % 36 = 0) :
    VPre.read (Elt F) (VPre.writes (Elt F) VPre.junk (rA m c t hr).2.2.1) = preOf m c t := by
  rw [View.read_writes_eq_canon _ _ _ (coverA_pre m c t hr)]
  unfold rA runA
  dsimp only
  sl_unfold_words
  rw [View.canon_unit_zero hz2]
  simp only [View.readAt_eq_ld, (hs3 t).read_unread, (hs6 t).read_unread, (hs7 t).read_unread, Memref.IsWhole.read_unread, View.ld_unit_zero (S := S1x512x128) hz3, View.ld_unit_zero (S := S1x8x512) hz3, View.ld_unit_zero (S := S1x8x2048) hz3, View.ld_unit_zero (S := S1x2048x128) hz3, View.ld_unit_zero (S := S128x128) hz2, View.ld_unit_zero (S := S256x128) hz2, View.ld_unit_zero (S := S2048x128) hz2, View.ld_unit_zero (S := S128) hz1, View.readCov_unit_zero (S := S2048x128) _ hz2, read_acc, read_pre, read_new]

set_option maxHeartbeats 1600000 in
theorem pieceA_acc (c : Dev nD) (t : Fin cfg0.N) (hr : t.val % 36 = 0) :
    VAcc.read (Elt F) (VAcc.writes (Elt F) VAcc.junk (rA m c t hr).2.1) = k0_pay4 (tileS m c t) (tileW m c t) (tileR m c t) (k0_pay1 (F := F)) := by
  rw [View.read_writes_eq_canon _ _ _ (coverA_acc m c t hr)]
  unfold rA runA
  dsimp only
  sl_unfold_words
  rw [View.canon_cons_unit_zero (S := S2048x128) hz2, View.readCov_unit_zero (S := S2048x128) _ hz2]
  simp only [View.readAt_eq_ld, (hs0 t).read_unread, (hs1 t).read_unread, (hs2 t).read_unread, (hs4 t).read_unread, (hs5 t).read_unread, Memref.IsWhole.read_unread, View.ld_unit_zero (S := S1x512x128) hz3, View.ld_unit_zero (S := S1x8x512) hz3, View.ld_unit_zero (S := S1x8x2048) hz3, View.ld_unit_zero (S := S1x2048x128) hz3, View.ld_unit_zero (S := S128x128) hz2, View.ld_unit_zero (S := S256x128) hz2, View.ld_unit_zero (S := S2048x128) hz2, View.ld_unit_zero (S := S128) hz1, View.readCov_unit_zero (S := S2048x128) _ hz2, read_acc, read_pre, read_new]

set_option maxHeartbeats 1600000 in
theorem pieceA_out (c : Dev nD) (t : Fin cfg0.N) (hr : t.val % 36 = 0) :
    VOut.read (Elt F) (VOut.writes (Elt F) VOut.junk (rA m c t hr).1) = k0_pay5 (preOf m c t) (tileS m c t) (tileW m c t) (tileR m c t) (iblk m c 8 t) (iblk m c 9 t) := by
  rw [View.read_writes_eq_canon _ _ _ (coverA_out m c t hr)]
  unfold rA runA
  dsimp only
  sl_unfold_words
  rw [View.canon_unit_zero hz3]
  simp only [View.readAt_eq_ld, (hs0 t).read_unread, (hs1 t).read_unread, (hs2 t).read_unread, (hs3 t).read_unread, (hs4 t).read_unread, (hs5 t).read_unread, (hs6 t).read_unread, (hs7 t).read_unread, (hs8 t).read_unread, (hs9 t).read_unread, Memref.IsWhole.read_unread, View.ld_unit_zero (S := S1x512x128) hz3, View.ld_unit_zero (S := S1x8x512) hz3, View.ld_unit_zero (S := S1x8x2048) hz3, View.ld_unit_zero (S := S1x2048x128) hz3, View.ld_unit_zero (S := S128x128) hz2, View.ld_unit_zero (S := S256x128) hz2, View.ld_unit_zero (S := S2048x128) hz2, View.ld_unit_zero (S := S128) hz1, View.readCov_unit_zero (S := S2048x128) _ hz2, read_acc, read_pre, read_new]

set_option maxHeartbeats 1600000 in
theorem pieceB_acc (c : Dev nD) (t : Fin cfg0.N) (h0 : ¬t.val % 36 = 0) (h1 : t.val % 36 < 31) (acc pre : Vec F S2048x128 .f32) :
    VAcc.read (Elt F) (VAcc.writes (Elt F) VAcc.junk (rB m c t h0 h1 acc pre).2.1) = k0_pay4 (tileS m c t) (tileW m c t) (tileR m c t) acc := by
  rw [View.read_writes_eq_canon _ _ _ (coverB_acc m c t h0 h1 acc pre)]
  unfold rB runB
  dsimp only
  sl_unfold_words
  rw [View.canon_unit_zero hz2]
  simp only [View.readAt_eq_ld, Memref.IsWhole.read_unread, View.ld_unit_zero (S := S1x512x128) hz3, View.ld_unit_zero (S := S1x8x512) hz3, View.ld_unit_zero (S := S1x8x2048) hz3, View.ld_unit_zero (S := S1x2048x128) hz3, View.ld_unit_zero (S := S128x128) hz2, View.ld_unit_zero (S := S256x128) hz2, View.ld_unit_zero (S := S2048x128) hz2, View.ld_unit_zero (S := S128) hz1, View.readCov_unit_zero (S := S2048x128) _ hz2, read_acc, read_pre, read_new]

set_option maxHeartbeats 1600000 in
theorem pieceB_out (c : Dev nD) (t : Fin cfg0.N) (h0 : ¬t.val % 36 = 0) (h1 : t.val % 36 < 31) (acc pre : Vec F S2048x128 .f32) :
    VOut.read (Elt F) (VOut.writes (Elt F) VOut.junk (rB m c t h0 h1 acc pre).1) = k0_pay5 pre (tileS m c t) (tileW m c t) (tileR m c t) (iblk m c 8 t) (iblk m c 9 t) := by
  rw [View.read_writes_eq_canon _ _ _ (coverB_out m c t h0 h1 acc pre)]
  unfold rB runB
  dsimp only
  sl_unfold_words
  rw [View.canon_unit_zero hz3]
  simp only [View.readAt_eq_ld, Memref.IsWhole.read_unread, View.ld_unit_zero (S := S1x512x128) hz3, View.ld_unit_zero (S := S1x8x512) hz3, View.ld_unit_zero (S := S1x8x2048) hz3, View.ld_unit_zero (S := S1x2048x128) hz3, View.ld_unit_zero (S := S128x128) hz2, View.ld_unit_zero (S := S256x128) hz2, View.ld_unit_zero (S := S2048x128) hz2, View.ld_unit_zero (S := S128) hz1, View.readCov_unit_zero (S := S2048x128) _ hz2, read_acc, read_pre, read_new]

set_option maxHeartbeats 1600000 in
theorem pieceC_acc (c : Dev nD) (t : Fin cfg0.N) (hr : t.val % 36 = 31) (acc pre : Vec F S2048x128 .f32) :
    VAcc.read (Elt F) (VAcc.writes (Elt F) VAcc.junk (rC m c t hr acc pre).2.1) = k0_pay4 (tileS m c t) (tileW m c t) (tileR m c t) acc := by
  rw [View.read_writes_eq_canon _ _ _ (coverC_acc m c t hr acc pre)]
  unfold rC runC
  dsimp only
  sl_unfold_words
  rw [View.canon_unit_zero hz2]
  simp only [View.readAt_eq_ld, Memref.IsWhole.read_unread, View.ld_unit_zero (S := S1x512x128) hz3, View.ld_unit_zero (S := S1x8x512) hz3, View.ld_unit_zero (S := S1x8x2048) hz3, View.ld_unit_zero (S := S1x2048x128) hz3, View.ld_unit_zero (S := S128x128) hz2, View.ld_unit_zero (S := S256x128) hz2, View.ld_unit_zero (S := S2048x128) hz2, View.ld_unit_zero (S := S128) hz1, View.readCov_unit_zero (S := S2048x128) _ hz2, read_acc, read_pre, read_new]

set_option maxHeartbeats 1600000 in
theorem pieceC_out (c : Dev nD) (t : Fin cfg0.N) (hr : t.val % 36 = 31) (acc pre : Vec F S2048x128 .f32) :
    VOut.read (Elt F) (VOut.writes (Elt F) VOut.junk (rC m c t hr acc pre).1) = k0_pay5 pre (tileS m c t) (tileW m c t) (tileR m c t) (iblk m c 8 t) (iblk m c 9 t) := by
  rw [View.read_writes_eq_canon _ _ _ (coverC_out m c t hr acc pre)]
  unfold rC runC
  dsimp only
  sl_unfold_words
  rw [View.canon_unit_zero hz3]
  simp only [View.readAt_eq_ld, Memref.IsWhole.read_unread, View.ld_unit_zero (S := S1x512x128) hz3, View.ld_unit_zero (S := S1x8x512) hz3, View.ld_unit_zero (S := S1x8x2048) hz3, View.ld_unit_zero (S := S1x2048x128) hz3, View.ld_unit_zero (S := S128x128) hz2, View.ld_unit_zero (S := S256x128) hz2, View.ld_unit_zero (S := S2048x128) hz2, View.ld_unit_zero (S := S128) hz1, View.readCov_unit_zero (S := S2048x128) _ hz2, read_acc, read_pre, read_new]

set_option maxHeartbeats 1600000 in
theorem pieceC_new (c : Dev nD) (t : Fin cfg0.N) (hr : t.val % 36 = 31) (acc pre : Vec F S2048x128 .f32) :
    VNew.read (Elt F) (VNew.writes (Elt F) VNew.junk (rC m c t hr acc pre).2.2.1) = k0_pay6 (iblk m c 10 t) (iblk m c 11 t) pre (k0_pay4 (tileS m c t) (tileW m c t) (tileR m c t) acc) := by
  rw [View.read_writes_eq_canon _ _ _ (coverC_new m c t hr acc pre)]
  unfold rC runC
  dsimp only
  sl_unfold_words
  rw [View.canon_unit_zero hz2]
  simp only [View.readAt_eq_ld, Memref.IsWhole.read_unread, View.ld_unit_zero (S := S1x512x128) hz3, View.ld_unit_zero (S := S1x8x512) hz3, View.ld_unit_zero (S := S1x8x2048) hz3, View.ld_unit_zero (S := S1x2048x128) hz3, View.ld_unit_zero (S := S128x128) hz2, View.ld_unit_zero (S := S256x128) hz2, View.ld_unit_zero (S := S2048x128) hz2, View.ld_unit_zero (S := S128) hz1, View.readCov_unit_zero (S := S2048x128) _ hz2, read_acc, read_pre, read_new]

/-- The 512 rows of the finished graph rows that a copy point reads: rows `off … off + 511`, `off` the point's row offset. -/
def sliceAt (i : grid0.Coords) (hG : condG i) (new : Vec F S2048x128 .f32) : Vec F S512x128 .f32 :=
  View.ld new (Rect.unit (s := S2048x128) (k0_off1 i) S512x128.size (k0_off1_inb i hG))

set_option maxHeartbeats 1600000 in
theorem pieceD_out (c : Dev nD) (t : Fin cfg0.N) (hr : 32 ≤ t.val % 36) (new : Vec F S2048x128 .f32) :
    VOut.read (Elt F) (VOut.writes (Elt F) VOut.junk (rD (F := F) c t hr new).1) = k0_pay7 (sliceAt (grid0.coords t) ((hcondG t).mpr hr) new) := by
  rw [View.read_writes_eq_canon _ _ _ (coverD_out (F := F) c t hr new)]
  unfold rD runD
  dsimp only
  sl_unfold_words
  rw [View.canon_unit_zero hz3]

  simp only [View.readAt_eq_ld, read_new]
  rfl

end Cert.KernelIdeal.Hand

end
-- ==== Proof.KI.Blocks.lean ====
/-
  Which part of its array each window's block is, at every grid point.

  The grid is 4 × 36; point t is batch b = t / 36 and step i = t mod 36.  A window's block at a point is the part of
  its array at offset (block index) × (block size) on every axis.  The block indices, in closed form over the grid:
  the surface features and the surface slab move with min(i, 31) along the surface points (512 at a time) and stay on
  the last surface tile during the four copying steps; the graph slab and the graph features are the batch's whole
  slices; the eight weight and bias arrays are whole at every point; the result's block (512 rows) is at row tile i of
  batch b, so the 4 × 36 blocks tile the result array.  Each entry of a block is therefore one named entry of the array.
-/
import proofs.«180177_j738734374947_2_alg».proof.Proof.KI.Base
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable {F : FTy → Type} [FloatOps F] [Named F]

variable (m : (ℓ : Loc nD τ sig) → Buf (Elt F) ℓ)

/-- The grid has 144 points. -/
theorem tlt (t : Fin cfg0.N) : t.val < 144 := by
  have hN : cfg0.N = 144 := N_0
  have := t.isLt
  omega

/-! ## The block indices in closed form, decided once over the grid -/

theorem idx0 : ∀ t : Fin cfg0.N, win0_0.index t 0 = t.val / 36 ∧ win0_0.index t 1 = min (t.val % 36) 31 ∧ win0_0.index t 2 = 0 :=
  (by decide +kernel : ∀ t : Fin grid0.N, win0_0.index t 0 = t.val / 36 ∧ win0_0.index t 1 = min (t.val % 36) 31 ∧ win0_0.index t 2 = 0)
theorem idx1 : ∀ t : Fin cfg0.N, win0_1.index t 0 = t.val / 36 ∧ win0_1.index t 1 = 0 ∧ win0_1.index t 2 = min (t.val % 36) 31 :=
  (by decide +kernel : ∀ t : Fin grid0.N, win0_1.index t 0 = t.val / 36 ∧ win0_1.index t 1 = 0 ∧ win0_1.index t 2 = min (t.val % 36) 31)
theorem idx2 : ∀ t : Fin cfg0.N, win0_2.index t 0 = t.val / 36 ∧ win0_2.index t 1 = 0 ∧ win0_2.index t 2 = 0 :=
  (by decide +kernel : ∀ t : Fin grid0.N, win0_2.index t 0 = t.val / 36 ∧ win0_2.index t 1 = 0 ∧ win0_2.index t 2 = 0)
theorem idx3 : ∀ t : Fin cfg0.N, win0_3.index t 0 = t.val / 36 ∧ win0_3.index t 1 = 0 ∧ win0_3.index t 2 = 0 :=
  (by decide +kernel : ∀ t : Fin grid0.N, win0_3.index t 0 = t.val / 36 ∧ win0_3.index t 1 = 0 ∧ win0_3.index t 2 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 :=
  (by decide +kernel : ∀ t : Fin grid0.N, win0_5.index t 0 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 :=
  (by decide +kernel : ∀ t : Fin grid0.N, win0_7.index t 0 = 0)
theorem idx8 : ∀ t : Fin cfg0.N, win0_8.index t 0 = 0 ∧ win0_8.index t 1 = 0 :=
  (by decide +kernel : ∀ t : Fin grid0.N, win0_8.index t 0 = 0 ∧ win0_8.index t 1 = 0)
theorem idx9 : ∀ t : Fin cfg0.N, win0_9.index t 0 = 0 :=
  (by decide +kernel : ∀ t : Fin grid0.N, win0_9.index t 0 = 0)
theorem idx10 : ∀ t : Fin cfg0.N, win0_10.index t 0 = 0 ∧ win0_10.index t 1 = 0 :=
  (by decide +kernel : ∀ t : Fin grid0.N, win0_10.index t 0 = 0 ∧ win0_10.index t 1 = 0)
theorem idx11 : ∀ t : Fin cfg0.N, win0_11.index t 0 = 0 :=
  (by decide +kernel : ∀ t : Fin grid0.N, win0_11.index t 0 = 0)
theorem idx12 : ∀ t : Fin cfg0.N, win0_12.index t 0 = t.val / 36 ∧ win0_12.index t 1 = t.val % 36 ∧ win0_12.index t 2 = 0 :=
  (by decide +kernel : ∀ t : Fin grid0.N, win0_12.index t 0 = t.val / 36 ∧ win0_12.index t 1 = t.val % 36 ∧ win0_12.index t 2 = 0)

/-! ## The input blocks read at an index -/

/-- The surface features' block: rows 512·min(i, 31) … of batch b. -/
theorem iblk0_apply (c : Dev nD) (t : Fin cfg0.N) (p : Fin 512) (d : Fin 128) :
    (iblk m c 0 t : Vec F S1x512x128 .f32) (ix3 0 p d)
      = (V m c main_arg0 : Vec F S4x16384x128 .f32)
          (ix3 (⟨t.val / 36, by have := tlt t; omega⟩ : Fin 4)
            (⟨512 * min (t.val % 36) 31 + p.val, by have := p.isLt; omega⟩ : Fin 16384) d) := by
  unfold iblk
  rw [View.read_apply]
  show V m c main_arg0 _ = V m c main_arg0 _
  refine congrArg _ (funext fun a => Fin.ext ?_)
  match a with
  | ⟨0, _⟩ => show win0_0.index t 0 * 1 + 1 * 0 = t.val / 36; rw [(idx0 t).1]; omega
  | ⟨1, _⟩ => show win0_0.index t 1 * 512 + 1 * p.val = 512 * min (t.val % 36) 31 + p.val; rw [(idx0 t).2.1]; omega
  | ⟨2, _⟩ => show win0_0.index t 2 * 128 + 1 * d.val = d.val; rw [(idx0 t).2.2]; omega

/-- The surface slab's block: columns 512·min(i, 31) … of batch b, all eight rows. -/
theorem iblk1_apply (c : Dev nD) (t : Fin cfg0.N) (r : Fin 8) (p : Fin 512) :
    (iblk m c 1 t : Vec F S1x8x512 .f32) (ix3 0 r p)
      = (V m c main_v7 : Vec F S4x8x16384 .f32)
          (ix3 (⟨t.val / 36, by have := tlt t; omega⟩ : Fin 4) r
            (⟨512 * min (t.val % 36) 31 + p.val, by have := p.isLt; omega⟩ : Fin 16384)) := by
  unfold iblk
  rw [View.read_apply]
  show V m c main_v7 _ = V m c main_v7 _
  refine congrArg _ (funext fun a => Fin.ext ?_)
  match a with
  | ⟨0, _⟩ => show win0_1.index t 0 * 1 + 1 * 0 = t.val / 36; rw [(idx1 t).1]; omega
  | ⟨1, _⟩ => show win0_1.index t 1 * 8 + 1 * r.val = r.val; rw [(idx1 t).2.1]; omega
  | ⟨2, _⟩ => show win0_1.index t 2 * 512 + 1 * p.val = 512 * min (t.val % 36) 31 + p.val; rw [(idx1 t).2.2]; omega

/-- The graph slab's block: batch b's whole slice. -/
theorem iblk2_apply (c : Dev nD) (t : Fin cfg0.N) (r : Fin 8) (q : Fin 2048) :
    (iblk m c 2 t : Vec F S1x8x2048 .f32) (ix3 0 r q)
      = (V m c main_v17 : Vec F S4x8x2048 .f32) (ix3 (⟨t.val / 36, by have := tlt t; omega⟩ : Fin 4) r q) := by
  unfold iblk
  rw [View.read_apply]
  show V m c main_v17 _ = V m c main_v17 _
  refine congrArg _ (funext fun a => Fin.ext ?_)
  match a with
  | ⟨0, _⟩ => show win0_2.index t 0 * 1 + 1 * 0 = t.val / 36; rw [(idx2 t).1]; omega
  | ⟨1, _⟩ => show win0_2.index t 1 * 8 + 1 * r.val = r.val; rw [(idx2 t).2.1]; omega
  | ⟨2, _⟩ => show win0_2.index t 2 * 2048 + 1 * q.val = q.val; rw [(idx2 t).2.2]; omega

/-- The graph features' block: batch b's whole slice. -/
theorem iblk3_apply (c : Dev nD) (t : Fin cfg0.N) (q : Fin 2048) (d : Fin 128) :
    (iblk m c 3 t : Vec F S1x2048x128 .f32) (ix3 0 q d)
      = (V m c main_arg1 : Vec F S4x2048x128 .f32) (ix3 (⟨t.val / 36, by have := tlt t; omega⟩ : Fin 4) q d) := by
  unfold iblk
  rw [View.read_apply]
  show V m c main_arg1 _ = V m c main_arg1 _
  refine congrArg _ (funext fun a => Fin.ext ?_)
  match a with
  | ⟨0, _⟩ => show win0_3.index t 0 * 1 + 1 * 0 = t.val / 36; rw [(idx3 t).1]; omega
  | ⟨1, _⟩ => show win0_3.index t 1 * 2048 + 1 * q.val = q.val; rw [(idx3 t).2.1]; omega
  | ⟨2, _⟩ => show win0_3.index t 2 * 128 + 1 * d.val = d.val; rw [(idx3 t).2.2]; omega

/-- Window 4's block is its whole array at every point. -/
theorem iblk4_eq (c : Dev nD) (t : Fin cfg0.N) : (iblk m c 4 t : Vec F S128x128 .f32) = V m c main_arg4 := by
  funext y
  unfold iblk
  rw [View.read_apply]
  show V m c main_arg4 _ = V m c main_arg4 y
  refine congrArg _ (funext fun a => Fin.ext ?_)
  match a with
  | ⟨0, _⟩ => show win0_4.index t 0 * 128 + 1 * (y 0).val = (y 0).val; rw [(idx4 t).1]; omega
  | ⟨1, _⟩ => show win0_4.index t 1 * 128 + 1 * (y 1).val = (y 1).val; rw [(idx4 t).2]; omega
/-- Window 5's block is its whole array at every point. -/
theorem iblk5_eq (c : Dev nD) (t : Fin cfg0.N) : (iblk m c 5 t : Vec F S128 .f32) = V m c main_arg5 := by
  funext y
  unfold iblk
  rw [View.read_apply]
  show V m c main_arg5 _ = V m c main_arg5 y
  refine congrArg _ (funext fun a => Fin.ext ?_)
  match a with
  | ⟨0, _⟩ => show win0_5.index t 0 * 128 + 1 * (y 0).val = (y 0).val; rw [idx5 t]; omega
/-- Window 6's block is its whole array at every point. -/
theorem iblk6_eq (c : Dev nD) (t : Fin cfg0.N) : (iblk m c 6 t : Vec F S128x128 .f32) = V m c main_arg6 := by
  funext y
  unfold iblk
  rw [View.read_apply]
  show V m c main_arg6 _ = V m c main_arg6 y
  refine congrArg _ (funext fun a => Fin.ext ?_)
  match a with
  | ⟨0, _⟩ => show win0_6.index t 0 * 128 + 1 * (y 0).val = (y 0).val; rw [(idx6 t).1]; omega
  | ⟨1, _⟩ => show win0_6.index t 1 * 128 + 1 * (y 1).val = (y 1).val; rw [(idx6 t).2]; omega
/-- Window 7's block is its whole array at every point. -/
theorem iblk7_eq (c : Dev nD) (t : Fin cfg0.N) : (iblk m c 7 t : Vec F S128 .f32) = V m c main_arg7 := by
  funext y
  unfold iblk
  rw [View.read_apply]
  show V m c main_arg7 _ = V m c main_arg7 y
  refine congrArg _ (funext fun a => Fin.ext ?_)
  match a with
  | ⟨0, _⟩ => show win0_7.index t 0 * 128 + 1 * (y 0).val = (y 0).val; rw [idx7 t]; omega
/-- Window 8's block is its whole array at every point. -/
theorem iblk8_eq (c : Dev nD) (t : Fin cfg0.N) : (iblk m c 8 t : Vec F S256x128 .f32) = V m c main_arg8 := by
  funext y
  unfold iblk
  rw [View.read_apply]
  show V m c main_arg8 _ = V m c main_arg8 y
  refine congrArg _ (funext fun a => Fin.ext ?_)
  match a with
  | ⟨0, _⟩ => show win0_8.index t 0 * 256 + 1 * (y 0).val = (y 0).val; rw [(idx8 t).1]; omega
  | ⟨1, _⟩ => show win0_8.index t 1 * 128 + 1 * (y 1).val = (y 1).val; rw [(idx8 t).2]; omega
/-- Window 9's block is its whole array at every point. -/
theorem iblk9_eq (c : Dev nD) (t : Fin cfg0.N) : (iblk m c 9 t : Vec F S128 .f32) = V m c main_arg9 := by
  funext y
  unfold iblk
  rw [View.read_apply]
  show V m c main_arg9 _ = V m c main_arg9 y
  refine congrArg _ (funext fun a => Fin.ext ?_)
  match a with
  | ⟨0, _⟩ => show win0_9.index t 0 * 128 + 1 * (y 0).val = (y 0).val; rw [idx9 t]; omega
/-- Window 10's block is its whole array at every point. -/
theorem iblk10_eq (c : Dev nD) (t : Fin cfg0.N) : (iblk m c 10 t : Vec F S256x128 .f32) = V m c main_arg10 := by
  funext y
  unfold iblk
  rw [View.read_apply]
  show V m c main_arg10 _ = V m c main_arg10 y
  refine congrArg _ (funext fun a => Fin.ext ?_)
  match a with
  | ⟨0, _⟩ => show win0_10.index t 0 * 256 + 1 * (y 0).val = (y 0).val; rw [(idx10 t).1]; omega
  | ⟨1, _⟩ => show win0_10.index t 1 * 128 + 1 * (y 1).val = (y 1).val; rw [(idx10 t).2]; omega
/-- Window 11's block is its whole array at every point. -/
theorem iblk11_eq (c : Dev nD) (t : Fin cfg0.N) : (iblk m c 11 t : Vec F S128 .f32) = V m c main_arg11 := by
  funext y
  unfold iblk
  rw [View.read_apply]
  show V m c main_arg11 _ = V m c main_arg11 y
  refine congrArg _ (funext fun a => Fin.ext ?_)
  match a with
  | ⟨0, _⟩ => show win0_11.index t 0 * 128 + 1 * (y 0).val = (y 0).val; rw [idx11 t]; omega

/-! ## The result's blocks -/

/-- The result's block at a point, of any contents G of the result array: rows 512·i … of batch b. -/
theorem oblk12_apply (t : Fin cfg0.N) (G : Vec F S4x18432x128 .f32) (p : Fin 512) (e : Fin 128) :
    (((cfg0.win 12).blk t).view.read (Elt F) G : Vec F S1x512x128 .f32) (ix3 0 p e)
      = G (ix3 (⟨t.val / 36, by have := tlt t; omega⟩ : Fin 4)
            (⟨512 * (t.val % 36) + p.val, by have := p.isLt; omega⟩ : Fin 18432) e) := by
  rw [View.read_apply]
  show G _ = G _
  refine congrArg _ (funext fun a => Fin.ext ?_)
  match a with
  | ⟨0, _⟩ => show win0_12.index t 0 * 1 + 1 * 0 = t.val / 36; rw [(idx12 t).1]; omega
  | ⟨1, _⟩ => show win0_12.index t 1 * 512 + 1 * p.val = 512 * (t.val % 36) + p.val; rw [(idx12 t).2.1]; omega
  | ⟨2, _⟩ => show win0_12.index t 2 * 128 + 1 * e.val = e.val; rw [(idx12 t).2.2]; omega

/-- Every entry of the result array lies in the block of a point that writes its block back: entry (b, r, e) in the
    block of point 36·b + r / 512. -/
theorem cover12 (j : S4x18432x128.Idx) :
    ∃ t : Fin cfg0.N, (cfg0.win 12).flush t = true ∧ j ∈ ((cfg0.win 12).blk t).view.set := by
  have h0 : (j 0 : Nat) < 4 := (j 0).isLt
  have h1 : (j 1 : Nat) < 18432 := (j 1).isLt
  have h2 : (j 2 : Nat) < 128 := (j 2).isLt
  have hN : cfg0.N = 144 := N_0
  obtain ⟨t, ht⟩ : ∃ t : Fin cfg0.N, t.val = 36 * (j 0).val + (j 1).val / 512 :=
    ⟨⟨36 * (j 0).val + (j 1).val / 512, by rw [hN]; omega⟩, rfl⟩
  refine ⟨t, flush0_12 t, ?_⟩
  show j ∈ ((View.whole main_v18).slice (win0_12.rect t)).set
  rw [View.set_slice_whole, Rect.mem_set_unit]
  intro a
  match a with
  | ⟨0, _⟩ =>
    show win0_12.index t 0 * 1 ≤ (j 0 : Nat) ∧ (j 0 : Nat) < win0_12.index t 0 * 1 + 1
    rw [(idx12 t).1]; omega
  | ⟨1, _⟩ =>
    show win0_12.index t 1 * 512 ≤ (j 1 : Nat) ∧ (j 1 : Nat) < win0_12.index t 1 * 512 + 512
    rw [(idx12 t).2.1]; omega
  | ⟨2, _⟩ =>
    show win0_12.index t 2 * 128 ≤ (j 2 : Nat) ∧ (j 2 : Nat) < win0_12.index t 2 * 128 + 128
    rw [(idx12 t).2.2]; omega

end Cert.KernelIdeal.Blocks

end
-- ==== Proof.LibMatDot.lean ====
/-
  A matrix product of two rank-2 operands, `x · y`, read at an entry.

  For dimension numbers `d` over operands of shapes [M, K] and [K, N] and a result of shape [M, N] whose one
  contracted axis is the second of the left operand and the first of the right — given as the four coordinate
  facts of `d`'s operand index maps — a `tpu.matmul` into the zero accumulator at the ideal instance is, at
  entry (p, q),

      Σ_{k < K} lhs[p, k] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `x · y` into the zero accumulator, at entry (p, q): the sum over the shared axis of the products of row `p` of
    the left operand and column `q` of the right. The hypotheses say where the record's operand index maps read:
    the left operand at (row of the entry, contraction position), the right at (contraction position, column of
    the entry). -/
theorem mat_dot_zero {M N K : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (j 0).val)
    (hl1 : ∀ (j : (⟨2, ![M, N]⟩ : Shape).Idx) (c : d.contr.Idx), (d.lhsIdx j c 1).val = (c ⟨0, by omega⟩).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.LibMatTDot.lean ====
/-
  A matrix product with the LEFT operand transposed, `xᵀ · y`, read at an entry.

  For dimension numbers `d` over operands of shapes [K, M] and [K, N] and a result of shape [M, N] whose one
  contracted axis is the FIRST of both operands — given as the four coordinate facts of `d`'s operand index
  maps — a `tpu.matmul` into the zero accumulator at the ideal instance is, at entry (p, q),

      Σ_{k < K} lhs[k, p] · rhs[k, q].

  The contraction's index type is re-indexed to `Fin K` through `ValueIdx.contrEquiv1`.
-/
import Idealize.ShloMosaic.PureOps.Ideal.Laws
import Idealize.ShloMosaic.Lib.ValueIdx

noncomputable section

open scoped BigOperators

namespace Idealize.ShloMosaic.ValueIdx

open Idealize.ShloMosaic

/-- `xᵀ · y` into the zero accumulator, at entry (p, q): the sum over the shared FIRST axis of the products of
    column `p` of the left operand and column `q` of the right. The hypotheses say where the record's operand
    index maps read: the left operand at (contraction position, row of the entry), the right at (contraction
    position, column of the entry). -/
theorem mat_tdot_zero {M N K : Nat} {φ₁ φ₂ : FTy}
    (d : DotDims ⟨2, ![K, M]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (c : d.contr.Idx), (d.lhsIdx j c 0).val = (c ⟨0, by omega⟩).val)
    (hl1 : ∀ (j : (⟨2, ![M, N]⟩ : Shape).Idx) (c : d.contr.Idx), (d.lhsIdx j c 1).val = (j 0).val)
    (hr0 : ∀ (j : (⟨2, ![M, N]⟩ : Shape).Idx) (c : d.contr.Idx), (d.rhsIdx j c 0).val = (c ⟨0, by omega⟩).val)
    (hr1 : ∀ (j : (⟨2, ![M, N]⟩ : Shape).Idx) (c : d.contr.Idx), (d.rhsIdx j c 1).val = (j 1).val)
    (lhs : FVec Ideal ⟨2, ![K, M]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 k p) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 k p := funext fun a => Fin.ext (by
    match a with
    | ⟨0, _⟩ => exact (hl0 _ _).trans hk
    | ⟨1, _⟩ => exact hl1 _ _)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Idealize.ShloMosaic.ValueIdx

end
-- ==== Proof.KI.PayDots.lean ====
/-
  The seven matrix products of the kernel's body, each read at one entry of its result.

  Five are plain products `x · y` of a [M, K] by a [K, N] operand (the two pre-layers, the message to the surface,
  the two post-layers); two contract the FIRST axis of both operands, `xᵀ · y` of a [K, M] by a [K, N] operand
  (the squared distance from the two 8-row slabs, and the graph accumulator's update from a tile of weights).
  Every one accumulates into the zero splat, so its entry (p, q) is the bare sum over the shared axis.
-/
import proofs.«180177_j738734374947_2_alg».proof.Proof.Gen.KernelIdeal.Skeleton
import proofs.«180177_j738734374947_2_alg».proof.Proof.LibMatDot
import proofs.«180177_j738734374947_2_alg».proof.Proof.LibMatTDot
import Idealize.ShloMosaic.Lib.ValueIdx
import Idealize.ShloMosaic.PureOps.Ideal.Laws

noncomputable section

open scoped BigOperators

namespace Cert.KernelIdeal.Pay

open Cert.KernelIdeal Cert.KernelIdeal.Gen Idealize.ShloMosaic Idealize.ShloMosaic.ValueIdx

variable {φ₁ φ₂ : FTy}

/-- The surface pre-layer's product, a 512-row tile by the 128 × 128 weights: entry (p, e) is Σ_d lhs[p, d] · rhs[d, e]. -/
theorem dot_preS_apply (prec : Option ContractPrecision) (lhs : FVec Ideal S512x128 φ₁) (rhs : FVec Ideal S128x128 φ₂)
    (p : Fin 512) (e : Fin 128) :
    matmul dot_S512x128_S128x128_S512x128_1_0_0_1_n_n prec lhs rhs (constant (F := Ideal) S512x128 .f32 0x00000000#32) (ix2 p e)
      = ∑ d : Fin 128, lhs (ix2 p d) * rhs (ix2 d e) :=
  mat_dot_zero dot_S512x128_S128x128_S512x128_1_0_0_1_n_n prec rfl rfl
    (fun j c => by
      unfold DotDims.lhsIdx
      rw [dif_neg (show ¬(0 : Fin S512x128.rank) ∈ dot_S512x128_S128x128_S512x128_1_0_0_1_n_n.lhsBatch by decide),
        dif_pos (show (0 : Fin S512x128.rank) ∈ dot_S512x128_S128x128_S512x128_1_0_0_1_n_n.lhsNonContracting by decide)]
      rfl)
    (fun j c => dot_S512x128_S128x128_S512x128_1_0_0_1_n_n.lhsIdx_val_of_single rfl j c)
    (fun j c => dot_S512x128_S128x128_S512x128_1_0_0_1_n_n.rhsIdx_val_of_single rfl j c)
    (fun j c => by
      unfold DotDims.rhsIdx
      rw [dif_neg (show ¬(1 : Fin S128x128.rank) ∈ dot_S512x128_S128x128_S512x128_1_0_0_1_n_n.rhsBatch by decide),
        dif_pos (show (1 : Fin S128x128.rank) ∈ dot_S512x128_S128x128_S512x128_1_0_0_1_n_n.rhsNonContracting by decide)]
      rfl)
    lhs rhs p e

/-- The graph pre-layer's product, the 2048 graph rows by the 128 × 128 weights: entry (m, e) is Σ_d lhs[m, d] · rhs[d, e]. -/
theorem dot_preG_apply (prec : Option ContractPrecision) (lhs : FVec Ideal S2048x128 φ₁) (rhs : FVec Ideal S128x128 φ₂)
    (m : Fin 2048) (e : Fin 128) :
    matmul dot_S2048x128_S128x128_S2048x128_1_0_0_1_n_n prec lhs rhs (constant (F := Ideal) S2048x128 .f32 0x00000000#32) (ix2 m e)
      = ∑ d : Fin 128, lhs (ix2 m d) * rhs (ix2 d e) :=
  mat_dot_zero dot_S2048x128_S128x128_S2048x128_1_0_0_1_n_n prec rfl rfl
    (fun j c => by
      unfold DotDims.lhsIdx
      rw [dif_neg (show ¬(0 : Fin S2048x128.rank) ∈ dot_S2048x128_S128x128_S2048x128_1_0_0_1_n_n.lhsBatch by decide),
        dif_pos (show (0 : Fin S2048x128.rank) ∈ dot_S2048x128_S128x128_S2048x128_1_0_0_1_n_n.lhsNonContracting by decide)]
      rfl)
    (fun j c => dot_S2048x128_S128x128_S2048x128_1_0_0_1_n_n.lhsIdx_val_of_single rfl j c)
    (fun j c => dot_S2048x128_S128x128_S2048x128_1_0_0_1_n_n.rhsIdx_val_of_single rfl j c)
    (fun j c => by
      unfold DotDims.rhsIdx
      rw [dif_neg (show ¬(1 : Fin S128x128.rank) ∈ dot_S2048x128_S128x128_S2048x128_1_0_0_1_n_n.rhsBatch by decide),
        dif_pos (show (1 : Fin S128x128.rank) ∈ dot_S2048x128_S128x128_S2048x128_1_0_0_1_n_n.rhsNonContracting by decide)]
      rfl)
    lhs rhs m e

/-- The message to the surface, a tile of weights by the 2048 graph rows: entry (p, e) is Σ_q lhs[p, q] · rhs[q, e]. -/
theorem dot_msgS_apply (prec : Option ContractPrecision) (lhs : FVec Ideal S512x2048 φ₁) (rhs : FVec Ideal S2048x128 φ₂)
    (p : Fin 512) (e : Fin 128) :
    matmul dot_S512x2048_S2048x128_S512x128_1_0_0_1_n_n prec lhs rhs (constant (F := Ideal) S512x128 .f32 0x00000000#32) (ix2 p e)
      = ∑ q : Fin 2048, lhs (ix2 p q) * rhs (ix2 q e) :=
  mat_dot_zero dot_S512x2048_S2048x128_S512x128_1_0_0_1_n_n prec rfl rfl
    (fun j c => by
      unfold DotDims.lhsIdx
      rw [dif_neg (show ¬(0 : Fin S512x2048.rank) ∈ dot_S512x2048_S2048x128_S512x128_1_0_0_1_n_n.lhsBatch by decide),
        dif_pos (show (0 : Fin S512x2048.rank) ∈ dot_S512x2048_S2048x128_S512x128_1_0_0_1_n_n.lhsNonContracting by decide)]
      rfl)
    (fun j c => dot_S512x2048_S2048x128_S512x128_1_0_0_1_n_n.lhsIdx_val_of_single rfl j c)
    (fun j c => dot_S512x2048_S2048x128_S512x128_1_0_0_1_n_n.rhsIdx_val_of_single rfl j c)
    (fun j c => by
      unfold DotDims.rhsIdx
      rw [dif_neg (show ¬(1 : Fin S2048x128.rank) ∈ dot_S512x2048_S2048x128_S512x128_1_0_0_1_n_n.rhsBatch by decide),
        dif_pos (show (1 : Fin S2048x128.rank) ∈ dot_S512x2048_S2048x128_S512x128_1_0_0_1_n_n.rhsNonContracting by decide)]
      rfl)
    lhs rhs p e

/-- The surface post-layer's product, a tile of 256-wide rows by the 256 × 128 weights: entry (p, e) is Σ_k lhs[p, k] · rhs[k, e]. -/
theorem dot_postS_apply (prec : Option ContractPrecision) (lhs : FVec Ideal S512x256 φ₁) (rhs : FVec Ideal S256x128 φ₂)
    (p : Fin 512) (e : Fin 128) :
    matmul dot_S512x256_S256x128_S512x128_1_0_0_1_n_n prec lhs rhs (constant (F := Ideal) S512x128 .f32 0x00000000#32) (ix2 p e)
      = ∑ k : Fin 256, lhs (ix2 p k) * rhs (ix2 k e) :=
  mat_dot_zero dot_S512x256_S256x128_S512x128_1_0_0_1_n_n prec rfl rfl
    (fun j c => by
      unfold DotDims.lhsIdx
      rw [dif_neg (show ¬(0 : Fin S512x256.rank) ∈ dot_S512x256_S256x128_S512x128_1_0_0_1_n_n.lhsBatch by decide),
        dif_pos (show (0 : Fin S512x256.rank) ∈ dot_S512x256_S256x128_S512x128_1_0_0_1_n_n.lhsNonContracting by decide)]
      rfl)
    (fun j c => dot_S512x256_S256x128_S512x128_1_0_0_1_n_n.lhsIdx_val_of_single rfl j c)
    (fun j c => dot_S512x256_S256x128_S512x128_1_0_0_1_n_n.rhsIdx_val_of_single rfl j c)
    (fun j c => by
      unfold DotDims.rhsIdx
      rw [dif_neg (show ¬(1 : Fin S256x128.rank) ∈ dot_S512x256_S256x128_S512x128_1_0_0_1_n_n.rhsBatch by decide),
        dif_pos (show (1 : Fin S256x128.rank) ∈ dot_S512x256_S256x128_S512x128_1_0_0_1_n_n.rhsNonContracting by decide)]
      rfl)
    lhs rhs p e

/-- The graph post-layer's product, the 2048 rows of width 256 by the 256 × 128 weights: entry (m, e) is Σ_k lhs[m, k] · rhs[k, e]. -/
theorem dot_postG_apply (prec : Option ContractPrecision) (lhs : FVec Ideal S2048x256 φ₁) (rhs : FVec Ideal S256x128 φ₂)
    (m : Fin 2048) (e : Fin 128) :
    matmul dot_S2048x256_S256x128_S2048x128_1_0_0_1_n_n prec lhs rhs (constant (F := Ideal) S2048x128 .f32 0x00000000#32) (ix2 m e)
      = ∑ k : Fin 256, lhs (ix2 m k) * rhs (ix2 k e) :=
  mat_dot_zero dot_S2048x256_S256x128_S2048x128_1_0_0_1_n_n prec rfl rfl
    (fun j c => by
      unfold DotDims.lhsIdx
      rw [dif_neg (show ¬(0 : Fin S2048x256.rank) ∈ dot_S2048x256_S256x128_S2048x128_1_0_0_1_n_n.lhsBatch by decide),
        dif_pos (show (0 : Fin S2048x256.rank) ∈ dot_S2048x256_S256x128_S2048x128_1_0_0_1_n_n.lhsNonContracting by decide)]
      rfl)
    (fun j c => dot_S2048x256_S256x128_S2048x128_1_0_0_1_n_n.lhsIdx_val_of_single rfl j c)
    (fun j c => dot_S2048x256_S256x128_S2048x128_1_0_0_1_n_n.rhsIdx_val_of_single rfl j c)
    (fun j c => by
      unfold DotDims.rhsIdx
      rw [dif_neg (show ¬(1 : Fin S256x128.rank) ∈ dot_S2048x256_S256x128_S2048x128_1_0_0_1_n_n.rhsBatch by decide),
        dif_pos (show (1 : Fin S256x128.rank) ∈ dot_S2048x256_S256x128_S2048x128_1_0_0_1_n_n.rhsNonContracting by decide)]
      rfl)
    lhs rhs m e

/-- The squared distance's product, the two 8-row slabs contracted over their rows: entry (p, q) is Σ_r lhs[r, p] · rhs[r, q]. -/
theorem dot_dist_apply (prec : Option ContractPrecision) (lhs : FVec Ideal S8x512 φ₁) (rhs : FVec Ideal S8x2048 φ₂)
    (p : Fin 512) (q : Fin 2048) :
    matmul dot_S8x512_S8x2048_S512x2048_0_0_1_1_n_n prec lhs rhs (constant (F := Ideal) S512x2048 .f32 0x00000000#32) (ix2 p q)
      = ∑ r : Fin 8, lhs (ix2 r p) * rhs (ix2 r q) :=
  mat_tdot_zero dot_S8x512_S8x2048_S512x2048_0_0_1_1_n_n prec rfl rfl
    (fun j c => dot_S8x512_S8x2048_S512x2048_0_0_1_1_n_n.lhsIdx_val_of_single rfl j c)
    (fun j c => by
      unfold DotDims.lhsIdx
      rw [dif_neg (show ¬(1 : Fin S8x512.rank) ∈ dot_S8x512_S8x2048_S512x2048_0_0_1_1_n_n.lhsBatch by decide),
        dif_pos (show (1 : Fin S8x512.rank) ∈ dot_S8x512_S8x2048_S512x2048_0_0_1_1_n_n.lhsNonContracting by decide)]
      rfl)
    (fun j c => dot_S8x512_S8x2048_S512x2048_0_0_1_1_n_n.rhsIdx_val_of_single rfl j c)
    (fun j c => by
      unfold DotDims.rhsIdx
      rw [dif_neg (show ¬(1 : Fin S8x2048.rank) ∈ dot_S8x512_S8x2048_S512x2048_0_0_1_1_n_n.rhsBatch by decide),
        dif_pos (show (1 : Fin S8x2048.rank) ∈ dot_S8x512_S8x2048_S512x2048_0_0_1_1_n_n.rhsNonContracting by decide)]
      rfl)
    lhs rhs p q

/-- The graph accumulator's update, a tile of weights against the tile's scaled features, contracted over the tile's
    512 rows: entry (m, e) is Σ_p lhs[p, m] · rhs[p, e]. -/
theorem dot_acc_apply (prec : Option ContractPrecision) (lhs : FVec Ideal S512x2048 φ₁) (rhs : FVec Ideal S512x128 φ₂)
    (m : Fin 2048) (e : Fin 128) :
    matmul dot_S512x2048_S512x128_S2048x128_0_0_1_1_n_n prec lhs rhs (constant (F := Ideal) S2048x128 .f32 0x00000000#32) (ix2 m e)
      = ∑ p : Fin 512, lhs (ix2 p m) * rhs (ix2 p e) :=
  mat_tdot_zero dot_S512x2048_S512x128_S2048x128_0_0_1_1_n_n prec rfl rfl
    (fun j c => dot_S512x2048_S512x128_S2048x128_0_0_1_1_n_n.lhsIdx_val_of_single rfl j c)
    (fun j c => by
      unfold DotDims.lhsIdx
      rw [dif_neg (show ¬(1 : Fin S512x2048.rank) ∈ dot_S512x2048_S512x128_S2048x128_0_0_1_1_n_n.lhsBatch by decide),
        dif_pos (show (1 : Fin S512x2048.rank) ∈ dot_S512x2048_S512x128_S2048x128_0_0_1_1_n_n.lhsNonContracting by decide)]
      rfl)
    (fun j c => dot_S512x2048_S512x128_S2048x128_0_0_1_1_n_n.rhsIdx_val_of_single rfl j c)
    (fun j c => by
      unfold DotDims.rhsIdx
      rw [dif_neg (show ¬(1 : Fin S512x128.rank) ∈ dot_S512x2048_S512x128_S2048x128_0_0_1_1_n_n.rhsBatch by decide),
        dif_pos (show (1 : Fin S512x128.rank) ∈ dot_S512x2048_S512x128_S2048x128_0_0_1_1_n_n.rhsNonContracting by decide)]
      rfl)
    lhs rhs m e

end Cert.KernelIdeal.Pay

end
-- ==== Proof.KI.PayPre.lean ====
/-
  The two pre-layers of the kernel's body read at one entry: a linear map, a bias and a clamp at zero.

  The surface tile arrives as a [1, 512, 128] block whose leading unit axis is dropped; the graph rows as a
  [1, 2048, 128] block likewise. Each operand is narrowed to a shorter float format before the product, which on
  the extended reals changes nothing; the product accumulates into the zero splat, so entry (p, e) of
  the product is Σ_d x[p, d] · W[d, e]; the bias is a length-128 vector viewed as one row and repeated down the
  rows; the clamp is the maximum with the zero word.
-/
import proofs.«180177_j738734374947_2_alg».proof.Proof.KI.PayDots
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The surface pre-layer of a 512-row tile at (p, e): max(Σ_d x[0, p, d] · W[d, e] + b[e], 0). -/
theorem pay8_apply (x0 : Vec Ideal S1x512x128 .f32) (x4 : Vec Ideal S128x128 .f32) (x5 : Vec Ideal S128 .f32)
    (p : Fin 512) (e : Fin 128) :
    k0_pay8 (F := Ideal) x0 x4 x5 (ix2 p e)
      = max ((∑ d : Fin 128, x0 (ix3 0 p d) * x4 (ix2 d e)) + x5 (ix1 e)) 0 := by
  unfold k0_pay8
  rw [maximumf_apply, addf_apply, broadcast_apply, dot_preS_apply, broadcastTo_1b_ab_apply, shapeCast_a_1a_apply]
  simp only [truncf_apply, shapeCast_1ab_ab_apply, Ideal.ofBits_def, Ideal.ofBits_zero_f32]

/-- The graph pre-layer at (m, e): max(Σ_d x[0, m, d] · W[d, e] + b[e], 0). -/
theorem pay2_apply (x3 : Vec Ideal S1x2048x128 .f32) (x6 : Vec Ideal S128x128 .f32) (x7 : Vec Ideal S128 .f32)
    (m : Fin 2048) (e : Fin 128) :
    k0_pay2 (F := Ideal) x3 x6 x7 (ix2 m e)
      = max ((∑ d : Fin 128, x3 (ix3 0 m d) * x6 (ix2 d e)) + x7 (ix1 e)) 0 := by
  unfold k0_pay2
  rw [shapeCast_self, maximumf_apply, addf_apply, broadcast_apply, dot_preG_apply, broadcastTo_1b_ab_apply,
    shapeCast_a_1a_apply]
  simp only [truncf_apply, shapeCast_1ab_ab_apply, Ideal.ofBits_def, Ideal.ofBits_zero_f32]

end Cert.KernelIdeal.Pay

end
-- ==== Proof.LibPayRead.lean ====
/-
  Small readings shared by the payload lemmas: a comparison-and-select on the extended reals as an `if`, the
  word of 1.0, and two arrays laid side by side along the columns read at a column.
-/
import Idealize.ShloMosaic.Lib.ValueIdx
import Idealize.ShloMosaic.Lib.Pipeline.Value
import Idealize.ShloMosaic.PureOps.Ideal.Laws
import Idealize.ShloMosaic.PureOps.IdealRules

noncomputable section

open scoped BigOperators

namespace Idealize.ShloMosaic.ValueIdx

open Idealize.ShloMosaic

/-- Selecting on the bit of "x < y" is the `if` on the order of the extended reals. -/
theorem select_olt (x y : EReal) {α : Type} (a b : α) :
    Scalar.select (Ideal.cmp .olt x y) a b = if x < y then a else b := by
  unfold Scalar.select Ideal.cmp
  by_cases h : x < y <;> simp [h]

/-- The word of the float 1.0 denotes the extended real 1. -/
theorem ofBits_one_f32 : Ideal.ofBits .f32 0x3F800000#32 = 1 :=
  IdealRules.sign_bit.ideal_onePat .f32

/-- Two arrays with the same rows laid side by side, `[a, b]` then `[a, c]`, read at row `i` and column `k` of the
    joined `[a, n]` array (`n = b + c`): the first at column `k` when `k < b`, else the second at column `k - b`. -/
theorem concatenate_cols_apply {α : Type} {a b c n : ℕ} (hn : n = b + c)
    (x : (⟨2, ![a, b]⟩ : Shape).Idx → α) (y : (⟨2, ![a, c]⟩ : Shape).Idx → α)
    (h : Shape.Concatenates [(⟨2, ![a, b]⟩ : Shape), (⟨2, ![a, c]⟩ : Shape)] ⟨2, ![a, n]⟩ 1) (i : Fin a) (k : Fin n) :
    concatenate ⟨2, ![a, n]⟩ 1 [⟨⟨2, ![a, b]⟩, x⟩, ⟨⟨2, ![a, c]⟩, y⟩] h (ix2 i k)
      = if hk : k.val < b then x (ix2 i ⟨k.val, hk⟩) else y (ix2 i ⟨k.val - b, by have := k.isLt; omega⟩) := by
  by_cases hk : k.val < b
  · rw [dif_pos hk]
    exact concatenate_pair_apply_left 1 x y h (ix2 i k) rfl (ix2 i ⟨k.val, hk⟩) (fun bb => by
      match bb with
      | ⟨0, _⟩ => rfl
      | ⟨1, _⟩ => rfl)
  · rw [dif_neg hk]
    exact concatenate_pair_apply_right 1 x y h (ix2 i k) rfl rfl (ix2 i ⟨k.val - b, by have := k.isLt; omega⟩)
      (fun bb hb => by
        match bb with
        | ⟨0, _⟩ => rfl
        | ⟨1, _⟩ => exact absurd rfl hb)
      (by show (k.val - b) + b = k.val; omega)

end Idealize.ShloMosaic.ValueIdx

end
-- ==== Proof.LibRows.lean ====
/-
  Rows of a rank-2 array. A reduction of `[a, b]` over its second axis reads, at row `i`, the sum — or the running
  maximum — over the entries `(i, k)` of that row. And the square root, exponential and hyperbolic tangent of a vector
  read at an index: the extended reals' function of the entry.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- The entry `(i, k)` is the row index `i` with the coordinate `k` put back on the reduced axis. -/
theorem lift_row {a b : ℕ} (h : (⟨2, ![a, b]⟩ : Shape).Reduces [1] ⟨1, ![a]⟩) (i : Fin a) (k : Fin b) :
    h.lift (ix1 i) k = ix2 i k := by
  funext ax
  match ax with
  | ⟨0, _⟩ => rfl
  | ⟨1, _⟩ => rfl

/-- A sum over the second axis of `[a, b]`, at row `i`: the sum of that row's entries. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_row h i k)

/-- A maximum over the second axis of `[a, b]`, at row `i`: the fold of `max`, from the accumulator's value, over
    that row's entries. -/
theorem multiReduction_max_row {a b : ℕ} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  exact congrArg (Finset.fold max (Ideal.ofBits φ acc) · Finset.univ) (funext fun k => congrArg src (lift_row h i k))

/-- A square root at an index is the square root of the entry. -/
theorem sqrt_apply {s : Shape} {φ : FTy} (a : FVec Ideal s φ) (i : s.Idx) : sqrt a i = Ideal.sqrt (a i) := rfl
/-- An exponential at an index is the exponential of the entry. -/
theorem exp_apply {s : Shape} {φ : FTy} (a : FVec Ideal s φ) (i : s.Idx) : exp a i = Ideal.exp (a i) := rfl
/-- A hyperbolic tangent at an index is the hyperbolic tangent of the entry. -/
theorem tanh_apply {s : Shape} {φ : FTy} (a : FVec Ideal s φ) (i : s.Idx) : tanh a i = Ideal.tanh (a i) := rfl
/-- A scalar constant of the ideal instance is the extended real its word encodes. -/
theorem scalar_ofBits (φ : FTy) (b : BitVec φ.bits) : Scalar.ofBits (F := Ideal) φ b = Ideal.ofBits φ b := rfl

end Idealize.ShloMosaic.ValueIdx

end
-- ==== Proof.LibColumn.lean ====
/-
  A vector kept as a column. A row reduction with `keepdims` leaves a length-`a` vector that is cast to the column
  shape `[a, 1]` and then broadcast along the rows to `[a, b]`. Read at an index given by coordinates: the column at
  `(i, z)` is the vector at `i`, and the broadcast at `(i, j)` is the column at `(i, 0)`.
-/
import Idealize.ShloMosaic.Lib.Pipeline.Value
import Idealize.ShloMosaic.Lib.ValueIdx

namespace Idealize.ShloMosaic.ValueIdx

open Idealize.ShloMosaic

variable {α : Type}

/-- A length-`a` vector cast to the column `[a, 1]` reads, at `(i, z)`, the vector at `i`: both positions are `i` in
    row-major order, the column's second coordinate being `0`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column at `(i, 0)`: the row coordinate is kept (or
    is `0` anyway when `a = 1`), the unit axis reads its only coordinate. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueIdx
-- ==== Proof.KI.PayWeight.lean ====
/-
  The weight of a (surface point, graph point) pair and the reciprocal of a surface row's normaliser, read at an entry.

  The squared distance of surface column p and graph column q is the contraction, over the FIRST axis, of the two
  8-row slabs (each arrives as a [1, 8, ·] block whose leading unit axis is dropped), clamped below at zero. The weight is
  exp((0 − d²) · c) where d² is below the cutoff word and the zero word elsewhere; c is the named reciprocal of σ².
  The row's reciprocal is 1 divided by (the sum of the row's 2048 weights plus the ε word); the sum is a reduction over
  the lanes of the [512, 2048] tile, kept as a [512, 1] column.
-/
import proofs.«180177_j738734374947_2_alg».proof.Proof.KI.PayDots
import proofs.«180177_j738734374947_2_alg».proof.Proof.LibPayRead
import proofs.«180177_j738734374947_2_alg».proof.Proof.LibRows
import proofs.«180177_j738734374947_2_alg».proof.Proof.LibColumn
import proofs.«180177_j738734374947_2_alg».proof.Proof.NamedConst
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The clamped squared distance of surface column p and graph column q of the two slabs. -/
def dist2 (x1 : Vec Ideal S1x8x512 .f32) (x2 : Vec Ideal S1x8x2048 .f32) (p : Fin 512) (q : Fin 2048) : EReal :=
  max (∑ r : Fin 8, x1 (ix3 0 r p) * x2 (ix3 0 r q)) 0

/-- The weight at (p, q): exp((0 − d²) · 4/25) where d² is below the cutoff word, 0 elsewhere. -/
theorem pay9_apply (x1 : Vec Ideal S1x8x512 .f32) (x2 : Vec Ideal S1x8x2048 .f32) (p : Fin 512) (q : Fin 2048) :
    k0_pay9 (F := Ideal) x1 x2 (ix2 p q)
      = if dist2 x1 x2 p q < Ideal.ofBits .f32 0x42800000#32
          then Ideal.exp ((0 - dist2 x1 x2 p q) * ((4 / 25 : ℝ) : EReal)) else 0 := by
  have hd : (maximumf (matmul dot_S8x512_S8x2048_S512x2048_0_0_1_1_n_n (some .fp32)
        (shapeCast S8x512 x1 shapeCasts_S1x8x512_S8x512 : FVec Ideal S8x512 .f32)
        (shapeCast S8x2048 x2 shapeCasts_S1x8x2048_S8x2048 : FVec Ideal S8x2048 .f32)
        (constant (F := Ideal) S512x2048 .f32 0x00000000#32))
      (broadcast S512x2048 (Scalar.ofBits (F := Ideal) .f32 0x00000000#32))) (ix2 p q) = dist2 x1 x2 p q := by
    rw [maximumf_apply, broadcast_apply, dot_dist_apply]
    simp only [shapeCast_1ab_ab_apply, Ideal.ofBits_def, Ideal.ofBits_zero_f32]
    rfl
  unfold k0_pay9
  simp only [select_apply, cmpf_apply, exp_apply, mulf_apply, subf_apply, broadcast_apply]
  rw [hd, Ideal.cmpf_def, select_olt, Cert.Proof.NamedConst.inv_sigma2]
  simp only [Ideal.ofBits_def, Ideal.ofBits_zero_f32]

/-- The reciprocal of row p's normaliser, at (p, z) of the [512, 1] column: 1 divided by (the row's weights summed plus
    the ε word), with the float quotient. -/
theorem pay10_apply (x1 : Vec Ideal S1x8x512 .f32) (x2 : Vec Ideal S1x8x2048 .f32) (p : Fin 512) (z : Fin 1) :
    k0_pay10 (F := Ideal) x1 x2 (ix2 p z)
      = Ideal.div 1 ((∑ q : Fin 2048, k0_pay9 (F := Ideal) x1 x2 (ix2 p q)) + Ideal.ofBits .f32 0x322BCC77#32) := by
  unfold k0_pay10
  simp only [divf_apply, addf_apply, broadcast_apply, Ideal.ofBits_def]
  rw [shapeCast_a_a1_apply, ofBits_one_f32]
  exact congrArg (fun t => Ideal.div 1 (t + Ideal.ofBits .f32 0x322BCC77#32))
    (multiReduction_add_row (k0_pay9 (F := Ideal) x1 x2) _ _ _ _ p)

end Cert.KernelIdeal.Pay

end
-- ==== Proof.KI.PayAcc.lean ====
/-
  The graph accumulator's update read at an entry: to the accumulator's entry (m, e) a tile adds

      Σ_{p < 512} w[p, m] · (s[p, e] · r[p, 0]),

  the contraction over the tile's 512 surface rows (the FIRST axis of both operands) of the tile's weights against the
  tile's pre-layer features, each row scaled by its reciprocal normaliser (a [512, 1] column repeated along the row).
  The change of float format of the weights and of the scaled features is the identity on the extended reals.
-/
import proofs.«180177_j738734374947_2_alg».proof.Proof.KI.PayDots
import proofs.«180177_j738734374947_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The weights with their float format changed are the weights. -/
theorem pay3_apply (w : FVec Ideal S512x2048 .f32) (i : S512x2048.Idx) : k0_pay3 (F := Ideal) w i = w i := rfl

/-- The accumulator after a tile, at (m, e): its entry before plus Σ_p w[p, m] · (s[p, e] · r[p, 0]). -/
theorem pay4_apply (s : FVec Ideal S512x128 .f32) (w : FVec Ideal S512x2048 .f32) (r : FVec Ideal S512x1 .f32)
    (acc : Vec Ideal S2048x128 .f32) (m : Fin 2048) (e : Fin 128) :
    k0_pay4 (F := Ideal) s w r acc (ix2 m e)
      = acc (ix2 m e) + ∑ p : Fin 512, w (ix2 p m) * (s (ix2 p e) * r (ix2 p 0)) := by
  unfold k0_pay4
  rw [shapeCast_self, addf_apply, dot_acc_apply]
  simp only [pay3_apply, truncf_apply, mulf_apply, broadcastTo_a1_ab_apply]

end Cert.KernelIdeal.Pay

end
-- ==== Proof.KI.PayPost.lean ====
/-
  The two post-layers, the copy-out of a finished graph tile and the zero fill, read at an entry.

  A post-layer is a linear map on the 256-wide row (old features, message), a bias and a clamp at zero. The row is
  two 128-wide arrays laid side by side: column k < 128 reads the old features at k, column k ≥ 128 the message at
  k − 128. For the surface the message of row p is the row's reciprocal normaliser times Σ_q w[p, q] · pre[q, ·]; for
  the graph it is the accumulator. The result of the surface post-layer is stored with a leading unit axis.
-/
import proofs.«180177_j738734374947_2_alg».proof.Proof.KI.PayDots
import proofs.«180177_j738734374947_2_alg».proof.Proof.KI.PayAcc
import proofs.«180177_j738734374947_2_alg».proof.Proof.LibPayRead
import proofs.«180177_j738734374947_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- Column k of the surface post-layer's input row p: the old features below 128, from 128 on the message
    r[p, 0] · Σ_q w[p, q] · pre[q, k − 128]. -/
def catS (pre : Vec Ideal S2048x128 .f32) (s : FVec Ideal S512x128 .f32) (w : FVec Ideal S512x2048 .f32)
    (r : FVec Ideal S512x1 .f32) (p : Fin 512) (k : Fin 256) : EReal :=
  if h : k.val < 128 then s (ix2 p ⟨k.val, h⟩)
  else r (ix2 p 0) * ∑ q : Fin 2048, w (ix2 p q) * pre (ix2 q ⟨k.val - 128, by have := k.isLt; omega⟩)

/-- The surface post-layer at (u, p, e) of the [1, 512, 128] block: max(Σ_k cat[p, k] · W[k, e] + b[e], 0). -/
theorem pay5_apply (pre : Vec Ideal S2048x128 .f32) (s : FVec Ideal S512x128 .f32) (w : FVec Ideal S512x2048 .f32)
    (r : FVec Ideal S512x1 .f32) (x8 : Vec Ideal S256x128 .f32) (x9 : Vec Ideal S128 .f32)
    (u : Fin 1) (p : Fin 512) (e : Fin 128) :
    k0_pay5 (F := Ideal) pre s w r x8 x9 (ix3 u p e)
      = max ((∑ k : Fin 256, catS pre s w r p k * x8 (ix2 k e)) + x9 (ix1 e)) 0 := by
  unfold k0_pay5
  rw [shapeCast_ab_1ab_apply, maximumf_apply, addf_apply, broadcast_apply, dot_postS_apply, broadcastTo_1b_ab_apply,
    shapeCast_a_1a_apply]
  simp only [truncf_apply, Ideal.ofBits_def, Ideal.ofBits_zero_f32]
  refine congrArg (fun t => max (t + x9 (ix1 e)) 0) (Finset.sum_congr rfl fun k _ => congrArg (· * x8 (ix2 k e)) ?_)
  refine (concatenate_cols_apply (by rfl) _ _ _ p k).trans ?_
  unfold catS
  by_cases hk : k.val < 128
  · rw [dif_pos hk, dif_pos hk]
  · rw [dif_neg hk, dif_neg hk, mulf_apply, broadcastTo_a1_ab_apply, dot_msgS_apply]
    simp only [pay3_apply, truncf_apply]

/-- Column k of the graph post-layer's input row m: the pre-layer features below 128, from 128 on the accumulator. -/
def catG (pre acc : Vec Ideal S2048x128 .f32) (m : Fin 2048) (k : Fin 256) : EReal :=
  if h : k.val < 128 then pre (ix2 m ⟨k.val, h⟩) else acc (ix2 m ⟨k.val - 128, by have := k.isLt; omega⟩)

/-- The graph post-layer at (m, e): max(Σ_k cat[m, k] · W[k, e] + b[e], 0). -/
theorem pay6_apply (x10 : Vec Ideal S256x128 .f32) (x11 : Vec Ideal S128 .f32) (pre acc : Vec Ideal S2048x128 .f32)
    (m : Fin 2048) (e : Fin 128) :
    k0_pay6 (F := Ideal) x10 x11 pre acc (ix2 m e)
      = max ((∑ k : Fin 256, catG pre acc m k * x10 (ix2 k e)) + x11 (ix1 e)) 0 := by
  unfold k0_pay6
  rw [shapeCast_self, maximumf_apply, addf_apply, broadcast_apply, dot_postG_apply, broadcastTo_1b_ab_apply,
    shapeCast_a_1a_apply]
  simp only [truncf_apply, Ideal.ofBits_def, Ideal.ofBits_zero_f32]
  refine congrArg (fun t => max (t + x11 (ix1 e)) 0) (Finset.sum_congr rfl fun k _ => congrArg (· * x10 (ix2 k e)) ?_)
  exact concatenate_cols_apply (by rfl) _ _ _ m k

/-- A finished 512-row tile of new graph rows copied out under a leading unit axis: (u, p, e) reads (p, e). -/
theorem pay7_apply (v : Vec Ideal S512x128 .f32) (u : Fin 1) (p : Fin 512) (e : Fin 128) :
    k0_pay7 (F := Ideal) v (ix3 u p e) = v (ix2 p e) := by
  unfold k0_pay7
  exact shapeCast_ab_1ab_apply v _ u p e

/-- The zero fill of the accumulator: every entry is the extended real 0. -/
theorem pay1_apply (m : Fin 2048) (e : Fin 128) : k0_pay1 (F := Ideal) (ix2 m e) = 0 := by
  unfold k0_pay1
  rw [shapeCast_self, broadcast_apply]
  exact Ideal.ofBits_zero_f32

end Cert.KernelIdeal.Pay

end
-- ==== Proof.KI.TileLaws.lean ====
/-
  The body's arithmetic on one tile is the specification's arithmetic.

  The body's stored values, read at an entry, are sums, products, maxima and selections of entries of its input
  blocks.  When the entries of the blocks are the entries of the argument arrays and of the two augmented slabs that
  the specification names — the features of surface row n of batch b, the weights and biases, column n of the surface
  slab, the columns of the graph slab — the stored values are the specification's quantities at those indices: the
  two pre-layers, the weight w(n, m), the reciprocal of the row normaliser, the new surface row, the accumulator's
  increment, and the new graph row.  Each statement is over arbitrary blocks with the entries' identities as
  hypotheses; it is proved by rewriting the entries under the sums.
-/
import proofs.«180177_j738734374947_2_alg».proof.Proof.KI.PayPre
import proofs.«180177_j738734374947_2_alg».proof.Proof.KI.PayWeight
import proofs.«180177_j738734374947_2_alg».proof.Proof.KI.PayAcc
import proofs.«180177_j738734374947_2_alg».proof.Proof.KI.PayPost
import proofs.«180177_j738734374947_2_alg».proof.Proof.ArgsOf

noncomputable section

open scoped BigOperators

namespace Cert.KernelIdeal.TileLaws

open Cert.KernelIdeal Cert.KernelIdeal.Gen Cert.KernelIdeal.Pay Idealize.ShloMosaic Idealize.ShloMosaic.ValueIdx

variable (A : Cert.KSpec.Args) (b : Fin 4)

/-- The surface pre-layer of the tile at (p, e), when row p of the tile is surface row n. -/
theorem tileS_of (n : Fin 16384) (x0 : Vec Ideal S1x512x128 .f32) (x4 : Vec Ideal S128x128 .f32)
    (x5 : Vec Ideal S128 .f32) (p : Fin 512) (e : Fin 128)
    (h0 : ∀ d, x0 (ix3 0 p d) = A.xs b n d) (h4 : ∀ d e, x4 (ix2 d e) = A.Wsp d e) (h5 : ∀ e, x5 (ix1 e) = A.bsp e) :
    k0_pay8 (F := Ideal) x0 x4 x5 (ix2 p e) = Cert.KSpec.xsh A b n e := by
  rw [pay8_apply]
  unfold Cert.KSpec.xsh
  simp only [h0, h4, h5]

/-- The graph pre-layer at (m, e). -/
theorem preOf_of (x3 : Vec Ideal S1x2048x128 .f32) (x6 : Vec Ideal S128x128 .f32) (x7 : Vec Ideal S128 .f32)
    (mm : Fin 2048) (e : Fin 128)
    (h3 : ∀ d, x3 (ix3 0 mm d) = A.xg b mm d) (h6 : ∀ d e, x6 (ix2 d e) = A.Wgp d e) (h7 : ∀ e, x7 (ix1 e) = A.bgp e) :
    k0_pay2 (F := Ideal) x3 x6 x7 (ix2 mm e) = Cert.KSpec.xgh A b mm e := by
  rw [pay2_apply]
  unfold Cert.KSpec.xgh
  simp only [h3, h6, h7]

/-- The weight at (p, q), when column p of the surface slab's block is column n of the surface slab. -/
theorem tileW_of (n : Fin 16384) (x1 : Vec Ideal S1x8x512 .f32) (x2 : Vec Ideal S1x8x2048 .f32) (p : Fin 512)
    (q : Fin 2048) (h1 : ∀ r, x1 (ix3 0 r p) = Cert.KSpec.augS A b r n)
    (h2 : ∀ r, x2 (ix3 0 r q) = Cert.KSpec.augG A Cert.ArgsOf.consts b r q) :
    k0_pay9 (F := Ideal) x1 x2 (ix2 p q) = Cert.KSpec.wgt A Cert.ArgsOf.consts b n q := by
  have hd : Pay.dist2 x1 x2 p q = Cert.KSpec.dist2 A Cert.ArgsOf.consts b n q := by
    unfold Pay.dist2 Cert.KSpec.dist2
    simp only [h1, h2]
  rw [pay9_apply, hd]
  rfl

/-- The reciprocal of row p's normaliser. -/
theorem tileR_of (n : Fin 16384) (x1 : Vec Ideal S1x8x512 .f32) (x2 : Vec Ideal S1x8x2048 .f32) (p : Fin 512)
    (h1 : ∀ r, x1 (ix3 0 r p) = Cert.KSpec.augS A b r n)
    (h2 : ∀ r q, x2 (ix3 0 r q) = Cert.KSpec.augG A Cert.ArgsOf.consts b r q) :
    k0_pay10 (F := Ideal) x1 x2 (ix2 p 0) = Cert.KSpec.recip A Cert.ArgsOf.consts b n := by
  have hw : ∀ q, k0_pay9 (F := Ideal) x1 x2 (ix2 p q) = Cert.KSpec.wgt A Cert.ArgsOf.consts b n q :=
    fun q => tileW_of A b n x1 x2 p q h1 (fun r => h2 r q)
  rw [pay10_apply]
  simp only [hw]
  rfl

/-- The new surface row at (p, e): the post-layer of (old features, message), the message being the row's reciprocal
    times the weighted sum of the graph pre-layer. -/
theorem outS_of (n : Fin 16384) (pre : Vec Ideal S2048x128 .f32) (s : FVec Ideal S512x128 .f32)
    (w : FVec Ideal S512x2048 .f32) (r : FVec Ideal S512x1 .f32) (x8 : Vec Ideal S256x128 .f32)
    (x9 : Vec Ideal S128 .f32) (p : Fin 512) (e : Fin 128)
    (hpre : ∀ mm e, pre (ix2 mm e) = Cert.KSpec.xgh A b mm e)
    (hs : ∀ e, s (ix2 p e) = Cert.KSpec.xsh A b n e)
    (hw : ∀ q, w (ix2 p q) = Cert.KSpec.wgt A Cert.ArgsOf.consts b n q)
    (hr : r (ix2 p 0) = Cert.KSpec.recip A Cert.ArgsOf.consts b n)
    (h8 : ∀ k e, x8 (ix2 k e) = A.Wso k e) (h9 : ∀ e, x9 (ix1 e) = A.bso e) :
    k0_pay5 (F := Ideal) pre s w r x8 x9 (ix3 0 p e) = Cert.KSpec.newS A Cert.ArgsOf.consts b n e := by
  have hc : ∀ k, Pay.catS pre s w r p k = Cert.KSpec.catS A Cert.ArgsOf.consts b n k := by
    intro k
    unfold Pay.catS Cert.KSpec.catS Cert.KSpec.msgS
    by_cases hk : k.val < 128
    · rw [dif_pos hk, dif_pos hk, hs]
    · rw [dif_neg hk, dif_neg hk, hr]
      simp only [hw, hpre]
  rw [pay5_apply]
  unfold Cert.KSpec.newS
  simp only [hc, h8, h9]

/-- The accumulator after a tile at (m, e): its entry before plus the tile's 512 terms of the graph message. -/
theorem accStep_of (nOf : Fin 512 → Fin 16384) (s : FVec Ideal S512x128 .f32) (w : FVec Ideal S512x2048 .f32)
    (r : FVec Ideal S512x1 .f32) (acc : Vec Ideal S2048x128 .f32) (mm : Fin 2048) (e : Fin 128)
    (hs : ∀ p e, s (ix2 p e) = Cert.KSpec.xsh A b (nOf p) e)
    (hw : ∀ p q, w (ix2 p q) = Cert.KSpec.wgt A Cert.ArgsOf.consts b (nOf p) q)
    (hr : ∀ p, r (ix2 p 0) = Cert.KSpec.recip A Cert.ArgsOf.consts b (nOf p)) :
    k0_pay4 (F := Ideal) s w r acc (ix2 mm e)
      = acc (ix2 mm e) + ∑ p : Fin 512, Cert.KSpec.wgt A Cert.ArgsOf.consts b (nOf p) mm
          * (Cert.KSpec.xsh A b (nOf p) e * Cert.KSpec.recip A Cert.ArgsOf.consts b (nOf p)) := by
  rw [pay4_apply]
  simp only [hs, hw, hr]

/-- The new graph row at (m, e): the post-layer of (pre-layer features, finished message). -/
theorem newG_of (x10 : Vec Ideal S256x128 .f32) (x11 : Vec Ideal S128 .f32) (pre acc : Vec Ideal S2048x128 .f32)
    (mm : Fin 2048) (e : Fin 128)
    (hpre : ∀ mm e, pre (ix2 mm e) = Cert.KSpec.xgh A b mm e)
    (hacc : ∀ mm e, acc (ix2 mm e) = Cert.KSpec.msgG A Cert.ArgsOf.consts b mm e)
    (h10 : ∀ k e, x10 (ix2 k e) = A.Wgo k e) (h11 : ∀ e, x11 (ix1 e) = A.bgo e) :
    k0_pay6 (F := Ideal) x10 x11 pre acc (ix2 mm e) = Cert.KSpec.newG A Cert.ArgsOf.consts b mm e := by
  have hc : ∀ k, Pay.catG pre acc mm k = Cert.KSpec.catG A Cert.ArgsOf.consts b mm k := by
    intro k
    unfold Pay.catG Cert.KSpec.catG
    by_cases hk : k.val < 128
    · rw [dif_pos hk, dif_pos hk, hpre]
    · rw [dif_neg hk, dif_neg hk, hacc]
  rw [pay6_apply]
  unfold Cert.KSpec.newG
  simp only [hc, h10, h11]

end Cert.KernelIdeal.TileLaws

end
-- ==== Proof.KI.Tiles.lean ====
/-
  The body's stored values at a grid point, as the specification's quantities.

  Point t of the 4 × 36 grid is batch b = t / 36 and step i = t mod 36.  At every point the blocks of the surface
  features and of the surface slab are rows (columns) 512·min(i, 31) + p of batch b, p < 512; the blocks of the graph
  slab and of the graph features are batch b's whole slices; the weights and biases are whole.  The arrays the region
  finds are the launch's arguments and the two augmented slabs built from the coordinates.  So the body's arithmetic
  on the blocks of point t is the specification's arithmetic at batch b and surface rows 512·min(i, 31) + p: the two
  pre-layers, the weights and the rows' reciprocals, the new surface rows, the accumulator's increment, and — from a
  graph pre-layer and a finished graph message — the new graph rows.
-/
import proofs.«180177_j738734374947_2_alg».proof.Proof.KI.Blocks
import proofs.«180177_j738734374947_2_alg».proof.Proof.KI.Slabs
import proofs.«180177_j738734374947_2_alg».proof.Proof.KI.TileLaws

set_option maxRecDepth 16384

noncomputable section

open scoped BigOperators

namespace Cert.KernelIdeal.Tiles

open Cert.KernelIdeal Cert.KernelIdeal.Gen Cert.KernelIdeal.Hand Cert.KernelIdeal.Blocks Cert.KernelIdeal.Pay
open Cert.KernelIdeal.Slabs Cert.KernelIdeal.TileLaws
open Idealize.ShloMosaic Idealize.ShloMosaic.TcCoe Idealize.ShloMosaic.ValueIdx
open Idealize.SL Idealize.SL.Sem

variable (m : (ℓ : Loc nD τ sig) → Buf (Elt Ideal) ℓ) (c : Dev nD)

/-- The batch of point t. -/
abbrev bOf (t : Fin cfg0.N) : Fin 4 := ⟨t.val / 36, by have := tlt t; omega⟩
/-- The surface row that row p of point t's surface tile is. -/
abbrev rowOf (t : Fin cfg0.N) (p : Fin 512) : Fin 16384 :=
  ⟨512 * min (t.val % 36) 31 + p.val, by have := p.isLt; omega⟩

/-! ## The blocks' entries as the specification's data -/

theorem x0_at (t : Fin cfg0.N) (p : Fin 512) (d : Fin 128) :
    (iblk m c 0 t : Vec Ideal S1x512x128 .f32) (ix3 0 p d) = (argsAt m c).xs (bOf t) (rowOf t p) d :=
  (iblk0_apply m c t p d).trans (congrFun (V_main_arg0 m c) _)

theorem x1_at (t : Fin cfg0.N) (r : Fin 8) (p : Fin 512) :
    (iblk m c 1 t : Vec Ideal S1x8x512 .f32) (ix3 0 r p) = Cert.KSpec.augS (argsAt m c) (bOf t) r (rowOf t p) :=
  (iblk1_apply m c t r p).trans (slabS m c (bOf t) r (rowOf t p))

theorem x2_at (t : Fin cfg0.N) (r : Fin 8) (q : Fin 2048) :
    (iblk m c 2 t : Vec Ideal S1x8x2048 .f32) (ix3 0 r q)
      = Cert.KSpec.augG (argsAt m c) Cert.ArgsOf.consts (bOf t) r q :=
  (iblk2_apply m c t r q).trans (slabG m c (bOf t) r q)

theorem x3_at (t : Fin cfg0.N) (q : Fin 2048) (d : Fin 128) :
    (iblk m c 3 t : Vec Ideal S1x2048x128 .f32) (ix3 0 q d) = (argsAt m c).xg (bOf t) q d :=
  (iblk3_apply m c t q d).trans (congrFun (V_main_arg1 m c) _)

theorem x4_at (t : Fin cfg0.N) (d e : Fin 128) :
    (iblk m c 4 t : Vec Ideal S128x128 .f32) (ix2 d e) = (argsAt m c).Wsp d e :=
  (congrFun (iblk4_eq m c t) (ix2 d e)).trans (congrFun (V_main_arg4 m c) _)

theorem x5_at (t : Fin cfg0.N) (e : Fin 128) :
    (iblk m c 5 t : Vec Ideal S128 .f32) (ix1 e) = (argsAt m c).bsp e :=
  (congrFun (iblk5_eq m c t) (ix1 e)).trans (congrFun (V_main_arg5 m c) _)

theorem x6_at (t : Fin cfg0.N) (d e : Fin 128) :
    (iblk m c 6 t : Vec Ideal S128x128 .f32) (ix2 d e) = (argsAt m c).Wgp d e :=
  (congrFun (iblk6_eq m c t) (ix2 d e)).trans (congrFun (V_main_arg6 m c) _)

theorem x7_at (t : Fin cfg0.N) (e : Fin 128) :
    (iblk m c 7 t : Vec Ideal S128 .f32) (ix1 e) = (argsAt m c).bgp e :=
  (congrFun (iblk7_eq m c t) (ix1 e)).trans (congrFun (V_main_arg7 m c) _)

theorem x8_at (t : Fin cfg0.N) (k : Fin 256) (e : Fin 128) :
    (iblk m c 8 t : Vec Ideal S256x128 .f32) (ix2 k e) = (argsAt m c).Wso k e :=
  (congrFun (iblk8_eq m c t) (ix2 k e)).trans (congrFun (V_main_arg8 m c) _)

theorem x9_at (t : Fin cfg0.N) (e : Fin 128) :
    (iblk m c 9 t : Vec Ideal S128 .f32) (ix1 e) = (argsAt m c).bso e :=
  (congrFun (iblk9_eq m c t) (ix1 e)).trans (congrFun (V_main_arg9 m c) _)

theorem x10_at (t : Fin cfg0.N) (k : Fin 256) (e : Fin 128) :
    (iblk m c 10 t : Vec Ideal S256x128 .f32) (ix2 k e) = (argsAt m c).Wgo k e :=
  (congrFun (iblk10_eq m c t) (ix2 k e)).trans (congrFun (V_main_arg10 m c) _)

theorem x11_at (t : Fin cfg0.N) (e : Fin 128) :
    (iblk m c 11 t : Vec Ideal S128 .f32) (ix1 e) = (argsAt m c).bgo e :=
  (congrFun (iblk11_eq m c t) (ix1 e)).trans (congrFun (V_main_arg11 m c) _)

/-! ## The stored values at point t -/

/-- The surface pre-layer of point t's tile. -/
theorem tileS_apply (t : Fin cfg0.N) (p : Fin 512) (e : Fin 128) :
    k0_pay8 (F := Ideal) (iblk m c 0 t) (iblk m c 4 t) (iblk m c 5 t) (ix2 p e)
      = Cert.KSpec.xsh (argsAt m c) (bOf t) (rowOf t p) e :=
  tileS_of (argsAt m c) (bOf t) (rowOf t p) (iblk m c 0 t) (iblk m c 4 t) (iblk m c 5 t) p e
    (fun d => x0_at m c t p d) (fun d e => x4_at m c t d e) (fun e => x5_at m c t e)

/-- The graph pre-layer of point t's batch. -/
theorem preOf_apply (t : Fin cfg0.N) (mm : Fin 2048) (e : Fin 128) :
    k0_pay2 (F := Ideal) (iblk m c 3 t) (iblk m c 6 t) (iblk m c 7 t) (ix2 mm e)
      = Cert.KSpec.xgh (argsAt m c) (bOf t) mm e :=
  preOf_of (argsAt m c) (bOf t) (iblk m c 3 t) (iblk m c 6 t) (iblk m c 7 t) mm e
    (fun d => x3_at m c t mm d) (fun d e => x6_at m c t d e) (fun e => x7_at m c t e)

/-- The weights of point t's tile. -/
theorem tileW_apply (t : Fin cfg0.N) (p : Fin 512) (q : Fin 2048) :
    k0_pay9 (F := Ideal) (iblk m c 1 t) (iblk m c 2 t) (ix2 p q)
      = Cert.KSpec.wgt (argsAt m c) Cert.ArgsOf.consts (bOf t) (rowOf t p) q :=
  tileW_of (argsAt m c) (bOf t) (rowOf t p) (iblk m c 1 t) (iblk m c 2 t) p q
    (fun r => x1_at m c t r p) (fun r => x2_at m c t r q)

/-- The reciprocals of the row normalisers of point t's tile. -/
theorem tileR_apply (t : Fin cfg0.N) (p : Fin 512) :
    k0_pay10 (F := Ideal) (iblk m c 1 t) (iblk m c 2 t) (ix2 p 0)
      = Cert.KSpec.recip (argsAt m c) Cert.ArgsOf.consts (bOf t) (rowOf t p) :=
  tileR_of (argsAt m c) (bOf t) (rowOf t p) (iblk m c 1 t) (iblk m c 2 t) p
    (fun r => x1_at m c t r p) (fun r q => x2_at m c t r q)

/-- The new surface rows of point t's tile, from a graph pre-layer that is the specification's. -/
theorem outS_apply (t : Fin cfg0.N) (pre : Vec Ideal S2048x128 .f32)
    (hpre : ∀ mm e, pre (ix2 mm e) = Cert.KSpec.xgh (argsAt m c) (bOf t) mm e) (p : Fin 512) (e : Fin 128) :
    k0_pay5 (F := Ideal) pre (k0_pay8 (F := Ideal) (iblk m c 0 t) (iblk m c 4 t) (iblk m c 5 t))
        (k0_pay9 (F := Ideal) (iblk m c 1 t) (iblk m c 2 t)) (k0_pay10 (F := Ideal) (iblk m c 1 t) (iblk m c 2 t))
        (iblk m c 8 t) (iblk m c 9 t) (ix3 0 p e)
      = Cert.KSpec.newS (argsAt m c) Cert.ArgsOf.consts (bOf t) (rowOf t p) e :=
  outS_of (argsAt m c) (bOf t) (rowOf t p) pre (k0_pay8 (F := Ideal) (iblk m c 0 t) (iblk m c 4 t) (iblk m c 5 t))
    (k0_pay9 (F := Ideal) (iblk m c 1 t) (iblk m c 2 t)) (k0_pay10 (F := Ideal) (iblk m c 1 t) (iblk m c 2 t))
    (iblk m c 8 t) (iblk m c 9 t) p e hpre (fun e => tileS_apply m c t p e) (fun q => tileW_apply m c t p q)
    (tileR_apply m c t p) (fun k e => x8_at m c t k e) (fun e => x9_at m c t e)

/-- The accumulator after point t's tile: its entry before plus the tile's 512 terms of the graph message. -/
theorem accStep_apply (t : Fin cfg0.N) (acc : Vec Ideal S2048x128 .f32) (mm : Fin 2048) (e : Fin 128) :
    k0_pay4 (F := Ideal) (k0_pay8 (F := Ideal) (iblk m c 0 t) (iblk m c 4 t) (iblk m c 5 t))
        (k0_pay9 (F := Ideal) (iblk m c 1 t) (iblk m c 2 t)) (k0_pay10 (F := Ideal) (iblk m c 1 t) (iblk m c 2 t))
        acc (ix2 mm e)
      = acc (ix2 mm e) + ∑ p : Fin 512,
          Cert.KSpec.wgt (argsAt m c) Cert.ArgsOf.consts (bOf t) (rowOf t p) mm
            * (Cert.KSpec.xsh (argsAt m c) (bOf t) (rowOf t p) e
              * Cert.KSpec.recip (argsAt m c) Cert.ArgsOf.consts (bOf t) (rowOf t p)) :=
  accStep_of (argsAt m c) (bOf t) (fun p => rowOf t p)
    (k0_pay8 (F := Ideal) (iblk m c 0 t) (iblk m c 4 t) (iblk m c 5 t))
    (k0_pay9 (F := Ideal) (iblk m c 1 t) (iblk m c 2 t)) (k0_pay10 (F := Ideal) (iblk m c 1 t) (iblk m c 2 t))
    acc mm e (fun p e => tileS_apply m c t p e) (fun p q => tileW_apply m c t p q) (fun p => tileR_apply m c t p)

/-- The new graph rows, from a graph pre-layer and a finished graph message that are the specification's. -/
theorem newG_apply (t : Fin cfg0.N) (pre acc : Vec Ideal S2048x128 .f32)
    (hpre : ∀ mm e, pre (ix2 mm e) = Cert.KSpec.xgh (argsAt m c) (bOf t) mm e)
    (hacc : ∀ mm e, acc (ix2 mm e) = Cert.KSpec.msgG (argsAt m c) Cert.ArgsOf.consts (bOf t) mm e)
    (mm : Fin 2048) (e : Fin 128) :
    k0_pay6 (F := Ideal) (iblk m c 10 t) (iblk m c 11 t) pre acc (ix2 mm e)
      = Cert.KSpec.newG (argsAt m c) Cert.ArgsOf.consts (bOf t) mm e :=
  newG_of (argsAt m c) (bOf t) (iblk m c 10 t) (iblk m c 11 t) pre acc mm e hpre hacc
    (fun k e => x10_at m c t k e) (fun e => x11_at m c t e)

end Cert.KernelIdeal.Tiles

end
-- ==== Proof.KI.TileSums.lean ====
/-
  Thirty-two sums over tiles of 512 are one sum over 16384.

  The graph message is accumulated one surface tile at a time: tile k adds the 512 terms of the surface points
  512·k, …, 512·k + 511.  The partial sum over the first k tiles is the sum over the first 512·k points; it starts at
  0, one more tile appends that tile's 512 terms, and after 32 tiles it is the sum over all 16384 points.
-/
import Mathlib.Algebra.BigOperators.Fin
import Mathlib.Data.Fintype.BigOperators

open scoped BigOperators

namespace Cert.KernelIdeal.TileSums

variable {M : Type*} [AddCommMonoid M]

/-- The sum of the terms of the first k tiles: the points below 512·k. -/
def part (g : ℕ → M) (k : ℕ) : M := ∑ n ∈ Finset.range (512 * k), g n

/-- Before the first tile the partial sum is 0. -/
theorem part_zero (g : ℕ → M) : part g 0 = 0 := by
  unfold part
  rw [Nat.mul_zero, Finset.range_zero, Finset.sum_empty]

/-- One more tile appends its 512 terms. -/
theorem part_succ (g : ℕ → M) (k : ℕ) : part g (k + 1) = part g k + ∑ p : Fin 512, g (512 * k + p.val) := by
  unfold part
  rw [Nat.mul_succ, Finset.sum_range_add, Fin.sum_univ_eq_sum_range (fun i => g (512 * k + i)) 512]

/-- After the 32 tiles the partial sum is the sum over all 16384 points. -/
theorem part_full (f : Fin 16384 → M) :
    part (fun n => if h : n < 16384 then f ⟨n, h⟩ else 0) 32 = ∑ n : Fin 16384, f n := by
  unfold part
  rw [show 512 * 32 = 16384 from rfl,
    ← Fin.sum_univ_eq_sum_range (fun n => if h : n < 16384 then f ⟨n, h⟩ else 0) 16384]
  exact Finset.sum_congr rfl fun n _ => dif_pos n.isLt

end Cert.KernelIdeal.TileSums
-- ==== Proof.KI.Value.lean ====
/-
  The idealized kernel's result array, index by index.

  Batch b, point i of the grid (t = 36 b + i).  With x_n the surface pre-layer's rows, y_m the graph pre-layer's rows,
  w_nm the cut-off Gaussian weights and r_n the reciprocal of row n's weight sum plus ε, all of batch b:
    * after every point the second scratch holds y;
    * after point i ≤ 31 the accumulator holds, at (m, e), the sum over the rows n < 512 (i + 1) of w_nm (x_ne r_n):
      each surface tile adds its 512 terms, so after point 31 it is the whole sum over the 16384 surface rows;
    * from point 31 on the third scratch holds the graph post-layer of (y, that whole sum);
    * the output window holds, after point i < 32, the surface post-layer of the rows 512 i … 512 i + 511, and after a
      later point the rows 512 (i − 32) … of the third scratch.
  The output window's block at point (b, i) is rows 512 i … 512 i + 511 of batch b of the result, the 36 blocks of a
  batch tile its 18432 rows, so the result is: 16384 new surface rows, then 2048 new graph rows, per batch.
-/
import proofs.«180177_j738734374947_2_alg».proof.Proof.KI.Frame
import proofs.«180177_j738734374947_2_alg».proof.Proof.KI.Pieces
import proofs.«180177_j738734374947_2_alg».proof.Proof.KI.Tiles
import proofs.«180177_j738734374947_2_alg».proof.Proof.KI.TileSums
import Idealize.ShloMosaic.Lib.Pipeline.Value

set_option maxRecDepth 16384

noncomputable section

namespace Cert.KernelIdeal.Value

open Cert.KernelIdeal Cert.KernelIdeal.Gen Cert.KernelIdeal.Hand Cert.KernelIdeal.Blocks Cert.KernelIdeal.Tiles Cert.KernelIdeal.Slabs Cert.KernelIdeal.Pay
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-- One surface row's contribution to the graph message at (m, e): w_nm (x_ne r_n); zero beyond the 16384 rows. -/
def gterm (b : Fin 4) (mm : Fin 2048) (e : Fin 128) (n : ℕ) : EReal :=
  if h : n < 16384 then Cert.KSpec.wgt (argsAt m c) Cert.ArgsOf.consts b ⟨n, h⟩ mm * (Cert.KSpec.xsh (argsAt m c) b ⟨n, h⟩ e * Cert.KSpec.recip (argsAt m c) Cert.ArgsOf.consts b ⟨n, h⟩) else 0

theorem gterm_row (b : Fin 4) (mm : Fin 2048) (e : Fin 128) (k : ℕ) (hk : k < 32) (p : Fin 512) (n : Fin 16384) (hn : n.val = 512 * k + p.val) :
    gterm m c b mm e (512 * k + p.val) = Cert.KSpec.wgt (argsAt m c) Cert.ArgsOf.consts b n mm * (Cert.KSpec.xsh (argsAt m c) b n e * Cert.KSpec.recip (argsAt m c) Cert.ArgsOf.consts b n) := by
  have hlt : 512 * k + p.val < 16384 := by have := p.isLt; omega
  have hn' : n = ⟨512 * k + p.val, hlt⟩ := Fin.ext hn
  unfold gterm; rw [dif_pos hlt, hn']

/-- The whole sum over the surface rows is the specification's graph message. -/
theorem part_full_msgG (b : Fin 4) (mm : Fin 2048) (e : Fin 128) :
    Cert.KernelIdeal.TileSums.part (gterm m c b mm e) 32 = Cert.KSpec.msgG (argsAt m c) Cert.ArgsOf.consts b mm e := by
  unfold Cert.KSpec.msgG
  exact Cert.KernelIdeal.TileSums.part_full (fun n : Fin 16384 => Cert.KSpec.wgt (argsAt m c) Cert.ArgsOf.consts b n mm * (Cert.KSpec.xsh (argsAt m c) b n e * Cert.KSpec.recip (argsAt m c) Cert.ArgsOf.consts b n))

/-- What holds after the point at grid position `t`. -/
structure Inv (t : Fin cfg0.N) : Prop where
  pre : ∀ mm e, (outsAt (F := Ideal) m c t.val t.isLt).2.2.1 (ix2 mm e) = Cert.KSpec.xgh (argsAt m c) (bOf t) mm e
  acc : t.val % 36 ≤ 31 → ∀ mm e, (outsAt (F := Ideal) m c t.val t.isLt).2.1 (ix2 mm e) = Cert.KernelIdeal.TileSums.part (gterm m c (bOf t) mm e) (t.val % 36 + 1)
  fin : 31 ≤ t.val % 36 → (∀ mm e, (outsAt (F := Ideal) m c t.val t.isLt).2.1 (ix2 mm e) = Cert.KernelIdeal.TileSums.part (gterm m c (bOf t) mm e) 32)
      ∧ ∀ mm e, (outsAt (F := Ideal) m c t.val t.isLt).2.2.2 (ix2 mm e) = Cert.KSpec.newG (argsAt m c) Cert.ArgsOf.consts (bOf t) mm e
  outS : t.val % 36 < 32 → ∀ (p : Fin 512) (e : Fin 128), (outsAt (F := Ideal) m c t.val t.isLt).1 (ix3 0 p e) = Cert.KSpec.newS (argsAt m c) Cert.ArgsOf.consts (bOf t) (rowOf t p) e
  outG : 32 ≤ t.val % 36 → ∀ (p : Fin 512) (e : Fin 128), (outsAt (F := Ideal) m c t.val t.isLt).1 (ix3 0 p e)
      = Cert.KSpec.newG (argsAt m c) Cert.ArgsOf.consts (bOf t) ⟨512 * (t.val % 36 - 32) + p.val, by have := p.isLt; omega⟩ e

/-- The copy point's slice of the finished rows, at an index: row 512 (i − 32) + p. -/
theorem off_eq : ∀ t : Fin cfg0.N, 32 ≤ t.val % 36 → k0_off1 (grid0.coords t) 0 = 512 * (t.val % 36 - 32) ∧ k0_off1 (grid0.coords t) 1 = 0 :=
  (by decide +kernel : ∀ t : Fin grid0.N, 32 ≤ t.val % 36 → k0_off1 (grid0.coords t) 0 = 512 * (t.val % 36 - 32) ∧ k0_off1 (grid0.coords t) 1 = 0)

theorem sliceAt_apply (t : Fin cfg0.N) (hr : 32 ≤ t.val % 36) (new : Vec Ideal S2048x128 .f32) (p : Fin 512) (e : Fin 128) :
    sliceAt (F := Ideal) (grid0.coords t) ((hcondG t).mpr hr) new (ix2 p e) = new (ix2 ⟨512 * (t.val % 36 - 32) + p.val, by have := p.isLt; omega⟩ e) := by
  unfold sliceAt
  show new _ = new _
  congr 1
  funext a
  apply Fin.ext
  match a with
  | ⟨0, _⟩ => show k0_off1 (grid0.coords t) 0 + 1 * p.val = 512 * (t.val % 36 - 32) + p.val; rw [(off_eq t hr).1]; omega
  | ⟨1, _⟩ => show k0_off1 (grid0.coords t) 1 + 1 * e.val = e.val; rw [(off_eq t hr).2]; omega

theorem tlt' (t : Fin cfg0.N) : t.val < 144 := lt_of_lt_of_eq t.isLt (show cfg0.N = 144 from N_0)

set_option maxHeartbeats 1600000 in
/-- A batch's first point establishes the invariant from nothing. -/
theorem invA (t : Fin cfg0.N) (hr : t.val % 36 = 0) : Inv m c t := by
  refine ⟨?_, ?_, ?_, ?_, ?_⟩
  · intro mm e
    rw [outsAt_A m c t hr]; dsimp only
    rw [pieceA_pre]; exact preOf_apply m c t mm e
  · intro _ mm e
    rw [outsAt_A m c t hr]; dsimp only
    rw [pieceA_acc, accStep_apply, pay1_apply, zero_add, hr, Cert.KernelIdeal.TileSums.part_succ, Cert.KernelIdeal.TileSums.part_zero, zero_add]
    refine Finset.sum_congr rfl fun p _ => ?_
    exact (gterm_row m c _ mm e 0 (by omega) p (rowOf t p) (by show 512 * min (t.val % 36) 31 + p.val = _; rw [hr]; simp)).symm
  · intro h; omega
  · intro _ p e
    rw [outsAt_A m c t hr]; dsimp only
    rw [pieceA_out]
    exact outS_apply m c t _ (preOf_apply m c t) p e
  · intro h; omega

/-- One more tile's 512 terms extend the partial sum. -/
theorem acc_step (t : Fin cfg0.N) (h1 : t.val % 36 < 32) (acc : Vec Ideal S2048x128 .f32)
    (hacc : ∀ mm e, acc (ix2 mm e) = Cert.KernelIdeal.TileSums.part (gterm m c (bOf t) mm e) (t.val % 36)) (mm : Fin 2048) (e : Fin 128) :
    k0_pay4 (F := Ideal) (tileS m c t) (tileW m c t) (tileR m c t) acc (ix2 mm e) = Cert.KernelIdeal.TileSums.part (gterm m c (bOf t) mm e) (t.val % 36 + 1) := by
  rw [accStep_apply, hacc, Cert.KernelIdeal.TileSums.part_succ]
  refine congrArg (fun z => Cert.KernelIdeal.TileSums.part (gterm m c (bOf t) mm e) (t.val % 36) + z) ?_
  refine Finset.sum_congr rfl fun p _ => ?_
  exact (gterm_row m c _ mm e (t.val % 36) h1 p (rowOf t p) (by show 512 * min (t.val % 36) 31 + p.val = _; rw [Nat.min_eq_left (by omega)])).symm

set_option maxHeartbeats 1600000 in
/-- A middle surface tile keeps the invariant. -/
theorem invB (t : Fin cfg0.N) (h0 : ¬t.val % 36 = 0) (h1 : t.val % 36 < 31)
    (hpre : ∀ mm e, (prevAt (F := Ideal) m c t).2.2.1 (ix2 mm e) = Cert.KSpec.xgh (argsAt m c) (bOf t) mm e)
    (hacc : ∀ mm e, (prevAt (F := Ideal) m c t).2.1 (ix2 mm e) = Cert.KernelIdeal.TileSums.part (gterm m c (bOf t) mm e) (t.val % 36)) : Inv m c t := by
  refine ⟨?_, ?_, ?_, ?_, ?_⟩
  · intro mm e
    rw [outsAt_B m c t h0 h1]; dsimp only
    exact hpre mm e
  · intro _ mm e
    rw [outsAt_B m c t h0 h1]; dsimp only
    rw [pieceB_acc]
    exact acc_step m c t (by omega) _ hacc mm e
  · intro h; omega
  · intro _ p e
    rw [outsAt_B m c t h0 h1]; dsimp only
    rw [pieceB_out]
    exact outS_apply m c t _ hpre p e
  · intro h; omega

set_option maxHeartbeats 1600000 in
/-- The last surface tile completes the sum and computes the finished graph rows. -/
theorem invC (t : Fin cfg0.N) (hr : t.val % 36 = 31)
    (hpre : ∀ mm e, (prevAt (F := Ideal) m c t).2.2.1 (ix2 mm e) = Cert.KSpec.xgh (argsAt m c) (bOf t) mm e)
    (hacc : ∀ mm e, (prevAt (F := Ideal) m c t).2.1 (ix2 mm e) = Cert.KernelIdeal.TileSums.part (gterm m c (bOf t) mm e) (t.val % 36)) : Inv m c t := by
  have hstep : ∀ mm e, k0_pay4 (F := Ideal) (tileS m c t) (tileW m c t) (tileR m c t) (prevAt (F := Ideal) m c t).2.1 (ix2 mm e)
      = Cert.KernelIdeal.TileSums.part (gterm m c (bOf t) mm e) 32 := by
    intro mm e
    rw [acc_step m c t (by omega) _ hacc mm e, hr]
  refine ⟨?_, ?_, ?_, ?_, ?_⟩
  · intro mm e
    rw [outsAt_C m c t hr]; dsimp only
    exact hpre mm e
  · intro _ mm e
    rw [outsAt_C m c t hr]; dsimp only
    rw [pieceC_acc, hstep, hr]
  · intro _
    refine ⟨?_, ?_⟩
    · intro mm e
      rw [outsAt_C m c t hr]; dsimp only
      rw [pieceC_acc, hstep]
    · intro mm e
      rw [outsAt_C m c t hr]; dsimp only
      rw [pieceC_new]
      exact newG_apply m c t _ _ hpre (fun mm e => (hstep mm e).trans (part_full_msgG m c _ mm e)) mm e
  · intro _ p e
    rw [outsAt_C m c t hr]; dsimp only
    rw [pieceC_out]
    exact outS_apply m c t _ hpre p e
  · intro h; omega

set_option maxHeartbeats 1600000 in
/-- A copy point keeps the three scratch buffers and copies 512 finished rows out. -/
theorem invD (t : Fin cfg0.N) (hr : 32 ≤ t.val % 36)
    (hpre : ∀ mm e, (prevAt (F := Ideal) m c t).2.2.1 (ix2 mm e) = Cert.KSpec.xgh (argsAt m c) (bOf t) mm e)
    (hacc : ∀ mm e, (prevAt (F := Ideal) m c t).2.1 (ix2 mm e) = Cert.KernelIdeal.TileSums.part (gterm m c (bOf t) mm e) 32)
    (hnew : ∀ mm e, (prevAt (F := Ideal) m c t).2.2.2 (ix2 mm e) = Cert.KSpec.newG (argsAt m c) Cert.ArgsOf.consts (bOf t) mm e) : Inv m c t := by
  refine ⟨?_, ?_, ?_, ?_, ?_⟩
  · intro mm e
    rw [outsAt_D m c t hr]; dsimp only
    exact hpre mm e
  · intro h; omega
  · intro _
    refine ⟨?_, ?_⟩
    · intro mm e
      rw [outsAt_D m c t hr]; dsimp only
      exact hacc mm e
    · intro mm e
      rw [outsAt_D m c t hr]; dsimp only
      exact hnew mm e
  · intro h; omega
  · intro _ p e
    rw [outsAt_D m c t hr]; dsimp only
    rw [pieceD_out, pay7_apply, sliceAt_apply t hr]
    exact hnew _ e

set_option maxHeartbeats 1600000 in
/-- The invariant, by induction on the grid position. -/
theorem inv_all : ∀ (n : ℕ) (hn : n < cfg0.N), Inv m c ⟨n, hn⟩
  | 0, hn => invA m c ⟨0, hn⟩ (Nat.zero_mod _)
  | n + 1, hn => by
    have IH := inv_all n (Nat.lt_of_succ_lt hn)
    have hN : n + 1 < 144 := lt_of_lt_of_eq hn (show cfg0.N = 144 from N_0)
    by_cases hr0 : (n + 1) % 36 = 0
    · exact invA m c ⟨n + 1, hn⟩ hr0
    · have hb : bOf (⟨n + 1, hn⟩ : Fin cfg0.N) = bOf (⟨n, Nat.lt_of_succ_lt hn⟩ : Fin cfg0.N) := Fin.ext (by show (n + 1) / 36 = n / 36; omega)
      have hi : (n + 1) % 36 = n % 36 + 1 := by omega
      have hpre : ∀ mm e, (prevAt (F := Ideal) m c ⟨n + 1, hn⟩).2.2.1 (ix2 mm e) = Cert.KSpec.xgh (argsAt m c) (bOf (⟨n + 1, hn⟩ : Fin cfg0.N)) mm e := by
        intro mm e; rw [hb]; exact IH.pre mm e
      by_cases hr1 : (n + 1) % 36 < 32
      · have hacc : ∀ mm e, (prevAt (F := Ideal) m c ⟨n + 1, hn⟩).2.1 (ix2 mm e) = Cert.KernelIdeal.TileSums.part (gterm m c (bOf (⟨n + 1, hn⟩ : Fin cfg0.N)) mm e) ((⟨n + 1, hn⟩ : Fin cfg0.N).val % 36) := by
          intro mm e; rw [hb]; show _ = Cert.KernelIdeal.TileSums.part _ ((n + 1) % 36); rw [hi]; exact IH.acc (by show n % 36 ≤ 31; omega) mm e
        by_cases hr2 : (n + 1) % 36 = 31
        · exact invC m c ⟨n + 1, hn⟩ hr2 hpre hacc
        · exact invB m c ⟨n + 1, hn⟩ hr0 (by show (n + 1) % 36 < 31; omega) hpre hacc
      · have hfin := IH.fin (by show 31 ≤ n % 36; omega)
        exact invD m c ⟨n + 1, hn⟩ (by show 32 ≤ (n + 1) % 36; omega) hpre
          (fun mm e => by rw [hb]; exact hfin.1 mm e) (fun mm e => by rw [hb]; exact hfin.2 mm e)

/-! ## The result array -/

/-- The specification, as contents of the result array. -/
def result : Buf (Elt Ideal) ((c : Thread nD τ).loc main_v18) :=
  fun j : S4x18432x128.Idx => Cert.KSpec.out (argsAt m c) Cert.ArgsOf.consts (j 0) (j 1) (j 2)

set_option maxHeartbeats 1600000 in
/-- What each point writes back is the specification's block there. -/
theorem flushed_eq (t : Fin cfg0.N) :
    (dats (F := Ideal) m 0 c).flushed 12 t = ((cfg0.win 12).blk t).view.read (Elt Ideal) (result m c) := by
  show (cfg0.win 12).cut (grid0.coords t) ((dats (F := Ideal) m 0 c).after 12 t) = _
  rw [after12]
  funext y
  obtain ⟨u, p, e, rfl⟩ : ∃ (u : Fin 1) (p : Fin 512) (e : Fin 128), y = ix3 u p e := ⟨y 0, y 1, y 2, eq_ix3 y⟩
  obtain rfl : u = 0 := Subsingleton.elim _ _
  rw [oblk12_apply]
  have hI : Inv m c t := inv_all m c t.val t.isLt
  have ht := tlt' t
  show (outsAt (F := Ideal) m c t.val t.isLt).1 (ix3 0 p e) = _
  unfold result
  by_cases hi : t.val % 36 < 32
  · rw [hI.outS hi p e]
    show _ = Cert.KSpec.out (argsAt m c) Cert.ArgsOf.consts (bOf t) ⟨512 * (t.val % 36) + p.val, _⟩ e
    unfold Cert.KSpec.out
    have hlt : 512 * (t.val % 36) + p.val < 16384 := by have := p.isLt; omega
    rw [dif_pos hlt]
    exact congrArg (fun r => Cert.KSpec.newS (argsAt m c) Cert.ArgsOf.consts (bOf t) r e)
      (Fin.ext (by show 512 * min (t.val % 36) 31 + p.val = 512 * (t.val % 36) + p.val; rw [Nat.min_eq_left (by omega)]))
  · rw [hI.outG (by omega) p e]
    show _ = Cert.KSpec.out (argsAt m c) Cert.ArgsOf.consts (bOf t) ⟨512 * (t.val % 36) + p.val, _⟩ e
    unfold Cert.KSpec.out
    have hge : ¬ 512 * (t.val % 36) + p.val < 16384 := by omega
    rw [dif_neg hge]
    exact congrArg (fun r => Cert.KSpec.newG (argsAt m c) Cert.ArgsOf.consts (bOf t) r e)
      (Fin.ext (by show 512 * (t.val % 36 - 32) + p.val = 512 * (t.val % 36) + p.val - 16384; omega))

/-- The 144 blocks tile the result array, so it ends at the specification. -/
theorem final : (dats (F := Ideal) m 0 c).arrAt 12 cfg0.N = result m c :=
  (dats (F := Ideal) m 0 c).arrAt_eq_of_cover 12 (result m c) (fun t _ => flushed_eq m c t) (fun j => cover12 j)

/-- The run, read: the result array at the specification, the twelve arguments unchanged. -/
theorem run : θ_run defs (onTc (τ := τ) (main (F := Ideal))) ⟨m, fun _ => 0, ρ⟩ (fun r => ∀ c : Dev nD,
      r.2.mem ((c.tc : Thread nD τ).loc main_v18) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 12).trans (final m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c)))⟩) (run_main (F := Ideal) m ρ)

end Cert.KernelIdeal.Value

end
-- ==== Proof.Algebraic.lean ====
/-
  The algebraic conjunct: the idealized kernel and the idealized reference, run from memories that agree on the twelve
  arguments, both terminate with equal results, index by index, and unchanged arguments.

  The kernel's run ends with its result array at the kernel's arrangement of the layer; that is all the comparison
  of the two programs asks of it.
-/
import proofs.«180177_j738734374947_2_alg».proof.Proof.AlgebraicOf
import proofs.«180177_j738734374947_2_alg».proof.Proof.KI.Value

noncomputable section

namespace Cert.Proof.Algebraic

/-- The two idealized programs end with equal results. -/
theorem algebraic : Cert.algebraic_KernelIdeal_ReferenceIdeal :=
  algebraic_of Cert.KernelIdeal.Value.run

end Cert.Proof.Algebraic

end
-- ==== Proof.lean ====
/-
  An RBF bipartite message-passing layer: surface points (features xs, coordinates vs) and graph points (xg, vg) of four
  batches.  Both sides apply a dense pre-layer with relu, weigh every (surface, graph) pair by a Gaussian of their
  squared distance cut off at distance 8, normalise each surface point's weights by their sum plus a small ε, pass the
  weighted features in both directions, and apply a dense post-layer with relu to (old features, message); the result is
  the new surface rows followed by the new graph rows.

  The kernel computes the squared distance as one eight-term contraction of augmented coordinate slabs, multiplies by the
  reciprocal of σ² (named 4/25) where the reference divides by σ², selects where the reference multiplies by a 0/1 mask,
  applies ONE reciprocal per row after (to the surface) or before (to the graph) the contraction where the reference
  divides every weight, and accumulates the graph message tile by tile.  On the extended reals, for finite inputs, these
  are the same numbers: every quantity is then a real, the row sums are positive, and the identities are distributivity
  and re-association of finite sums.

  The five claims: the three programs run to the end without a fault and leave their arguments alone; the one named
  constant is what the table says; and the two idealized programs end with equal result arrays.
-/
import proofs.«180177_j738734374947_2_alg».proof.Defs
import proofs.«180177_j738734374947_2_alg».proof.Proof.Gen.Kernel
import proofs.«180177_j738734374947_2_alg».proof.Proof.Gen.KernelIdeal
import proofs.«180177_j738734374947_2_alg».proof.Proof.Gen.ReferenceIdeal
import proofs.«180177_j738734374947_2_alg».proof.Proof.Gen.Pre_finite_inputs
import proofs.«180177_j738734374947_2_alg».proof.Proof.KB.Frame
import proofs.«180177_j738734374947_2_alg».proof.Proof.KI.Frame
import proofs.«180177_j738734374947_2_alg».proof.Proof.RefFrame
import proofs.«180177_j738734374947_2_alg».proof.Proof.NamedConst
import proofs.«180177_j738734374947_2_alg».proof.Proof.Algebraic
import Idealize.ShloMosaic.Adequacy
import Idealize.ShloMosaic.Init

noncomputable section

namespace Cert.Proof

open Idealize.ShloMosaic Idealize.SL.Sem

/-- The kernel as printed, read at the word level: it runs and leaves its arguments alone. -/
theorem frame_kernel : Cert.frame_Kernel := fun m ρ _ => Cert.Kernel.Hand.frame (F := Bits) m ρ

/-- The idealized kernel, read on the extended reals: the same. -/
theorem frame_kernel_ideal : Cert.frame_KernelIdeal := fun m ρ _ => Cert.KernelIdeal.Hand.frame (F := Ideal) m ρ

theorem claim : Cert.Claim := ⟨Cert.Kernel.Gen.facts, Cert.KernelIdeal.Gen.facts, Cert.ReferenceIdeal.Gen.facts, Cert.Pre_finite_inputs.Gen.facts,
  frame_kernel, frame_kernel_ideal, Cert.Proof.RefFrame.frame_ref, Cert.Proof.NamedConst.preserves, Cert.Proof.Algebraic.algebraic⟩

end Cert.Proof

end
